-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v43)) (v1 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_v89) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v110) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000x64 : Shape := ⟨2, ![800000, 64]⟩
abbrev S64x64 : Shape := ⟨2, ![64, 64]⟩
abbrev S64 : Shape := ⟨1, ![64]⟩
abbrev S192x64 : Shape := ⟨2, ![192, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S192x64 : S_.BroadcastsInDim S192x64 (![] : Fin 0 → Fin S192x64.rank)
  reducesTo_S192x64_S_d0_1 : S192x64.ReducesTo [0, 1] S_

variable [Facts]

def fn_part5 {F : FTy → Type} [FloatOps F] (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  main_v88

def fn_part4 {F : FTy → Type} [FloatOps F] (main_arg15 : FVec F S64x64 .f32) (main_arg16 : FVec F S64 .f32) (main_arg17 : FVec F S64 .f32) (main_arg18 : FVec F S64 .f32) (main_v63 : IVec S_ 1) (main_v67 : IVec S_ 1) : IVec S_ 1 :=
  let main_v68 : IVec S_ 1 := andi main_v63 main_v67
  let main_v69 : FVec F S64x64 .f32 := Host.absf main_arg15
  let main_cst_26 : FVec F S_ .f32 := constant S_ .f32 0x7F800000#32
  let main_v70 : FVec F S64x64 .f32 := broadcastInDim S64x64 ![] bcast_S_S64x64 main_cst_26
  let main_v71 : IVec S64x64 1 := cmpf .olt main_v69 main_v70
  let main_c_27 : IVec S_ 1 := constantI S_ 1 1#1
  let main_v72 : IVec S_ 1 := (fun x v => Host.reduce IntOp.andi x v reducesTo_S64x64_S_d0_1 h_S_) main_v71 main_c_27
  let main_v73 : IVec S_ 1 := andi main_v68 main_v72
  let main_v74 : FVec F S64 .f32 := Host.absf main_arg16
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64 .f32 := Host.absf main_arg17
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64 .f32 := Host.absf main_arg18
  let main_cst_32 : FVec F S_ .f32 := constant S_ .f32 0x7F800000#32
  fn_part5 (F := F) main_v83 main_v84 main_cst_32

def fn_part3 {F : FTy → Type} [FloatOps F] (main_arg12 : FVec F S64 .f32) (main_arg13 : FVec F S64x64 .f32) (main_arg14 : FVec F S64 .f32) (main_arg15 : FVec F S64x64 .f32) (main_arg16 : FVec F S64 .f32) (main_arg17 : FVec F S64 .f32) (main_arg18 : FVec F S64 .f32) (main_v48 : IVec S_ 1) (main_v49 : FVec F S192x64 .f32) (main_v50 : FVec F S192x64 .f32) : IVec S_ 1 :=
  let main_v51 : IVec S192x64 1 := cmpf .olt main_v49 main_v50
  let main_c_19 : IVec S_ 1 := constantI S_ 1 1#1
  let main_v52 : IVec S_ 1 := (fun x v => Host.reduce IntOp.andi x v reducesTo_S192x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x64 .f32 := Host.absf main_arg13
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg15 main_arg16 main_arg17 main_arg18 main_v63 main_v67

def fn_part2 {F : FTy → Type} [FloatOps F] (main_arg8 : FVec F S64 .f32) (main_arg9 : FVec F S64 .f32) (main_arg10 : FVec F S64 .f32) (main_arg11 : FVec F S192x64 .f32) (main_arg12 : FVec F S64 .f32) (main_arg13 : FVec F S64x64 .f32) (main_arg14 : FVec F S64 .f32) (main_arg15 : FVec F S64x64 .f32) (main_arg16 : FVec F S64 .f32) (main_arg17 : FVec F S64 .f32) (main_arg18 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S192x64 .f32 := Host.absf main_arg11
  let main_cst_18 : FVec F S_ .f32 := constant S_ .f32 0x7F800000#32
  let main_v50 : FVec F S192x64 .f32 := broadcastInDim S192x64 ![] bcast_S_S192x64 main_cst_18
  fn_part3 (F := F) main_arg12 main_arg13 main_arg14 main_arg15 main_arg16 main_arg17 main_arg18 main_v48 main_v49 main_v50

def fn_part1 {F : FTy → Type} [FloatOps F] (main_arg5 : FVec F S64x64 .f32) (main_arg6 : FVec F S64 .f32) (main_arg7 : FVec F S64x64 .f32) (main_arg8 : FVec F S64 .f32) (main_arg9 : FVec F S64 .f32) (main_arg10 : FVec F S64 .f32) (main_arg11 : FVec F S192x64 .f32) (main_arg12 : FVec F S64 .f32) (main_arg13 : FVec F S64x64 .f32) (main_arg14 : FVec F S64 .f32) (main_arg15 : FVec F S64x64 .f32) (main_arg16 : FVec F S64 .f32) (main_arg17 : FVec F S64 .f32) (main_arg18 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_v33

def fn {F : FTy → Type} [FloatOps F] (main_arg0 : FVec F S50000x64 .f32) (main_arg1 : IVec S2x800000 32) (main_arg2 : FVec F S800000x64 .f32) (main_arg3 : FVec F S64x64 .f32) (main_arg4 : FVec F S64 .f32) (main_arg5 : FVec F S64x64 .f32) (main_arg6 : FVec F S64 .f32) (main_arg7 : FVec F S64x64 .f32) (main_arg8 : FVec F S64 .f32) (main_arg9 : FVec F S64 .f32) (main_arg10 : FVec F S64 .f32) (main_arg11 : FVec F S192x64 .f32) (main_arg12 : FVec F S64 .f32) (main_arg13 : FVec F S64x64 .f32) (main_arg14 : FVec F S64 .f32) (main_arg15 : FVec F S64x64 .f32) (main_arg16 : FVec F S64 .f32) (main_arg17 : FVec F S64 .f32) (main_arg18 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x64 .f32 := Host.absf main_arg2
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_arg14 main_arg15 main_arg16 main_arg17 main_arg18 main_v13 main_v16
-- ==== Kernel.lean ====
abbrev S50000x64 : Shape := ⟨2, ![50000, 64]⟩
abbrev S2x800000 : Shape := ⟨2, ![2, 800000]⟩
abbrev S800000x64 : Shape := ⟨2, ![800000, 64]⟩
abbrev S64x64 : Shape := ⟨2, ![64, 64]⟩
abbrev S64 : Shape := ⟨1, ![64]⟩
abbrev S192x64 : Shape := ⟨2, ![192, 64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1x64 : Shape := ⟨2, ![1, 64]⟩
abbrev S8000x64 : Shape := ⟨2, ![8000, 64]⟩
abbrev S10x2x64 : Shape := ⟨3, ![10, 2, 64]⟩
abbrev S5000x64 : Shape := ⟨2, ![5000, 64]⟩
abbrev S1x2x64 : Shape := ⟨3, ![1, 2, 64]⟩
abbrev S2x64 : Shape := ⟨2, ![2, 64]⟩
abbrev S10x1x64 : Shape := ⟨3, ![10, 1, 64]⟩
abbrev S10x64 : Shape := ⟨2, ![10, 64]⟩
abbrev S25000x128 : Shape := ⟨2, ![25000, 128]⟩
abbrev S128 : Shape := ⟨1, ![128]⟩
abbrev S1x128 : Shape := ⟨2, ![1, 128]⟩
abbrev S5000x128 : Shape := ⟨2, ![5000, 128]⟩
abbrev S200x2x64 : Shape := ⟨3, ![200, 2, 64]⟩
abbrev S4000x64 : Shape := ⟨2, ![4000, 64]⟩
abbrev S200x1x64 : Shape := ⟨3, ![200, 1, 64]⟩
abbrev S200x64 : Shape := ⟨2, ![200, 64]⟩
abbrev S400000x128 : Shape := ⟨2, ![400000, 128]⟩
abbrev S4000x128 : Shape := ⟨2, ![4000, 128]⟩

abbrev nBuf : Space → Nat
  | .hbm => 128
  | .vmem => 54
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S192x64, .f32⟩
  | .hbm, ⟨12, _⟩ => ⟨S64, .f32⟩
  | .hbm, ⟨13, _⟩ => ⟨S64x64, .f32⟩
  | .hbm, ⟨14, _⟩ => ⟨S64, .f32⟩
  | .hbm, ⟨15, _⟩ => ⟨S64x64, .f32⟩
  | .hbm, ⟨16, _⟩ => ⟨S64, .f32⟩
  | .hbm, ⟨17, _⟩ => ⟨S64, .f32⟩
  | .hbm, ⟨18, _⟩ => ⟨S64, .f32⟩
  | .hbm, ⟨19, _⟩ => ⟨S1x800000, .i32⟩
  | .hbm, ⟨20, _⟩ => ⟨S800000, .i32⟩
  | .hbm, ⟨21, _⟩ => ⟨S1x800000, .i32⟩
  | .hbm, ⟨22, _⟩ => ⟨S800000, .i32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000x64, .f32⟩
  | .hbm, ⟨32, _⟩ => ⟨S1x64, .f32⟩
  | .hbm, ⟨33, _⟩ => ⟨S800000x64, .f32⟩
  | .hbm, ⟨34, _⟩ => ⟨S_, .f32⟩
  | .hbm, ⟨35, _⟩ => ⟨S50000x64, .f32⟩
  | .hbm, ⟨36, _⟩ => ⟨S800000x1, .i32⟩
  | .hbm, ⟨37, _⟩ => ⟨S50000x64, .f32⟩
  | .hbm, ⟨38, _⟩ => ⟨S1x64, .f32⟩
  | .hbm, ⟨39, _⟩ => ⟨S1x64, .f32⟩
  | .hbm, ⟨40, _⟩ => ⟨S50000x64, .f32⟩
  | .hbm, ⟨41, _⟩ => ⟨S10x2x64, .f32⟩
  | .hbm, ⟨42, _⟩ => ⟨S10x1x64, .f32⟩
  | .hbm, ⟨43, _⟩ => ⟨S10x64, .f32⟩
  | .hbm, ⟨44, _⟩ => ⟨S_, .f32⟩
  | .hbm, ⟨45, _⟩ => ⟨S64, .f32⟩
  | .hbm, ⟨46, _⟩ => ⟨S10x1x64, .f32⟩
  | .hbm, ⟨47, _⟩ => ⟨S10x64, .f32⟩
  | .hbm, ⟨48, _⟩ => ⟨S_, .f32⟩
  | .hbm, ⟨49, _⟩ => ⟨S64, .f32⟩
  | .hbm, ⟨50, _⟩ => ⟨S_, .f32⟩
  | .hbm, ⟨51, _⟩ => ⟨S64, .f32⟩
  | .hbm, ⟨52, _⟩ => ⟨S64, .f32⟩
  | .hbm, ⟨53, _⟩ => ⟨S_, .f32⟩
  | .hbm, ⟨54, _⟩ => ⟨S64, .f32⟩
  | .hbm, ⟨55, _⟩ => ⟨S64, .f32⟩
  | .hbm, ⟨56, _⟩ => ⟨S64, .f32⟩
  | .hbm, ⟨57, _⟩ => ⟨S64, .f32⟩
  | .hbm, ⟨58, _⟩ => ⟨S_, .f32⟩
  | .hbm, ⟨59, _⟩ => ⟨S64, .f32⟩
  | .hbm, ⟨60, _⟩ => ⟨S64, .f32⟩
  | .hbm, ⟨61, _⟩ => ⟨S25000x128, .f32⟩
  | .hbm, ⟨62, _⟩ => ⟨S128, .f32⟩
  | .hbm, ⟨63, _⟩ => ⟨S1x128, .f32⟩
  | .hbm, ⟨64, _⟩ => ⟨S128, .f32⟩
  | .hbm, ⟨65, _⟩ => ⟨S1x128, .f32⟩
  | .hbm, ⟨66, _⟩ => ⟨S128, .f32⟩
  | .hbm, ⟨67, _⟩ => ⟨S1x128, .f32⟩
  | .hbm, ⟨68, _⟩ => ⟨S128, .f32⟩
  | .hbm, ⟨69, _⟩ => ⟨S1x128, .f32⟩
  | .hbm, ⟨70, _⟩ => ⟨S25000x128, .f32⟩
  | .hbm, ⟨71, _⟩ => ⟨S50000x64, .f32⟩
  | .hbm, ⟨72, _⟩ => ⟨S_, .i32⟩
  | .hbm, ⟨73, _⟩ => ⟨S800000, .i32⟩
  | .hbm, ⟨74, _⟩ => ⟨S800000, .i1⟩
  | .hbm, ⟨75, _⟩ => ⟨S_, .i32⟩
  | .hbm, ⟨76, _⟩ => ⟨S800000, .i32⟩
  | .hbm, ⟨77, _⟩ => ⟨S800000, .i32⟩
  | .hbm, ⟨78, _⟩ => ⟨S800000, .i32⟩
  | .hbm, ⟨79, _⟩ => ⟨S800000x1, .i32⟩
  | .hbm, ⟨80, _⟩ => ⟨S800000x64, .f32⟩
  | .hbm, ⟨81, _⟩ => ⟨S_, .i32⟩
  | .hbm, ⟨82, _⟩ => ⟨S800000, .i32⟩
  | .hbm, ⟨83, _⟩ => ⟨S800000, .i1⟩
  | .hbm, ⟨84, _⟩ => ⟨S_, .i32⟩
  | .hbm, ⟨85, _⟩ => ⟨S800000, .i32⟩
  | .hbm, ⟨86, _⟩ => ⟨S800000, .i32⟩
  | .hbm, ⟨87, _⟩ => ⟨S800000, .i32⟩
  | .hbm, ⟨88, _⟩ => ⟨S800000x1, .i32⟩
  | .hbm, ⟨89, _⟩ => ⟨S800000x64, .f32⟩
  | .hbm, ⟨90, _⟩ => ⟨S64x64, .f32⟩
  | .hbm, ⟨91, _⟩ => ⟨S64x64, .f32⟩
  | .hbm, ⟨92, _⟩ => ⟨S64x64, .f32⟩
  | .hbm, ⟨93, _⟩ => ⟨S1x64, .f32⟩
  | .hbm, ⟨94, _⟩ => ⟨S1x64, .f32⟩
  | .hbm, ⟨95, _⟩ => ⟨S1x64, .f32⟩
  | .hbm, ⟨96, _⟩ => ⟨S800000x64, .f32⟩
  | .hbm, ⟨97, _⟩ => ⟨S200x2x64, .f32⟩
  | .hbm, ⟨98, _⟩ => ⟨S200x1x64, .f32⟩
  | .hbm, ⟨99, _⟩ => ⟨S200x64, .f32⟩
  | .hbm, ⟨100, _⟩ => ⟨S_, .f32⟩
  | .hbm, ⟨101, _⟩ => ⟨S64, .f32⟩
  | .hbm, ⟨102, _⟩ => ⟨S200x1x64, .f32⟩
  | .hbm, ⟨103, _⟩ => ⟨S200x64, .f32⟩
  | .hbm, ⟨104, _⟩ => ⟨S_, .f32⟩
  | .hbm, ⟨105, _⟩ => ⟨S64, .f32⟩
  | .hbm, ⟨106, _⟩ => ⟨S_, .f32⟩
  | .hbm, ⟨107, _⟩ => ⟨S64, .f32⟩
  | .hbm, ⟨108, _⟩ => ⟨S64, .f32⟩
  | .hbm, ⟨109, _⟩ => ⟨S_, .f32⟩
  | .hbm, ⟨110, _⟩ => ⟨S64, .f32⟩
  | .hbm, ⟨111, _⟩ => ⟨S64, .f32⟩
  | .hbm, ⟨112, _⟩ => ⟨S64, .f32⟩
  | .hbm, ⟨113, _⟩ => ⟨S64, .f32⟩
  | .hbm, ⟨114, _⟩ => ⟨S_, .f32⟩
  | .hbm, ⟨115, _⟩ => ⟨S64, .f32⟩
  | .hbm, ⟨116, _⟩ => ⟨S64, .f32⟩
  | .hbm, ⟨117, _⟩ => ⟨S400000x128, .f32⟩
  | .hbm, ⟨118, _⟩ => ⟨S128, .f32⟩
  | .hbm, ⟨119, _⟩ => ⟨S1x128, .f32⟩
  | .hbm, ⟨120, _⟩ => ⟨S128, .f32⟩
  | .hbm, ⟨121, _⟩ => ⟨S1x128, .f32⟩
  | .hbm, ⟨122, _⟩ => ⟨S128, .f32⟩
  | .hbm, ⟨123, _⟩ => ⟨S1x128, .f32⟩
  | .hbm, ⟨124, _⟩ => ⟨S128, .f32⟩
  | .hbm, ⟨125, _⟩ => ⟨S1x128, .f32⟩
  | .hbm, ⟨126, _⟩ => ⟨S400000x128, .f32⟩
  | .hbm, ⟨127, _⟩ => ⟨S800000x64, .f32⟩
  | .local _ .vmem, ⟨0, _⟩ => ⟨S8000x64, .f32⟩
  | .local _ .vmem, ⟨1, _⟩ => ⟨S8000x64, .f32⟩
  | .local _ .vmem, ⟨2, _⟩ => ⟨S8000x64, .f32⟩
  | .local _ .vmem, ⟨3, _⟩ => ⟨S8000x64, .f32⟩
  | .local _ .vmem, ⟨4, _⟩ => ⟨S64x64, .f32⟩
  | .local _ .vmem, ⟨5, _⟩ => ⟨S1x64, .f32⟩
  | .local _ .vmem, ⟨6, _⟩ => ⟨S8000x64, .f32⟩
  | .local _ .vmem, ⟨7, _⟩ => ⟨S8000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S1x64, .f32⟩
  | .local _ .vmem, ⟨14, _⟩ => ⟨S64x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | .local _ .vmem, ⟨18, _⟩ => ⟨S1x2x64, .f32⟩
  | .local _ .vmem, ⟨19, _⟩ => ⟨S1x2x64, .f32⟩
  | .local _ .vmem, ⟨20, _⟩ => ⟨S5000x128, .f32⟩
  | .local _ .vmem, ⟨21, _⟩ => ⟨S5000x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S4000x64, .f32⟩
  | .local _ .vmem, ⟨29, _⟩ => ⟨S4000x64, .f32⟩
  | .local _ .vmem, ⟨30, _⟩ => ⟨S4000x64, .f32⟩
  | .local _ .vmem, ⟨31, _⟩ => ⟨S4000x64, .f32⟩
  | .local _ .vmem, ⟨32, _⟩ => ⟨S4000x64, .f32⟩
  | .local _ .vmem, ⟨33, _⟩ => ⟨S4000x64, .f32⟩
  | .local _ .vmem, ⟨34, _⟩ => ⟨S64x64, .f32⟩
  | .local _ .vmem, ⟨35, _⟩ => ⟨S64x64, .f32⟩
  | .local _ .vmem, ⟨36, _⟩ => ⟨S64x64, .f32⟩
  | .local _ .vmem, ⟨37, _⟩ => ⟨S1x64, .f32⟩
  | .local _ .vmem, ⟨38, _⟩ => ⟨S64x64, .f32⟩
  | .local _ .vmem, ⟨39, _⟩ => ⟨S1x64, .f32⟩
  | .local _ .vmem, ⟨40, _⟩ => ⟨S64x64, .f32⟩
  | .local _ .vmem, ⟨41, _⟩ => ⟨S1x64, .f32⟩
  | .local _ .vmem, ⟨42, _⟩ => ⟨S4000x64, .f32⟩
  | .local _ .vmem, ⟨43, _⟩ => ⟨S4000x64, .f32⟩
  | .local _ .vmem, ⟨44, _⟩ => ⟨S1x2x64, .f32⟩
  | .local _ .vmem, ⟨45, _⟩ => ⟨S1x2x64, .f32⟩
  | .local _ .vmem, ⟨46, _⟩ => ⟨S4000x128, .f32⟩
  | .local _ .vmem, ⟨47, _⟩ => ⟨S4000x128, .f32⟩
  | .local _ .vmem, ⟨48, _⟩ => ⟨S1x128, .f32⟩
  | .local _ .vmem, ⟨49, _⟩ => ⟨S1x128, .f32⟩
  | .local _ .vmem, ⟨50, _⟩ => ⟨S1x128, .f32⟩
  | .local _ .vmem, ⟨51, _⟩ => ⟨S1x128, .f32⟩
  | .local _ .vmem, ⟨52, _⟩ => ⟨S4000x128, .f32⟩
  | .local _ .vmem, ⟨53, _⟩ => ⟨S4000x128, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_cst : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18_0 : Ref sig .tc := ⟨.hbm, 40, rfl⟩
abbrev main_v18_1 : Ref sig .tc := ⟨.hbm, 41, rfl⟩
abbrev main_v19 : Ref sig .tc := ⟨.hbm, 42, rfl⟩
abbrev main_v20 : Ref sig .tc := ⟨.hbm, 43, rfl⟩
abbrev main_cst_1 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_cst_2 : Ref sig .tc := ⟨.hbm, 48, rfl⟩
abbrev main_v24 : Ref sig .tc := ⟨.hbm, 49, rfl⟩
abbrev main_cst_3 : Ref sig .tc := ⟨.hbm, 50, rfl⟩
abbrev main_v25 : Ref sig .tc := ⟨.hbm, 51, rfl⟩
abbrev main_v26 : Ref sig .tc := ⟨.hbm, 52, rfl⟩
abbrev main_cst_4 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_cst_5 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_c_6 : Ref sig .tc := ⟨.hbm, 72, rfl⟩
abbrev main_v44 : Ref sig .tc := ⟨.hbm, 73, rfl⟩
abbrev main_v45 : Ref sig .tc := ⟨.hbm, 74, rfl⟩
abbrev main_c_7 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_c_8 : Ref sig .tc := ⟨.hbm, 81, rfl⟩
abbrev main_v51 : Ref sig .tc := ⟨.hbm, 82, rfl⟩
abbrev main_v52 : Ref sig .tc := ⟨.hbm, 83, rfl⟩
abbrev main_c_9 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64_0 : Ref sig .tc := ⟨.hbm, 96, rfl⟩
abbrev main_v64_1 : Ref sig .tc := ⟨.hbm, 97, rfl⟩
abbrev main_v65 : Ref sig .tc := ⟨.hbm, 98, rfl⟩
abbrev main_v66 : Ref sig .tc := ⟨.hbm, 99, rfl⟩
abbrev main_cst_10 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_11 : Ref sig .tc := ⟨.hbm, 104, rfl⟩
abbrev main_v70 : Ref sig .tc := ⟨.hbm, 105, rfl⟩
abbrev main_cst_12 : Ref sig .tc := ⟨.hbm, 106, rfl⟩
abbrev main_v71 : Ref sig .tc := ⟨.hbm, 107, rfl⟩
abbrev main_v72 : Ref sig .tc := ⟨.hbm, 108, rfl⟩
abbrev main_cst_13 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_cst_14 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc1_stg7_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg2_1 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg6_0 : Ref sig .tc := ⟨.vmem, 37, rfl⟩
abbrev cc3_stg7_0 : Ref sig .tc := ⟨.vmem, 38, rfl⟩
abbrev cc3_stg8_0 : Ref sig .tc := ⟨.vmem, 39, rfl⟩
abbrev cc3_stg9_0 : Ref sig .tc := ⟨.vmem, 40, rfl⟩
abbrev cc3_stg10_0 : Ref sig .tc := ⟨.vmem, 41, rfl⟩
abbrev cc3_stg11_0 : Ref sig .tc := ⟨.vmem, 42, rfl⟩
abbrev cc3_stg11_1 : Ref sig .tc := ⟨.vmem, 43, rfl⟩
abbrev cc3_stg12_0 : Ref sig .tc := ⟨.vmem, 44, rfl⟩
abbrev cc3_stg12_1 : Ref sig .tc := ⟨.vmem, 45, rfl⟩
abbrev cc4_stg0_0 : Ref sig .tc := ⟨.vmem, 46, rfl⟩
abbrev cc4_stg0_1 : Ref sig .tc := ⟨.vmem, 47, rfl⟩
abbrev cc4_stg1_0 : Ref sig .tc := ⟨.vmem, 48, rfl⟩
abbrev cc4_stg2_0 : Ref sig .tc := ⟨.vmem, 49, rfl⟩
abbrev cc4_stg3_0 : Ref sig .tc := ⟨.vmem, 50, rfl⟩
abbrev cc4_stg4_0 : Ref sig .tc := ⟨.vmem, 51, rfl⟩
abbrev cc4_stg5_0 : Ref sig .tc := ⟨.vmem, 52, rfl⟩
abbrev cc4_stg5_1 : Ref sig .tc := ⟨.vmem, 53, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17
abbrev cc1_sem7_0 : DmaSem sig := 18
abbrev cc1_sem7_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem5_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem2_1 : DmaSem sig := 33
abbrev cc3_sem3_0 : DmaSem sig := 34
abbrev cc3_sem4_0 : DmaSem sig := 35
abbrev cc3_sem5_0 : DmaSem sig := 36
abbrev cc3_sem6_0 : DmaSem sig := 37
abbrev cc3_sem7_0 : DmaSem sig := 38
abbrev cc3_sem8_0 : DmaSem sig := 39
abbrev cc3_sem9_0 : DmaSem sig := 40
abbrev cc3_sem10_0 : DmaSem sig := 41
abbrev cc3_sem11_0 : DmaSem sig := 42
abbrev cc3_sem11_1 : DmaSem sig := 43
abbrev cc3_sem12_0 : DmaSem sig := 44
abbrev cc3_sem12_1 : DmaSem sig := 45
abbrev cc4_sem0_0 : DmaSem sig := 46
abbrev cc4_sem0_1 : DmaSem sig := 47
abbrev cc4_sem1_0 : DmaSem sig := 48
abbrev cc4_sem2_0 : DmaSem sig := 49
abbrev cc4_sem3_0 : DmaSem sig := 50
abbrev cc4_sem4_0 : DmaSem sig := 51
abbrev cc4_sem5_0 : DmaSem sig := 52
abbrev cc4_sem5_1 : DmaSem sig := 53

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x2x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![200], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_12 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S4000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S64x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x64 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S64x64 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x64 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 2 → Memref sig .tc .vmem S4000x64 .f32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true]

abbrev stage3_12 : Fin 2 → Memref sig .tc .vmem S1x2x64 .f32 := fun | 0 => Memref.whole cc3_stg12_0 | 1 => Memref.whole cc3_stg12_1 | ⟨_ + 2, h⟩ => absurd h (Nat.not_lt.2 (Nat.le_add_left _ _))
abbrev sem3_12 : Fin 2 → DmaSem sig := fun | 0 => cc3_sem12_0 | 1 => cc3_sem12_1 | ⟨_ + 2, h⟩ => absurd h (Nat.not_lt.2 (Nat.le_add_left _ _))
abbrev reads3_12 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S4000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  shapeCasts_S64_S1x64 : S64.ShapeCasts S1x64
  inb_S8000x64_S8000x64_0_0 : ∀ a, (![0, 0] : Fin 2 → Nat) a + S8000x64.size a ≤ S8000x64.size a
  h_S8000x64 : 0 < S8000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S8000x64_S8000x64 : S8000x64.ShapeCasts S8000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  bcast_S_S50000x64 : S_.BroadcastsInDim S50000x64 (![] : Fin 0 → Fin S50000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S1x64_S5000x64 : S1x64.Broadcasts S5000x64
  reduces_S5000x64_S64 : S5000x64.Reduces [0] S64
  concatenates_S1x64_S1x64_S2x64_d0 : Shape.Concatenates [S1x64, S1x64] S2x64 0
  shapeCasts_S2x64_S1x2x64 : S2x64.ShapeCasts S1x2x64
  inb_S1x2x64_S1x2x64_0_0_0 : ∀ a, (![0, 0, 0] : Fin 3 → Nat) a + S1x2x64.size a ≤ S1x2x64.size a
  h_S1x2x64 : 0 < S1x2x64.numel
  slices_S10x2x64_S10x1x64_0_0_0 : S10x2x64.Slices ![0, 0, 0] S10x1x64
  shapeCasts_S10x1x64_S10x64 : S10x1x64.ShapeCasts S10x64
  reducesTo_S10x64_S64_d0 : S10x64.ReducesTo [0] S64
  h_S_ : 0 < S_.numel
  slices_S10x2x64_S10x1x64_0_1_0 : S10x2x64.Slices ![0, 1, 0] S10x1x64
  bcast_S_S64 : S_.BroadcastsInDim S64 (![] : Fin 0 → Fin S64.rank)
  shapeCasts_S50000x64_S25000x128 : S50000x64.ShapeCasts S25000x128
  concatenates_S64_S64_S128_d0 : Shape.Concatenates [S64, S64] S128 0
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  shapeCasts_S25000x128_S50000x64 : S25000x128.ShapeCasts S50000x64
  slices_S192x64_S64x64_0_0 : S192x64.Slices ![0, 0] S64x64
  slices_S192x64_S64x64_64_0 : S192x64.Slices ![64, 0] S64x64
  slices_S192x64_S64x64_128_0 : S192x64.Slices ![128, 0] S64x64
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  shapeCasts_S64x64_S64x64 : S64x64.ShapeCasts S64x64
  broadcasts_S1x64_S4000x64 : S1x64.Broadcasts S4000x64
  reduces_S4000x64_S64 : S4000x64.Reduces [0] S64
  slices_S200x2x64_S200x1x64_0_0_0 : S200x2x64.Slices ![0, 0, 0] S200x1x64
  shapeCasts_S200x1x64_S200x64 : S200x1x64.ShapeCasts S200x64
  reducesTo_S200x64_S64_d0 : S200x64.ReducesTo [0] S64
  slices_S200x2x64_S200x1x64_0_1_0 : S200x2x64.Slices ![0, 1, 0] S200x1x64
  shapeCasts_S800000x64_S400000x128 : S800000x64.ShapeCasts S400000x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  broadcasts_S1x128_S4000x128 : S1x128.Broadcasts S4000x128
  shapeCasts_S400000x128_S800000x64 : S400000x128.ShapeCasts S800000x64
  gather_S50000x64_S800000x1_S800000x64_1_0_n_n_0_1_164_wf : GatherDims.WF S50000x64 S800000x1 S800000x64 [1] [0] [] [0] [] 1 ![1, 64]
  dot_S8000x64_S64x64_S8000x64_1_0_0_1_n_n_wf : DotDims.WF S8000x64 S64x64 S8000x64 [1] [0] [0] [1] [] []
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  dot_S4000x64_S64x64_S4000x64_1_0_0_1_n_n_wf : DotDims.WF S4000x64 S64x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S800000x64.size a
  hwx0_0 : ∀ i : grid0.Coords, EltTy.bits .f32 = 32 ∨ (Rect.block (s := S800000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S800000x64.size a
  hwx0_1 : ∀ i : grid0.Coords, EltTy.bits .f32 = 32 ∨ (Rect.block (s := S800000x64) S8000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8000x64.size a ≤ S800000x64.size a
  hwx0_4 : ∀ i : grid0.Coords, EltTy.bits .f32 = 32 ∨ (Rect.block (s := S800000x64) S8000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S50000x64.size a
  hwx1_6 : ∀ i : grid1.Coords, EltTy.bits .f32 = 32 ∨ (Rect.block (s := S50000x64) S5000x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x2x64.size a ≤ S10x2x64.size a
  hwx1_7 : ∀ i : grid1.Coords, EltTy.bits .f32 = 32 ∨ (Rect.block (s := S10x2x64) S1x2x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S25000x128.size a
  hwx2_0 : ∀ i : grid2.Coords, EltTy.bits .f32 = 32 ∨ (Rect.block (s := S25000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S25000x128.size a
  hwx2_5 : ∀ i : grid2.Coords, EltTy.bits .f32 = 32 ∨ (Rect.block (s := S25000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x64.size a ≤ S800000x64.size a
  hwx3_0 : ∀ i : grid3.Coords, EltTy.bits .f32 = 32 ∨ (Rect.block (s := S800000x64) S4000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x64.size a ≤ S800000x64.size a
  hwx3_1 : ∀ i : grid3.Coords, EltTy.bits .f32 = 32 ∨ (Rect.block (s := S800000x64) S4000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x64.size a ≤ S800000x64.size a
  hwx3_2 : ∀ i : grid3.Coords, EltTy.bits .f32 = 32 ∨ (Rect.block (s := S800000x64) S4000x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x64.size a ≤ S64x64.size a
  hwx3_5 : ∀ i : grid3.Coords, EltTy.bits .f32 = 32 ∨ (Rect.block (s := S64x64) S64x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S64x64.size a ≤ S64x64.size a
  hwx3_7 : ∀ i : grid3.Coords, EltTy.bits .f32 = 32 ∨ (Rect.block (s := S64x64) S64x64.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x64.size a ≤ S1x64.size a
  hwx3_8 : ∀ i : grid3.Coords, EltTy.bits .f32 = 32 ∨ (Rect.block (s := S1x64) S1x64.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S64x64.size a ≤ S64x64.size a
  hwx3_9 : ∀ i : grid3.Coords, EltTy.bits .f32 = 32 ∨ (Rect.block (s := S64x64) S64x64.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S1x64.size a ≤ S1x64.size a
  hwx3_10 : ∀ i : grid3.Coords, EltTy.bits .f32 = 32 ∨ (Rect.block (s := S1x64) S1x64.size (cc3_transform_10 i) (hinb3_10 i)).WholeWords (EltTy.packing .f32)
  hstage3_11 : ∀ j, (stage3_11 j).IsWhole
  nbuf3_11 : grid3.bufCount reads3_11 false = 2
  hreads3_11 : ∀ i i' : grid3.Coords, (∀ a, reads3_11 a = true → i a = i' a) → cc3_transform_11 i = cc3_transform_11 i'
  hinb3_11 : ∀ (i : grid3.Coords) a, (cc3_transform_11 i a + 1) * S4000x64.size a ≤ S800000x64.size a
  hwx3_11 : ∀ i : grid3.Coords, EltTy.bits .f32 = 32 ∨ (Rect.block (s := S800000x64) S4000x64.size (cc3_transform_11 i) (hinb3_11 i)).WholeWords (EltTy.packing .f32)
  hstage3_12 : ∀ j, (stage3_12 j).IsWhole
  nbuf3_12 : grid3.bufCount reads3_12 false = 2
  hreads3_12 : ∀ i i' : grid3.Coords, (∀ a, reads3_12 a = true → i a = i' a) → cc3_transform_12 i = cc3_transform_12 i'
  hinb3_12 : ∀ (i : grid3.Coords) a, (cc3_transform_12 i a + 1) * S1x2x64.size a ≤ S200x2x64.size a
  hwx3_12 : ∀ i : grid3.Coords, EltTy.bits .f32 = 32 ∨ (Rect.block (s := S200x2x64) S1x2x64.size (cc3_transform_12 i) (hinb3_12 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S400000x128.size a
  hwx4_0 : ∀ i : grid4.Coords, EltTy.bits .f32 = 32 ∨ (Rect.block (s := S400000x128) S4000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S4000x128.size a ≤ S400000x128.size a
  hwx4_5 : ∀ i : grid4.Coords, EltTy.bits .f32 = 32 ∨ (Rect.block (s := S400000x128) S4000x128.size (cc4_transform_5 i) (hinb4_5 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf

abbrev win0_0 : Pipeline.Window sig grid0 :=
  Pipeline.Window.ofSpec (Memref.whole main_v10) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S8000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v17) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v18_0) S5000x64.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v18_1) S1x2x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v33) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v37) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v39) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v41) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v42) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v50) S4000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S4000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg2) S4000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v58) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v59) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v60) S64x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v61) S1x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg13) S64x64.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v62) S1x64.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_arg15) S64x64.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v63) S1x64.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v64_0) S4000x64.size cc3_transform_11 reads3_11 true false 2 stage3_11 sem3_11
    hrank3 hreads3_11 hinb3_11 nbuf3_11 (Memref.isWhole_whole _) hwx3_11 hstage3_11

abbrev win3_12 : Pipeline.Window sig grid3 :=
  Pipeline.Window.ofSpec (Memref.whole main_v64_1) S1x2x64.size cc3_transform_12 reads3_12 true false 2 stage3_12 sem3_12
    hrank3 hreads3_12 hinb3_12 nbuf3_12 (Memref.isWhole_whole _) hwx3_12 hstage3_12

abbrev win3 : Fin 13 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | ⟨_ + 13, h⟩ => absurd h (Nat.not_lt.2 (Nat.le_add_left _ _))
abbrev spec3 : Fin 13 → Pipeline.WinSpec sig grid3.rank := fun w => (win3 w).toWinSpec

abbrev win4_0 : Pipeline.Window sig grid4 :=
  Pipeline.Window.ofSpec (Memref.whole main_v79) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v81) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v83) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v85) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v87) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v88) S4000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000x64 : Shape := ⟨2, ![800000, 64]⟩
abbrev S64x64 : Shape := ⟨2, ![64, 64]⟩
abbrev S64 : Shape := ⟨1, ![64]⟩
abbrev S192x64 : Shape := ⟨2, ![192, 64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1x64 : Shape := ⟨2, ![1, 64]⟩
abbrev S800000x192 : Shape := ⟨2, ![800000, 192]⟩

abbrev nBuf : Space → Nat
  | .hbm => 159
  | .vmem => 0
  | .smem => 0
  | _ => 0

abbrev hbmTy0_0 (i : Nat) : BufTy := match i % 128 with
  | 0 => ⟨S50000x64, .f32⟩
  | 1 => ⟨S2x800000, .i32⟩
  | 2 => ⟨S800000x64, .f32⟩
  | 3 => ⟨S64x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64, .f32⟩
  | 10 => ⟨S64, .f32⟩
  | 11 => ⟨S192x64, .f32⟩
  | 12 => ⟨S64, .f32⟩
  | 13 => ⟨S64x64, .f32⟩
  | 14 => ⟨S64, .f32⟩
  | 15 => ⟨S64x64, .f32⟩
  | 16 => ⟨S64, .f32⟩
  | 17 => ⟨S64, .f32⟩
  | 18 => ⟨S64, .f32⟩
  | 19 => ⟨S1x800000, .i32⟩
  | 20 => ⟨S800000, .i32⟩
  | 21 => ⟨S1x800000, .i32⟩
  | 22 => ⟨S800000, .i32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000x64, .f32⟩
  | 32 => ⟨S800000x64, .f32⟩
  | 33 => ⟨S800000x64, .f32⟩
  | 34 => ⟨S1x64, .f32⟩
  | 35 => ⟨S800000x64, .f32⟩
  | 36 => ⟨S800000x64, .f32⟩
  | 37 => ⟨S_, .f32⟩
  | 38 => ⟨S800000x64, .f32⟩
  | 39 => ⟨S800000x64, .f32⟩
  | 40 => ⟨S_, .f32⟩
  | 41 => ⟨S50000x64, .f32⟩
  | 42 => ⟨S800000x1, .i32⟩
  | 43 => ⟨S50000x64, .f32⟩
  | 44 => ⟨S50000x64, .f32⟩
  | 45 => ⟨S50000x64, .f32⟩
  | 46 => ⟨S1x64, .f32⟩
  | 47 => ⟨S50000x64, .f32⟩
  | 48 => ⟨S50000x64, .f32⟩
  | 49 => ⟨S_, .f32⟩
  | 50 => ⟨S50000x64, .f32⟩
  | 51 => ⟨S50000x64, .f32⟩
  | 52 => ⟨S50000x64, .f32⟩
  | 53 => ⟨S1x64, .f32⟩
  | 54 => ⟨S50000x64, .f32⟩
  | 55 => ⟨S50000x64, .f32⟩
  | 56 => ⟨S_, .f32⟩
  | 57 => ⟨S64, .f32⟩
  | 58 => ⟨S_, .f32⟩
  | 59 => ⟨S64, .f32⟩
  | 60 => ⟨S64, .f32⟩
  | 61 => ⟨S1x64, .f32⟩
  | 62 => ⟨S50000x64, .f32⟩
  | 63 => ⟨S50000x64, .f32⟩
  | 64 => ⟨S50000x64, .f32⟩
  | 65 => ⟨S_, .f32⟩
  | 66 => ⟨S64, .f32⟩
  | 67 => ⟨S_, .f32⟩
  | 68 => ⟨S64, .f32⟩
  | 69 => ⟨S64, .f32⟩
  | 70 => ⟨S1x64, .f32⟩
  | 71 => ⟨S50000x64, .f32⟩
  | 72 => ⟨S50000x64, .f32⟩
  | 73 => ⟨S_, .f32⟩
  | 74 => ⟨S64, .f32⟩
  | 75 => ⟨S64, .f32⟩
  | 76 => ⟨S64, .f32⟩
  | 77 => ⟨S1x64, .f32⟩
  | 78 => ⟨S50000x64, .f32⟩
  | 79 => ⟨S50000x64, .f32⟩
  | 80 => ⟨S1x64, .f32⟩
  | 81 => ⟨S50000x64, .f32⟩
  | 82 => ⟨S50000x64, .f32⟩
  | 83 => ⟨S1x64, .f32⟩
  | 84 => ⟨S50000x64, .f32⟩
  | 85 => ⟨S50000x64, .f32⟩
  | 86 => ⟨S_, .f32⟩
  | 87 => ⟨S50000x64, .f32⟩
  | 88 => ⟨S50000x64, .f32⟩
  | 89 => ⟨S_, .i32⟩
  | 90 => ⟨S800000, .i32⟩
  | 91 => ⟨S800000, .i1⟩
  | 92 => ⟨S_, .i32⟩
  | 93 => ⟨S800000, .i32⟩
  | 94 => ⟨S800000, .i32⟩
  | 95 => ⟨S800000, .i32⟩
  | 96 => ⟨S800000x1, .i32⟩
  | 97 => ⟨S800000x64, .f32⟩
  | 98 => ⟨S_, .i32⟩
  | 99 => ⟨S800000, .i32⟩
  | 100 => ⟨S800000, .i1⟩
  | 101 => ⟨S_, .i32⟩
  | 102 => ⟨S800000, .i32⟩
  | 103 => ⟨S800000, .i32⟩
  | 104 => ⟨S800000, .i32⟩
  | 105 => ⟨S800000x1, .i32⟩
  | 106 => ⟨S800000x64, .f32⟩
  | 107 => ⟨S800000x192, .f32⟩
  | 108 => ⟨S800000x64, .f32⟩
  | 109 => ⟨S1x64, .f32⟩
  | 110 => ⟨S800000x64, .f32⟩
  | 111 => ⟨S800000x64, .f32⟩
  | 112 => ⟨S_, .f32⟩
  | 113 => ⟨S800000x64, .f32⟩
  | 114 => ⟨S800000x64, .f32⟩
  | 115 => ⟨S800000x64, .f32⟩
  | 116 => ⟨S1x64, .f32⟩
  | 117 => ⟨S800000x64, .f32⟩
  | 118 => ⟨S800000x64, .f32⟩
  | 119 => ⟨S_, .f32⟩
  | 120 => ⟨S800000x64, .f32⟩
  | 121 => ⟨S800000x64, .f32⟩
  | 122 => ⟨S800000x64, .f32⟩
  | 123 => ⟨S1x64, .f32⟩
  | 124 => ⟨S800000x64, .f32⟩
  | 125 => ⟨S800000x64, .f32⟩
  | 126 => ⟨S_, .f32⟩
  | 127 => ⟨S64, .f32⟩
  | _ => ⟨S50000x64, .f32⟩

abbrev hbmTy0_1 (i : Nat) : BufTy := match i % 128 with
  | 0 => ⟨S_, .f32⟩
  | 1 => ⟨S64, .f32⟩
  | 2 => ⟨S64, .f32⟩
  | 3 => ⟨S1x64, .f32⟩
  | 4 => ⟨S800000x64, .f32⟩
  | 5 => ⟨S800000x64, .f32⟩
  | 6 => ⟨S800000x64, .f32⟩
  | 7 => ⟨S_, .f32⟩
  | 8 => ⟨S64, .f32⟩
  | 9 => ⟨S_, .f32⟩
  | 10 => ⟨S64, .f32⟩
  | 11 => ⟨S64, .f32⟩
  | 12 => ⟨S1x64, .f32⟩
  | 13 => ⟨S800000x64, .f32⟩
  | 14 => ⟨S800000x64, .f32⟩
  | 15 => ⟨S_, .f32⟩
  | 16 => ⟨S64, .f32⟩
  | 17 => ⟨S64, .f32⟩
  | 18 => ⟨S64, .f32⟩
  | 19 => ⟨S1x64, .f32⟩
  | 20 => ⟨S800000x64, .f32⟩
  | 21 => ⟨S800000x64, .f32⟩
  | 22 => ⟨S1x64, .f32⟩
  | 23 => ⟨S800000x64, .f32⟩
  | 24 => ⟨S800000x64, .f32⟩
  | 25 => ⟨S1x64, .f32⟩
  | 26 => ⟨S800000x64, .f32⟩
  | 27 => ⟨S800000x64, .f32⟩
  | 28 => ⟨S_, .f32⟩
  | 29 => ⟨S800000x64, .f32⟩
  | 30 => ⟨S800000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_call0_cst : Ref sig .tc := ⟨.hbm, 37, rfl⟩
abbrev main_call0_v0 : Ref sig .tc := ⟨.hbm, 38, rfl⟩
abbrev main_v16 : Ref sig .tc := ⟨.hbm, 39, rfl⟩
abbrev main_cst : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_call1_cst : Ref sig .tc := ⟨.hbm, 49, rfl⟩
abbrev main_call1_v0 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_cst_1 : Ref sig .tc := ⟨.hbm, 56, rfl⟩
abbrev main_v30 : Ref sig .tc := ⟨.hbm, 57, rfl⟩
abbrev main_cst_2 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_3 : Ref sig .tc := ⟨.hbm, 65, rfl⟩
abbrev main_v37 : Ref sig .tc := ⟨.hbm, 66, rfl⟩
abbrev main_cst_4 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_5 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_call2_cst : Ref sig .tc := ⟨.hbm, 86, rfl⟩
abbrev main_call2_v0 : Ref sig .tc := ⟨.hbm, 87, rfl⟩
abbrev main_v55 : Ref sig .tc := ⟨.hbm, 88, rfl⟩
abbrev main_c_6 : Ref sig .tc := ⟨.hbm, 89, rfl⟩
abbrev main_v56 : Ref sig .tc := ⟨.hbm, 90, rfl⟩
abbrev main_v57 : Ref sig .tc := ⟨.hbm, 91, rfl⟩
abbrev main_c_7 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_c_8 : Ref sig .tc := ⟨.hbm, 98, rfl⟩
abbrev main_v63 : Ref sig .tc := ⟨.hbm, 99, rfl⟩
abbrev main_v64 : Ref sig .tc := ⟨.hbm, 100, rfl⟩
abbrev main_c_9 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_call3_cst : Ref sig .tc := ⟨.hbm, 112, rfl⟩
abbrev main_call3_v0 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_call4_cst : Ref sig .tc := ⟨.hbm, 119, rfl⟩
abbrev main_call4_v0 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_cst_10 : Ref sig .tc := ⟨.hbm, 126, rfl⟩
abbrev main_v85 : Ref sig .tc := ⟨.hbm, 127, rfl⟩
abbrev main_cst_11 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_cst_12 : Ref sig .tc := ⟨.hbm, 135, rfl⟩
abbrev main_v92 : Ref sig .tc := ⟨.hbm, 136, rfl⟩
abbrev main_cst_13 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_cst_14 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_call5_cst : Ref sig .tc := ⟨.hbm, 156, rfl⟩
abbrev main_call5_v0 : Ref sig .tc := ⟨.hbm, 157, rfl⟩
abbrev main_v110 : Ref sig .tc := ⟨.hbm, 158, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S_S50000x64 : S_.BroadcastsInDim S50000x64 (![] : Fin 0 → Fin S50000x64.rank)
  bcast_S1x64_S50000x64_0_1 : S1x64.BroadcastsInDim S50000x64 (![0, 1] : Fin 2 → Fin S50000x64.rank)
  reducesTo_S50000x64_S64_d0 : S50000x64.ReducesTo [0] S64
  h_S_ : 0 < S_.numel
  bcast_S_S64 : S_.BroadcastsInDim S64 (![] : Fin 0 → Fin S64.rank)
  concatenates_S800000x64_S800000x64_S800000x64_S800000x192_d1 : Shape.Concatenates [S800000x64, S800000x64, S800000x64] S800000x192 1
  reducesTo_S800000x64_S64_d0 : S800000x64.ReducesTo [0] S64
  gather_S50000x64_S800000x1_S800000x64_1_0_n_n_0_1_164_wf : GatherDims.WF S50000x64 S800000x1 S800000x64 [1] [0] [] [0] [] 1 ![1, 64]
  dot_S800000x64_S64x64_S800000x64_1_0_0_1_n_n_wf : DotDims.WF S800000x64 S64x64 S800000x64 [1] [0] [0] [1] [] []
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  dot_S800000x192_S192x64_S800000x64_1_0_0_1_n_n_wf : DotDims.WF S800000x192 S192x64 S800000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S800000x192_S192x64_S800000x64_1_0_0_1_n_n : DotDims S800000x192 S192x64 S800000x64 where
  lhsContracting := [1]
  rhsContracting := [0]
  lhsNonContracting := [0]
  rhsNonContracting := [1]
  lhsBatch := []
  rhsBatch := []
  wf := dot_S800000x192_S192x64_S800000x64_1_0_0_1_n_n_wf

class Facts : Prop extends Facts₀ where

variable [Facts]
-- ==== Proof.KernelRun.lean ====
/-
  The idealized kernel's run with its two result arrays named. The program is five kernel regions among six
  stretches of host operations; the buffers' contents at each boundary are a fold from the launch memory (a stretch
  applies its operations, a region replaces its arrays by what its write-backs leave). Every weakly fair execution
  terminates without a fault, and in the final state the two result buffers hold the fold's last contents at those
  buffers while every argument array is as launched.
-/
import proofs.«158963_j17583596109847_2_alg».proof.Proof.Gen.KernelIdeal.Frame
import Idealize.ShloMosaic.PureOps.Ideal

set_option maxRecDepth 16384

noncomputable section

namespace Cert.KernelIdeal.ValueRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The run: the launch over the program's eleven segments; the last thread state holds every unscoped buffer at the
    fold's final contents, which is read against the final state at the two results and at each argument. -/
theorem run : θ_run defs (onTc (τ := τ) (main (F := Ideal))) ⟨m, fun _ => 0, ρ⟩ (fun r => ∀ c : Dev nD,
      r.2.mem ((c.tc : Thread nD τ).loc main_v43) = W11 m ρ c (Proc.devRef .tc main_v43)
      ∧ r.2.mem ((c.tc : Thread nD τ).loc main_v89) = W11 m ρ c (Proc.devRef .tc main_v89)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v43 (by decide)),
       h c _ (mem_uc main_v89 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c),
       (h c _ (mem_uc main_arg12 (by decide))).trans (W11_main_arg12 m ρ c),
       (h c _ (mem_uc main_arg13 (by decide))).trans (W11_main_arg13 m ρ c),
       (h c _ (mem_uc main_arg14 (by decide))).trans (W11_main_arg14 m ρ c),
       (h c _ (mem_uc main_arg15 (by decide))).trans (W11_main_arg15 m ρ c),
       (h c _ (mem_uc main_arg16 (by decide))).trans (W11_main_arg16 m ρ c),
       (h c _ (mem_uc main_arg17 (by decide))).trans (W11_main_arg17 m ρ c),
       (h c _ (mem_uc main_arg18 (by decide))).trans (W11_main_arg18 m ρ c)⟩)

end Cert.KernelIdeal.ValueRun

end
-- ==== Proof.Spec.lean ====
/-
  What each stage of the graph layer computes, index by index, on the extended reals.
  Arrays are functions of a shaped index; every stage below is stated by coordinates of literal
  extents, and as the array with those entries. Nothing here mentions a program.

  * message:   relu (x_src[e,j] + Σ_k ef[e,k]·W[k,j] + b[j])
  * node MLP:  (relu ((em + aggr)·W1 + b1))·W2 + b2, and per block of 5000 rows the column sums of it
               and of its squares
  * edge MLP:  three 64-wide products added (source rows, target rows, edge features), bias, relu;
               a second layer with relu; a third layer; and per block of 4000 rows the column sums
  * normalise: relu ((h − μ)·(v + ε)^(-1/2)·γ + β), entry by entry against one row of statistics
-/
import Idealize.ShloMosaic.PureOps.Ideal
import Idealize.ShloMosaic.Lib.ValueIdx

noncomputable section

namespace Cert.Spec

open Idealize.ShloMosaic Idealize.ShloMosaic.ValueIdx
open scoped BigOperators

/-- A matrix of extended reals with literal extents. -/
abbrev Arr2 (a b : Nat) : Type := (⟨2, ![a, b]⟩ : Shape).Idx → EReal
/-- A rank-three array of extended reals with literal extents. -/
abbrev Arr3 (a b c : Nat) : Type := (⟨3, ![a, b, c]⟩ : Shape).Idx → EReal

/-- The normalisation's ε, as the f32 pattern both programs spell. -/
def eps : EReal := Ideal.ofBits .f32 0x3727C5AC#32

/-- Row `e` of `x` against column `j` of `w`. -/
def rowDot {R K : Nat} (x : Arr2 R K) (w : Arr2 K 64) (e : Fin R) (j : Fin 64) : EReal :=
  ∑ k : Fin K, x (ix2 e k) * w (ix2 k j)

/-! ### The message -/

def msgAt (xs ef : Arr2 800000 64) (w : Arr2 64 64) (b : Arr2 1 64) (e : Fin 800000) (j : Fin 64) : EReal :=
  max ((xs (ix2 e j) + rowDot ef w e j) + b (ix2 0 j)) 0

def msgArr (xs ef : Arr2 800000 64) (w : Arr2 64 64) (b : Arr2 1 64) : Arr2 800000 64 :=
  fun i => msgAt xs ef w b (i 0) (i 1)

/-! ### The node MLP -/

/-- The hidden layer: relu ((em + aggr)·W1 + b1). -/
def hidAt (em ag : Arr2 50000 64) (w1 : Arr2 64 64) (b1 : Arr2 1 64) (n : Fin 50000) (k : Fin 64) : EReal :=
  max ((∑ q : Fin 64, (em (ix2 n q) + ag (ix2 n q)) * w1 (ix2 q k)) + b1 (ix2 0 k)) 0

/-- The node MLP's output, before normalisation. -/
def preAt (em ag : Arr2 50000 64) (w1 : Arr2 64 64) (b1 : Arr2 1 64) (w2 : Arr2 64 64) (b2 : Arr2 1 64)
    (n : Fin 50000) (j : Fin 64) : EReal :=
  (∑ k : Fin 64, hidAt em ag w1 b1 n k * w2 (ix2 k j)) + b2 (ix2 0 j)

def preArr (em ag : Arr2 50000 64) (w1 : Arr2 64 64) (b1 : Arr2 1 64) (w2 : Arr2 64 64) (b2 : Arr2 1 64) :
    Arr2 50000 64 :=
  fun i => preAt em ag w1 b1 w2 b2 (i 0) (i 1)

/-- Row `r` of block `b` of the 50000 node rows cut in ten. -/
def nodeRow (b : Fin 10) (r : Fin 5000) : Fin 50000 := ⟨5000 * b.val + r.val, by omega⟩

/-- Per block of 5000 rows: row 0 the column sums, row 1 the column sums of squares. -/
def nodeStatArr (em ag : Arr2 50000 64) (w1 : Arr2 64 64) (b1 : Arr2 1 64) (w2 : Arr2 64 64) (b2 : Arr2 1 64) :
    Arr3 10 2 64 :=
  fun i => if (i 1).val = 0
    then ∑ r : Fin 5000, preAt em ag w1 b1 w2 b2 (nodeRow (i 0) r) (i 2)
    else ∑ r : Fin 5000, preAt em ag w1 b1 w2 b2 (nodeRow (i 0) r) (i 2) * preAt em ag w1 b1 w2 b2 (nodeRow (i 0) r) (i 2)

/-! ### The edge MLP -/

/-- First layer: the three 64-wide products added in the order source, target, features; bias; relu. -/
def e1At (xs xd ef : Arr2 800000 64) (wa wb wc : Arr2 64 64) (b1 : Arr2 1 64) (e : Fin 800000) (k : Fin 64) : EReal :=
  max ((((rowDot xs wa e k) + rowDot xd wb e k) + rowDot ef wc e k) + b1 (ix2 0 k)) 0

def e2At (xs xd ef : Arr2 800000 64) (wa wb wc : Arr2 64 64) (b1 : Arr2 1 64) (w2 : Arr2 64 64) (b2 : Arr2 1 64)
    (e : Fin 800000) (k : Fin 64) : EReal :=
  max ((∑ q : Fin 64, e1At xs xd ef wa wb wc b1 e q * w2 (ix2 q k)) + b2 (ix2 0 k)) 0

/-- The edge MLP's output, before normalisation. -/
def epreAt (xs xd ef : Arr2 800000 64) (wa wb wc : Arr2 64 64) (b1 : Arr2 1 64) (w2 : Arr2 64 64) (b2 : Arr2 1 64)
    (w3 : Arr2 64 64) (b3 : Arr2 1 64) (e : Fin 800000) (j : Fin 64) : EReal :=
  (∑ k : Fin 64, e2At xs xd ef wa wb wc b1 w2 b2 e k * w3 (ix2 k j)) + b3 (ix2 0 j)

def epreArr (xs xd ef : Arr2 800000 64) (wa wb wc : Arr2 64 64) (b1 : Arr2 1 64) (w2 : Arr2 64 64) (b2 : Arr2 1 64)
    (w3 : Arr2 64 64) (b3 : Arr2 1 64) : Arr2 800000 64 :=
  fun i => epreAt xs xd ef wa wb wc b1 w2 b2 w3 b3 (i 0) (i 1)

/-- Row `r` of block `b` of the 800000 edge rows cut in two hundred. -/
def edgeRow (b : Fin 200) (r : Fin 4000) : Fin 800000 := ⟨4000 * b.val + r.val, by omega⟩

def edgeStatArr (xs xd ef : Arr2 800000 64) (wa wb wc : Arr2 64 64) (b1 : Arr2 1 64) (w2 : Arr2 64 64) (b2 : Arr2 1 64)
    (w3 : Arr2 64 64) (b3 : Arr2 1 64) : Arr3 200 2 64 :=
  fun i => if (i 1).val = 0
    then ∑ r : Fin 4000, epreAt xs xd ef wa wb wc b1 w2 b2 w3 b3 (edgeRow (i 0) r) (i 2)
    else ∑ r : Fin 4000, epreAt xs xd ef wa wb wc b1 w2 b2 w3 b3 (edgeRow (i 0) r) (i 2)
          * epreAt xs xd ef wa wb wc b1 w2 b2 w3 b3 (edgeRow (i 0) r) (i 2)

/-! ### The normalisation -/

/-- One entry normalised: relu ((h − μ)·(v + ε)^(-1/2)·γ + β). -/
def bnS (h mu v g be : EReal) : EReal :=
  max ((((h - mu) * Ideal.rsqrt (v + eps)) * g) + be) 0

/-- A 128-lane matrix normalised against one row each of mean, variance, scale and shift. -/
def bnArr {R : Nat} (h : Arr2 R 128) (mu v g be : Arr2 1 128) : Arr2 R 128 :=
  fun i => bnS (h i) (mu (ix2 0 (i 1))) (v (ix2 0 (i 1))) (g (ix2 0 (i 1))) (be (ix2 0 (i 1)))

/-! ### The statistics from the per-block sums, and the normalised matrix in its own layout -/

/-- Column `j` of row `row` of the per-block sums, added over the blocks. -/
def colSum {B : Nat} (st : Arr3 B 2 64) (row : Fin 2) (j : Fin 64) : EReal := ∑ b : Fin B, st (ix3 b row j)

/-- The mean of column `j`: the blocks' sums added, over the row count `N`. -/
def meanAt {B : Nat} (st : Arr3 B 2 64) (N : EReal) (j : Fin 64) : EReal := Ideal.div (colSum st 0 j) N

/-- The variance of column `j` as mean of squares minus squared mean, clipped at zero. -/
def varAt {B : Nat} (st : Arr3 B 2 64) (N : EReal) (j : Fin 64) : EReal :=
  max (Ideal.div (colSum st 1 j) N - meanAt st N j * meanAt st N j) 0

/-- A 64-column matrix normalised column by column. -/
def bnFull {R : Nat} (P : Arr2 R 64) (mu v g be : Fin 64 → EReal) : Arr2 R 64 :=
  fun i => bnS (P i) (mu (i 1)) (v (i 1)) (g (i 1)) (be (i 1))

end Cert.Spec

end
-- ==== Proof.RefStages.lean ====
/-
  The reference's operations, stage by stage, as the entry-by-entry formulas of the specification.
  Each stage is the reference's own term at an index, read through the operations one at a time.
-/
import proofs.«158963_j17583596109847_2_alg».proof.Proof.Gen.ReferenceIdeal.Read
import proofs.«158963_j17583596109847_2_alg».proof.Proof.Spec

noncomputable section

namespace Cert.ReferenceIdeal.Stages

open Cert.ReferenceIdeal Cert.ReferenceIdeal.Read Idealize.ShloMosaic Idealize.ShloMosaic.ValueIdx Cert.Spec
open scoped BigOperators

/-- The message: the gathered source row plus the projected edge features plus the bias, clipped at zero. -/
theorem ref_msg (x0 : (⟨S50000x64, .f32⟩ : BufTy).Contents (Elt Ideal)) (x1 : (⟨S2x800000, .i32⟩ : BufTy).Contents (Elt Ideal))
    (x2 : (⟨S800000x64, .f32⟩ : BufTy).Contents (Elt Ideal)) (x3 : (⟨S64x64, .f32⟩ : BufTy).Contents (Elt Ideal))
    (x4 : (⟨S64, .f32⟩ : BufTy).Contents (Elt Ideal)) :
    val_main_v16 (F := Ideal) x0 x1 x2 x3 x4
      = msgArr (val_main_v10 (F := Ideal) x0 x1) x2 x3 (val_main_v13 (F := Ideal) x4) := by
  funext i
  obtain ⟨e, j, rfl⟩ : ∃ (e : Fin 800000) (j : Fin 64), i = ix2 e j := ⟨i 0, i 1, eq_ix2 i⟩
  rw [val_main_v16_apply, val_main_v15_apply, val_main_v12_apply, val_main_v11_apply, val_main_v14_apply,
    val_main_call0_v0_apply, val_main_call0_cst_apply]
  have hl : ∀ k : Fin 64, lidx_main_v11 (ix2 e j) k = ix2 e k := fun k => funext fun a => Fin.ext (by
    match a with
    | ⟨0, _⟩ => rfl
    | ⟨1, _⟩ => rfl)
  have hr : ∀ k : Fin 64, ridx_main_v11 (ix2 e j) k = ix2 k j := fun k => funext fun a => Fin.ext (by
    match a with
    | ⟨0, _⟩ => rfl
    | ⟨1, _⟩ => rfl)
  have hb : idx_main_v14 (ix2 e j) = ix2 (0 : Fin 1) j := funext fun a => Fin.ext (by
    match a with
    | ⟨0, _⟩ => rfl
    | ⟨1, _⟩ => rfl)
  simp only [hl, hr, hb, msgArr, msgAt, rowDot, Ideal.maximumf_def, Ideal.addf_def, Ideal.ofBits_def, Ideal.ofBits_zero_f32]

/-- Coordinates of a two-axis index built by cases are the index built from the coordinates. -/
macro "idx2" : tactic => `(tactic| exact funext fun a => Fin.ext (by
    match a with
    | ⟨0, _⟩ => rfl
    | ⟨1, _⟩ => rfl))

/-- The node MLP before normalisation: two layers over the node row plus its aggregate. -/
theorem ref_pre (x0 : (⟨S50000x64, .f32⟩ : BufTy).Contents (Elt Ideal)) (x1 : (⟨S2x800000, .i32⟩ : BufTy).Contents (Elt Ideal)) (x2 : (⟨S800000x64, .f32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) :
    val_main_v29 (F := Ideal) x0 x1 x2 x3 x4 x5 x6 x7 x8
      = preArr x0 (val_main_v19 (F := Ideal) x0 x1 x2 x3 x4) x5 (val_main_v22 (F := Ideal) x6) x7 (val_main_v27 (F := Ideal) x8) := by
  funext i
  obtain ⟨n, j, rfl⟩ : ∃ (n : Fin 50000) (j : Fin 64), i = ix2 n j := ⟨i 0, i 1, eq_ix2 i⟩
  rw [val_main_v29_apply, val_main_v26_apply, val_main_v28_apply]
  have h1 : ∀ k : Fin 64, lidx_main_v26 (ix2 n j) k = ix2 n k := fun k => by idx2
  have h2 : ∀ k : Fin 64, ridx_main_v26 (ix2 n j) k = ix2 k j := fun k => by idx2
  have h3 : ∀ k q : Fin 64, lidx_main_v21 (ix2 n k) q = ix2 n q := fun k q => by idx2
  have h4 : ∀ k q : Fin 64, ridx_main_v21 (ix2 n k) q = ix2 q k := fun k q => by idx2
  have h5 : ∀ k : Fin 64, idx_main_v23 (ix2 n k) = ix2 (0 : Fin 1) k := fun k => by idx2
  have h6 : idx_main_v28 (ix2 n j) = ix2 (0 : Fin 1) j := by idx2
  simp only [h1, h2, h6, val_main_v25_apply, val_main_v24_apply, val_main_v21_apply, val_main_v20_apply, val_main_v23_apply,
    val_main_call1_v0_apply, val_main_call1_cst_apply, h3, h4, h5, preArr, preAt, hidAt,
    Ideal.maximumf_def, Ideal.addf_def, Ideal.ofBits_def, Ideal.ofBits_zero_f32]

/-- One-axis indices built by cases are the index built from the coordinate. -/
macro "idx1" : tactic => `(tactic| exact funext fun a => Fin.ext (by
    match a with
    | ⟨0, _⟩ => rfl))

/-- The mean of column `j` over all rows, the row count given as `N`. -/
def refMean {R : Nat} (P : Arr2 R 64) (N : EReal) (j : Fin 64) : EReal := Ideal.div (∑ n : Fin R, P (ix2 n j)) N

/-- The variance of column `j`: the mean of the squared deviations from the column's mean. -/
def refVar {R : Nat} (P : Arr2 R 64) (N : EReal) (j : Fin 64) : EReal :=
  Ideal.div (∑ n : Fin R, (P (ix2 n j) - refMean P N j) * (P (ix2 n j) - refMean P N j)) N

/-- The node MLP's output normalised: every column shifted by its mean, scaled by the inverse root of its variance plus ε
    and by γ, shifted by β, clipped at zero; mean and variance are the plain column statistics over all rows. -/
theorem ref_norm (x0 : (⟨S50000x64, .f32⟩ : BufTy).Contents (Elt Ideal)) (x1 : (⟨S2x800000, .i32⟩ : BufTy).Contents (Elt Ideal)) (x2 : (⟨S800000x64, .f32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64, .f32⟩ : BufTy).Contents (Elt Ideal)) (x10 : (⟨S64, .f32⟩ : BufTy).Contents (Elt Ideal)) :
    val_main_v55 (F := Ideal) x0 x1 x2 x3 x4 x5 x6 x7 x8 x9 x10
      = bnFull (val_main_v29 (F := Ideal) x0 x1 x2 x3 x4 x5 x6 x7 x8)
          (refMean (val_main_v29 (F := Ideal) x0 x1 x2 x3 x4 x5 x6 x7 x8) (Ideal.ofBits .f32 0x47435000#32))
          (refVar (val_main_v29 (F := Ideal) x0 x1 x2 x3 x4 x5 x6 x7 x8) (Ideal.ofBits .f32 0x47435000#32))
          (fun j => x9 (ix1 j)) (fun j => x10 (ix1 j)) := by
  funext i
  obtain ⟨n, j, rfl⟩ : ∃ (n : Fin 50000) (j : Fin 64), i = ix2 n j := ⟨i 0, i 1, eq_ix2 i⟩
  have a1 : idx_main_v41 (ix2 n j) = ix2 (0 : Fin 1) j := by idx2
  have a2 : idx_main_v40 (ix2 (0 : Fin 1) j) = ix1 j := by idx1
  have a3 : ∀ k : Fin 50000, idx_main_v30 (ix1 j) k = ix2 k j := fun k => by idx2
  have a4 : idx_main_v47 (ix2 n j) = ix2 (0 : Fin 1) j := by idx2
  have a5 : idx_main_v46 (ix2 (0 : Fin 1) j) = ix1 j := by idx1
  have a6 : ∀ k : Fin 50000, idx_main_v37 (ix1 j) k = ix2 k j := fun k => by idx2
  have a7 : ∀ k : Fin 50000, idx_main_v34 (ix2 k j) = ix2 (0 : Fin 1) j := fun k => by idx2
  have a8 : idx_main_v33 (ix2 (0 : Fin 1) j) = ix1 j := by idx1
  have a9 : idx_main_v50 (ix2 n j) = ix2 (0 : Fin 1) j := by idx2
  have a10 : idx_main_v49 (ix2 (0 : Fin 1) j) = ix1 j := by idx1
  have a11 : idx_main_v53 (ix2 n j) = ix2 (0 : Fin 1) j := by idx2
  have a12 : idx_main_v52 (ix2 (0 : Fin 1) j) = ix1 j := by idx1
  have e1 : (ix2 n j : (⟨2, ![50000, 64]⟩ : Shape).Idx) 1 = j := rfl
  simp only [val_main_v55_apply, val_main_v54_apply, val_main_v51_apply, val_main_v48_apply, val_main_v42_apply, val_main_v41_apply, val_main_v40_apply, val_main_v32_apply, val_main_v30_apply, val_main_v31_apply, val_main_cst_2_apply, val_main_cst_1_apply, val_main_v47_apply, val_main_v46_apply, val_main_v45_apply, val_main_v44_apply, val_main_v39_apply, val_main_v37_apply, val_main_v36_apply, val_main_v35_apply, val_main_v34_apply, val_main_v33_apply, val_main_v38_apply, val_main_cst_4_apply, val_main_cst_3_apply, val_main_v43_apply, val_main_cst_5_apply, val_main_v50_apply, val_main_v49_apply, val_main_v53_apply, val_main_v52_apply, val_main_call2_v0_apply, val_main_call2_cst_apply,
    a1, a2, a3, a4, a5, a6, a7, a8, a9, a10, a11, a12, e1, bnFull, bnS, refMean, refVar, eps,
    Ideal.maximumf_def, Ideal.addf_def, Ideal.subf_def, Ideal.mulf_def, Ideal.hostDivf_def, Ideal.hostUnary_rsqrt_def,
    Ideal.ofBits_def, Ideal.ofBits_zero_f32, zero_add]

/-- The edge MLP's output normalised: every column shifted by its mean, scaled by the inverse root of its variance plus ε
    and by γ, shifted by β, clipped at zero; mean and variance are the plain column statistics over all rows. -/
theorem ref_enorm (x0 : (⟨S50000x64, .f32⟩ : BufTy).Contents (Elt Ideal)) (x1 : (⟨S2x800000, .i32⟩ : BufTy).Contents (Elt Ideal)) (x2 : (⟨S800000x64, .f32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64, .f32⟩ : BufTy).Contents (Elt Ideal)) (x10 : (⟨S64, .f32⟩ : BufTy).Contents (Elt Ideal)) (x11 : (⟨S192x64, .f32⟩ : BufTy).Contents (Elt Ideal)) (x12 : (⟨S64, .f32⟩ : BufTy).Contents (Elt Ideal)) (x13 : (⟨S64x64, .f32⟩ : BufTy).Contents (Elt Ideal)) (x14 : (⟨S64, .f32⟩ : BufTy).Contents (Elt Ideal)) (x15 : (⟨S64x64, .f32⟩ : BufTy).Contents (Elt Ideal)) (x16 : (⟨S64, .f32⟩ : BufTy).Contents (Elt Ideal)) (x17 : (⟨S64, .f32⟩ : BufTy).Contents (Elt Ideal)) (x18 : (⟨S64, .f32⟩ : BufTy).Contents (Elt Ideal)) :
    val_main_v110 (F := Ideal) x0 x1 x2 x3 x4 x5 x6 x7 x8 x9 x10 x11 x12 x13 x14 x15 x16 x17 x18
      = bnFull (val_main_v84 (F := Ideal) x0 x1 x2 x3 x4 x5 x6 x7 x8 x9 x10 x11 x12 x13 x14 x15 x16)
          (refMean (val_main_v84 (F := Ideal) x0 x1 x2 x3 x4 x5 x6 x7 x8 x9 x10 x11 x12 x13 x14 x15 x16) (Ideal.ofBits .f32 0x49435000#32))
          (refVar (val_main_v84 (F := Ideal) x0 x1 x2 x3 x4 x5 x6 x7 x8 x9 x10 x11 x12 x13 x14 x15 x16) (Ideal.ofBits .f32 0x49435000#32))
          (fun j => x17 (ix1 j)) (fun j => x18 (ix1 j)) := by
  funext i
  obtain ⟨n, j, rfl⟩ : ∃ (n : Fin 800000) (j : Fin 64), i = ix2 n j := ⟨i 0, i 1, eq_ix2 i⟩
  have a1 : idx_main_v96 (ix2 n j) = ix2 (0 : Fin 1) j := by idx2
  have a2 : idx_main_v95 (ix2 (0 : Fin 1) j) = ix1 j := by idx1
  have a3 : ∀ k : Fin 800000, idx_main_v85 (ix1 j) k = ix2 k j := fun k => by idx2
  have a4 : idx_main_v102 (ix2 n j) = ix2 (0 : Fin 1) j := by idx2
  have a5 : idx_main_v101 (ix2 (0 : Fin 1) j) = ix1 j := by idx1
  have a6 : ∀ k : Fin 800000, idx_main_v92 (ix1 j) k = ix2 k j := fun k => by idx2
  have a7 : ∀ k : Fin 800000, idx_main_v89 (ix2 k j) = ix2 (0 : Fin 1) j := fun k => by idx2
  have a8 : idx_main_v88 (ix2 (0 : Fin 1) j) = ix1 j := by idx1
  have a9 : idx_main_v105 (ix2 n j) = ix2 (0 : Fin 1) j := by idx2
  have a10 : idx_main_v104 (ix2 (0 : Fin 1) j) = ix1 j := by idx1
  have a11 : idx_main_v108 (ix2 n j) = ix2 (0 : Fin 1) j := by idx2
  have a12 : idx_main_v107 (ix2 (0 : Fin 1) j) = ix1 j := by idx1
  have e1 : (ix2 n j : (⟨2, ![800000, 64]⟩ : Shape).Idx) 1 = j := rfl
  simp only [val_main_v110_apply, val_main_v109_apply, val_main_v106_apply, val_main_v103_apply, val_main_v97_apply, val_main_v96_apply, val_main_v95_apply, val_main_v87_apply, val_main_v85_apply, val_main_v86_apply, val_main_cst_11_apply, val_main_cst_10_apply, val_main_v102_apply, val_main_v101_apply, val_main_v100_apply, val_main_v99_apply, val_main_v94_apply, val_main_v92_apply, val_main_v91_apply, val_main_v90_apply, val_main_v89_apply, val_main_v88_apply, val_main_v93_apply, val_main_cst_13_apply, val_main_cst_12_apply, val_main_v98_apply, val_main_cst_14_apply, val_main_v105_apply, val_main_v104_apply, val_main_v108_apply, val_main_v107_apply, val_main_call5_v0_apply, val_main_call5_cst_apply,
    a1, a2, a3, a4, a5, a6, a7, a8, a9, a10, a11, a12, e1, bnFull, bnS, refMean, refVar, eps,
    Ideal.maximumf_def, Ideal.addf_def, Ideal.subf_def, Ideal.mulf_def, Ideal.hostDivf_def, Ideal.hostUnary_rsqrt_def,
    Ideal.ofBits_def, Ideal.ofBits_zero_f32, zero_add]

end Cert.ReferenceIdeal.Stages

end
-- ==== Proof.Keep.lean ====
/-
  Buffers that a stretch of host operations does not write, and that a kernel region neither writes nor stages as an
  output, hold after it what they held before it. Chained per buffer, this walks an argument array (or an index vector
  computed once at the start) from a late boundary of the program back to where it was last written.
-/
import proofs.«158963_j17583596109847_2_alg».proof.Proof.Gen.KernelIdeal.Frame
import Idealize.ShloMosaic.PureOps.Ideal
import Idealize.ShloMosaic.Lib.StableHlo.Run

set_option maxRecDepth 16384

noncomputable section

namespace Cert.KernelIdeal.Keep

open Idealize.ShloMosaic Idealize.ShloMosaic.TcCoe Idealize.ShloMosaic.StableHlo Idealize.SL.Sem
open Cert.KernelIdeal Cert.KernelIdeal.Gen

variable (m : (ℓ : Loc nD τ sig) → Buf (Elt Ideal) ℓ) (ρ : Dev nD → PrngReg) (c : Dev nD)

/-- One stretch of host operations at a buffer it does not write. -/
macro "host_keeps" : tactic => `(tactic| (after_results <;> rfl))
theorem main_arg0_W1 : W1 m ρ c (Proc.devRef .tc main_arg0) = W0 m ρ c (Proc.devRef .tc main_arg0) := by
  show StableHlo.after hostOps0 (W0 m ρ c) (Proc.devRef .tc main_arg0) = _
  host_keeps
theorem main_arg0_W2 : W2 m ρ c (Proc.devRef .tc main_arg0) = W1 m ρ c (Proc.devRef .tc main_arg0) :=
  W2_of_ne m ρ c main_arg0 (by decide)
theorem main_arg0_W3 : W3 m ρ c (Proc.devRef .tc main_arg0) = W2 m ρ c (Proc.devRef .tc main_arg0) := by
  show StableHlo.after hostOps1 (W2 m ρ c) (Proc.devRef .tc main_arg0) = _
  host_keeps
theorem main_arg0_at1 : W1 m ρ c (Proc.devRef .tc main_arg0) = W0 m ρ c (Proc.devRef .tc main_arg0) :=
  (main_arg0_W1 m ρ c)
theorem main_arg0_at2 : W2 m ρ c (Proc.devRef .tc main_arg0) = W0 m ρ c (Proc.devRef .tc main_arg0) :=
  ((main_arg0_W2 m ρ c).trans (main_arg0_W1 m ρ c))
theorem main_arg0_at3 : W3 m ρ c (Proc.devRef .tc main_arg0) = W0 m ρ c (Proc.devRef .tc main_arg0) :=
  (((main_arg0_W3 m ρ c).trans (main_arg0_W2 m ρ c)).trans (main_arg0_W1 m ρ c))

theorem main_arg5_W1 : W1 m ρ c (Proc.devRef .tc main_arg5) = W0 m ρ c (Proc.devRef .tc main_arg5) := by
  show StableHlo.after hostOps0 (W0 m ρ c) (Proc.devRef .tc main_arg5) = _
  host_keeps
theorem main_arg5_W2 : W2 m ρ c (Proc.devRef .tc main_arg5) = W1 m ρ c (Proc.devRef .tc main_arg5) :=
  W2_of_ne m ρ c main_arg5 (by decide)
theorem main_arg5_W3 : W3 m ρ c (Proc.devRef .tc main_arg5) = W2 m ρ c (Proc.devRef .tc main_arg5) := by
  show StableHlo.after hostOps1 (W2 m ρ c) (Proc.devRef .tc main_arg5) = _
  host_keeps
theorem main_arg5_at1 : W1 m ρ c (Proc.devRef .tc main_arg5) = W0 m ρ c (Proc.devRef .tc main_arg5) :=
  (main_arg5_W1 m ρ c)
theorem main_arg5_at2 : W2 m ρ c (Proc.devRef .tc main_arg5) = W0 m ρ c (Proc.devRef .tc main_arg5) :=
  ((main_arg5_W2 m ρ c).trans (main_arg5_W1 m ρ c))
theorem main_arg5_at3 : W3 m ρ c (Proc.devRef .tc main_arg5) = W0 m ρ c (Proc.devRef .tc main_arg5) :=
  (((main_arg5_W3 m ρ c).trans (main_arg5_W2 m ρ c)).trans (main_arg5_W1 m ρ c))

theorem main_arg7_W1 : W1 m ρ c (Proc.devRef .tc main_arg7) = W0 m ρ c (Proc.devRef .tc main_arg7) := by
  show StableHlo.after hostOps0 (W0 m ρ c) (Proc.devRef .tc main_arg7) = _
  host_keeps
theorem main_arg7_W2 : W2 m ρ c (Proc.devRef .tc main_arg7) = W1 m ρ c (Proc.devRef .tc main_arg7) :=
  W2_of_ne m ρ c main_arg7 (by decide)
theorem main_arg7_W3 : W3 m ρ c (Proc.devRef .tc main_arg7) = W2 m ρ c (Proc.devRef .tc main_arg7) := by
  show StableHlo.after hostOps1 (W2 m ρ c) (Proc.devRef .tc main_arg7) = _
  host_keeps
theorem main_arg7_at1 : W1 m ρ c (Proc.devRef .tc main_arg7) = W0 m ρ c (Proc.devRef .tc main_arg7) :=
  (main_arg7_W1 m ρ c)
theorem main_arg7_at2 : W2 m ρ c (Proc.devRef .tc main_arg7) = W0 m ρ c (Proc.devRef .tc main_arg7) :=
  ((main_arg7_W2 m ρ c).trans (main_arg7_W1 m ρ c))
theorem main_arg7_at3 : W3 m ρ c (Proc.devRef .tc main_arg7) = W0 m ρ c (Proc.devRef .tc main_arg7) :=
  (((main_arg7_W3 m ρ c).trans (main_arg7_W2 m ρ c)).trans (main_arg7_W1 m ρ c))

theorem main_arg6_W1 : W1 m ρ c (Proc.devRef .tc main_arg6) = W0 m ρ c (Proc.devRef .tc main_arg6) := by
  show StableHlo.after hostOps0 (W0 m ρ c) (Proc.devRef .tc main_arg6) = _
  host_keeps
theorem main_arg6_W2 : W2 m ρ c (Proc.devRef .tc main_arg6) = W1 m ρ c (Proc.devRef .tc main_arg6) :=
  W2_of_ne m ρ c main_arg6 (by decide)
theorem main_arg6_at1 : W1 m ρ c (Proc.devRef .tc main_arg6) = W0 m ρ c (Proc.devRef .tc main_arg6) :=
  (main_arg6_W1 m ρ c)
theorem main_arg6_at2 : W2 m ρ c (Proc.devRef .tc main_arg6) = W0 m ρ c (Proc.devRef .tc main_arg6) :=
  ((main_arg6_W2 m ρ c).trans (main_arg6_W1 m ρ c))

theorem main_arg8_W1 : W1 m ρ c (Proc.devRef .tc main_arg8) = W0 m ρ c (Proc.devRef .tc main_arg8) := by
  show StableHlo.after hostOps0 (W0 m ρ c) (Proc.devRef .tc main_arg8) = _
  host_keeps
theorem main_arg8_W2 : W2 m ρ c (Proc.devRef .tc main_arg8) = W1 m ρ c (Proc.devRef .tc main_arg8) :=
  W2_of_ne m ρ c main_arg8 (by decide)
theorem main_arg8_at1 : W1 m ρ c (Proc.devRef .tc main_arg8) = W0 m ρ c (Proc.devRef .tc main_arg8) :=
  (main_arg8_W1 m ρ c)
theorem main_arg8_at2 : W2 m ρ c (Proc.devRef .tc main_arg8) = W0 m ρ c (Proc.devRef .tc main_arg8) :=
  ((main_arg8_W2 m ρ c).trans (main_arg8_W1 m ρ c))

theorem main_arg9_W1 : W1 m ρ c (Proc.devRef .tc main_arg9) = W0 m ρ c (Proc.devRef .tc main_arg9) := by
  show StableHlo.after hostOps0 (W0 m ρ c) (Proc.devRef .tc main_arg9) = _
  host_keeps
theorem main_arg9_W2 : W2 m ρ c (Proc.devRef .tc main_arg9) = W1 m ρ c (Proc.devRef .tc main_arg9) :=
  W2_of_ne m ρ c main_arg9 (by decide)
theorem main_arg9_W3 : W3 m ρ c (Proc.devRef .tc main_arg9) = W2 m ρ c (Proc.devRef .tc main_arg9) := by
  show StableHlo.after hostOps1 (W2 m ρ c) (Proc.devRef .tc main_arg9) = _
  host_keeps
theorem main_arg9_W4 : W4 m ρ c (Proc.devRef .tc main_arg9) = W3 m ρ c (Proc.devRef .tc main_arg9) :=
  W4_of_ne m ρ c main_arg9 (by decide)
theorem main_arg9_at1 : W1 m ρ c (Proc.devRef .tc main_arg9) = W0 m ρ c (Proc.devRef .tc main_arg9) :=
  (main_arg9_W1 m ρ c)
theorem main_arg9_at2 : W2 m ρ c (Proc.devRef .tc main_arg9) = W0 m ρ c (Proc.devRef .tc main_arg9) :=
  ((main_arg9_W2 m ρ c).trans (main_arg9_W1 m ρ c))
theorem main_arg9_at3 : W3 m ρ c (Proc.devRef .tc main_arg9) = W0 m ρ c (Proc.devRef .tc main_arg9) :=
  (((main_arg9_W3 m ρ c).trans (main_arg9_W2 m ρ c)).trans (main_arg9_W1 m ρ c))
theorem main_arg9_at4 : W4 m ρ c (Proc.devRef .tc main_arg9) = W0 m ρ c (Proc.devRef .tc main_arg9) :=
  ((((main_arg9_W4 m ρ c).trans (main_arg9_W3 m ρ c)).trans (main_arg9_W2 m ρ c)).trans (main_arg9_W1 m ρ c))

theorem main_arg10_W1 : W1 m ρ c (Proc.devRef .tc main_arg10) = W0 m ρ c (Proc.devRef .tc main_arg10) := by
  show StableHlo.after hostOps0 (W0 m ρ c) (Proc.devRef .tc main_arg10) = _
  host_keeps
theorem main_arg10_W2 : W2 m ρ c (Proc.devRef .tc main_arg10) = W1 m ρ c (Proc.devRef .tc main_arg10) :=
  W2_of_ne m ρ c main_arg10 (by decide)
theorem main_arg10_W3 : W3 m ρ c (Proc.devRef .tc main_arg10) = W2 m ρ c (Proc.devRef .tc main_arg10) := by
  show StableHlo.after hostOps1 (W2 m ρ c) (Proc.devRef .tc main_arg10) = _
  host_keeps
theorem main_arg10_W4 : W4 m ρ c (Proc.devRef .tc main_arg10) = W3 m ρ c (Proc.devRef .tc main_arg10) :=
  W4_of_ne m ρ c main_arg10 (by decide)
theorem main_arg10_at1 : W1 m ρ c (Proc.devRef .tc main_arg10) = W0 m ρ c (Proc.devRef .tc main_arg10) :=
  (main_arg10_W1 m ρ c)
theorem main_arg10_at2 : W2 m ρ c (Proc.devRef .tc main_arg10) = W0 m ρ c (Proc.devRef .tc main_arg10) :=
  ((main_arg10_W2 m ρ c).trans (main_arg10_W1 m ρ c))
theorem main_arg10_at3 : W3 m ρ c (Proc.devRef .tc main_arg10) = W0 m ρ c (Proc.devRef .tc main_arg10) :=
  (((main_arg10_W3 m ρ c).trans (main_arg10_W2 m ρ c)).trans (main_arg10_W1 m ρ c))
theorem main_arg10_at4 : W4 m ρ c (Proc.devRef .tc main_arg10) = W0 m ρ c (Proc.devRef .tc main_arg10) :=
  ((((main_arg10_W4 m ρ c).trans (main_arg10_W3 m ρ c)).trans (main_arg10_W2 m ρ c)).trans (main_arg10_W1 m ρ c))

theorem main_arg11_W1 : W1 m ρ c (Proc.devRef .tc main_arg11) = W0 m ρ c (Proc.devRef .tc main_arg11) := by
  show StableHlo.after hostOps0 (W0 m ρ c) (Proc.devRef .tc main_arg11) = _
  host_keeps
theorem main_arg11_W2 : W2 m ρ c (Proc.devRef .tc main_arg11) = W1 m ρ c (Proc.devRef .tc main_arg11) :=
  W2_of_ne m ρ c main_arg11 (by decide)
theorem main_arg11_W3 : W3 m ρ c (Proc.devRef .tc main_arg11) = W2 m ρ c (Proc.devRef .tc main_arg11) := by
  show StableHlo.after hostOps1 (W2 m ρ c) (Proc.devRef .tc main_arg11) = _
  host_keeps
theorem main_arg11_W4 : W4 m ρ c (Proc.devRef .tc main_arg11) = W3 m ρ c (Proc.devRef .tc main_arg11) :=
  W4_of_ne m ρ c main_arg11 (by decide)
theorem main_arg11_W5 : W5 m ρ c (Proc.devRef .tc main_arg11) = W4 m ρ c (Proc.devRef .tc main_arg11) := by
  show StableHlo.after hostOps2 (W4 m ρ c) (Proc.devRef .tc main_arg11) = _
  host_keeps
theorem main_arg11_W6 : W6 m ρ c (Proc.devRef .tc main_arg11) = W5 m ρ c (Proc.devRef .tc main_arg11) :=
  W6_of_ne m ρ c main_arg11 (by decide)
theorem main_arg11_at1 : W1 m ρ c (Proc.devRef .tc main_arg11) = W0 m ρ c (Proc.devRef .tc main_arg11) :=
  (main_arg11_W1 m ρ c)
theorem main_arg11_at2 : W2 m ρ c (Proc.devRef .tc main_arg11) = W0 m ρ c (Proc.devRef .tc main_arg11) :=
  ((main_arg11_W2 m ρ c).trans (main_arg11_W1 m ρ c))
theorem main_arg11_at3 : W3 m ρ c (Proc.devRef .tc main_arg11) = W0 m ρ c (Proc.devRef .tc main_arg11) :=
  (((main_arg11_W3 m ρ c).trans (main_arg11_W2 m ρ c)).trans (main_arg11_W1 m ρ c))
theorem main_arg11_at4 : W4 m ρ c (Proc.devRef .tc main_arg11) = W0 m ρ c (Proc.devRef .tc main_arg11) :=
  ((((main_arg11_W4 m ρ c).trans (main_arg11_W3 m ρ c)).trans (main_arg11_W2 m ρ c)).trans (main_arg11_W1 m ρ c))
theorem main_arg11_at5 : W5 m ρ c (Proc.devRef .tc main_arg11) = W0 m ρ c (Proc.devRef .tc main_arg11) :=
  (((((main_arg11_W5 m ρ c).trans (main_arg11_W4 m ρ c)).trans (main_arg11_W3 m ρ c)).trans (main_arg11_W2 m ρ c)).trans (main_arg11_W1 m ρ c))
theorem main_arg11_at6 : W6 m ρ c (Proc.devRef .tc main_arg11) = W0 m ρ c (Proc.devRef .tc main_arg11) :=
  ((((((main_arg11_W6 m ρ c).trans (main_arg11_W5 m ρ c)).trans (main_arg11_W4 m ρ c)).trans (main_arg11_W3 m ρ c)).trans (main_arg11_W2 m ρ c)).trans (main_arg11_W1 m ρ c))

theorem main_arg12_W1 : W1 m ρ c (Proc.devRef .tc main_arg12) = W0 m ρ c (Proc.devRef .tc main_arg12) := by
  show StableHlo.after hostOps0 (W0 m ρ c) (Proc.devRef .tc main_arg12) = _
  host_keeps
theorem main_arg12_W2 : W2 m ρ c (Proc.devRef .tc main_arg12) = W1 m ρ c (Proc.devRef .tc main_arg12) :=
  W2_of_ne m ρ c main_arg12 (by decide)
theorem main_arg12_W3 : W3 m ρ c (Proc.devRef .tc main_arg12) = W2 m ρ c (Proc.devRef .tc main_arg12) := by
  show StableHlo.after hostOps1 (W2 m ρ c) (Proc.devRef .tc main_arg12) = _
  host_keeps
theorem main_arg12_W4 : W4 m ρ c (Proc.devRef .tc main_arg12) = W3 m ρ c (Proc.devRef .tc main_arg12) :=
  W4_of_ne m ρ c main_arg12 (by decide)
theorem main_arg12_W5 : W5 m ρ c (Proc.devRef .tc main_arg12) = W4 m ρ c (Proc.devRef .tc main_arg12) := by
  show StableHlo.after hostOps2 (W4 m ρ c) (Proc.devRef .tc main_arg12) = _
  host_keeps
theorem main_arg12_W6 : W6 m ρ c (Proc.devRef .tc main_arg12) = W5 m ρ c (Proc.devRef .tc main_arg12) :=
  W6_of_ne m ρ c main_arg12 (by decide)
theorem main_arg12_at1 : W1 m ρ c (Proc.devRef .tc main_arg12) = W0 m ρ c (Proc.devRef .tc main_arg12) :=
  (main_arg12_W1 m ρ c)
theorem main_arg12_at2 : W2 m ρ c (Proc.devRef .tc main_arg12) = W0 m ρ c (Proc.devRef .tc main_arg12) :=
  ((main_arg12_W2 m ρ c).trans (main_arg12_W1 m ρ c))
theorem main_arg12_at3 : W3 m ρ c (Proc.devRef .tc main_arg12) = W0 m ρ c (Proc.devRef .tc main_arg12) :=
  (((main_arg12_W3 m ρ c).trans (main_arg12_W2 m ρ c)).trans (main_arg12_W1 m ρ c))
theorem main_arg12_at4 : W4 m ρ c (Proc.devRef .tc main_arg12) = W0 m ρ c (Proc.devRef .tc main_arg12) :=
  ((((main_arg12_W4 m ρ c).trans (main_arg12_W3 m ρ c)).trans (main_arg12_W2 m ρ c)).trans (main_arg12_W1 m ρ c))
theorem main_arg12_at5 : W5 m ρ c (Proc.devRef .tc main_arg12) = W0 m ρ c (Proc.devRef .tc main_arg12) :=
  (((((main_arg12_W5 m ρ c).trans (main_arg12_W4 m ρ c)).trans (main_arg12_W3 m ρ c)).trans (main_arg12_W2 m ρ c)).trans (main_arg12_W1 m ρ c))
theorem main_arg12_at6 : W6 m ρ c (Proc.devRef .tc main_arg12) = W0 m ρ c (Proc.devRef .tc main_arg12) :=
  ((((((main_arg12_W6 m ρ c).trans (main_arg12_W5 m ρ c)).trans (main_arg12_W4 m ρ c)).trans (main_arg12_W3 m ρ c)).trans (main_arg12_W2 m ρ c)).trans (main_arg12_W1 m ρ c))

theorem main_arg14_W1 : W1 m ρ c (Proc.devRef .tc main_arg14) = W0 m ρ c (Proc.devRef .tc main_arg14) := by
  show StableHlo.after hostOps0 (W0 m ρ c) (Proc.devRef .tc main_arg14) = _
  host_keeps
theorem main_arg14_W2 : W2 m ρ c (Proc.devRef .tc main_arg14) = W1 m ρ c (Proc.devRef .tc main_arg14) :=
  W2_of_ne m ρ c main_arg14 (by decide)
theorem main_arg14_W3 : W3 m ρ c (Proc.devRef .tc main_arg14) = W2 m ρ c (Proc.devRef .tc main_arg14) := by
  show StableHlo.after hostOps1 (W2 m ρ c) (Proc.devRef .tc main_arg14) = _
  host_keeps
theorem main_arg14_W4 : W4 m ρ c (Proc.devRef .tc main_arg14) = W3 m ρ c (Proc.devRef .tc main_arg14) :=
  W4_of_ne m ρ c main_arg14 (by decide)
theorem main_arg14_W5 : W5 m ρ c (Proc.devRef .tc main_arg14) = W4 m ρ c (Proc.devRef .tc main_arg14) := by
  show StableHlo.after hostOps2 (W4 m ρ c) (Proc.devRef .tc main_arg14) = _
  host_keeps
theorem main_arg14_W6 : W6 m ρ c (Proc.devRef .tc main_arg14) = W5 m ρ c (Proc.devRef .tc main_arg14) :=
  W6_of_ne m ρ c main_arg14 (by decide)
theorem main_arg14_at1 : W1 m ρ c (Proc.devRef .tc main_arg14) = W0 m ρ c (Proc.devRef .tc main_arg14) :=
  (main_arg14_W1 m ρ c)
theorem main_arg14_at2 : W2 m ρ c (Proc.devRef .tc main_arg14) = W0 m ρ c (Proc.devRef .tc main_arg14) :=
  ((main_arg14_W2 m ρ c).trans (main_arg14_W1 m ρ c))
theorem main_arg14_at3 : W3 m ρ c (Proc.devRef .tc main_arg14) = W0 m ρ c (Proc.devRef .tc main_arg14) :=
  (((main_arg14_W3 m ρ c).trans (main_arg14_W2 m ρ c)).trans (main_arg14_W1 m ρ c))
theorem main_arg14_at4 : W4 m ρ c (Proc.devRef .tc main_arg14) = W0 m ρ c (Proc.devRef .tc main_arg14) :=
  ((((main_arg14_W4 m ρ c).trans (main_arg14_W3 m ρ c)).trans (main_arg14_W2 m ρ c)).trans (main_arg14_W1 m ρ c))
theorem main_arg14_at5 : W5 m ρ c (Proc.devRef .tc main_arg14) = W0 m ρ c (Proc.devRef .tc main_arg14) :=
  (((((main_arg14_W5 m ρ c).trans (main_arg14_W4 m ρ c)).trans (main_arg14_W3 m ρ c)).trans (main_arg14_W2 m ρ c)).trans (main_arg14_W1 m ρ c))
theorem main_arg14_at6 : W6 m ρ c (Proc.devRef .tc main_arg14) = W0 m ρ c (Proc.devRef .tc main_arg14) :=
  ((((((main_arg14_W6 m ρ c).trans (main_arg14_W5 m ρ c)).trans (main_arg14_W4 m ρ c)).trans (main_arg14_W3 m ρ c)).trans (main_arg14_W2 m ρ c)).trans (main_arg14_W1 m ρ c))

theorem main_arg16_W1 : W1 m ρ c (Proc.devRef .tc main_arg16) = W0 m ρ c (Proc.devRef .tc main_arg16) := by
  show StableHlo.after hostOps0 (W0 m ρ c) (Proc.devRef .tc main_arg16) = _
  host_keeps
theorem main_arg16_W2 : W2 m ρ c (Proc.devRef .tc main_arg16) = W1 m ρ c (Proc.devRef .tc main_arg16) :=
  W2_of_ne m ρ c main_arg16 (by decide)
theorem main_arg16_W3 : W3 m ρ c (Proc.devRef .tc main_arg16) = W2 m ρ c (Proc.devRef .tc main_arg16) := by
  show StableHlo.after hostOps1 (W2 m ρ c) (Proc.devRef .tc main_arg16) = _
  host_keeps
theorem main_arg16_W4 : W4 m ρ c (Proc.devRef .tc main_arg16) = W3 m ρ c (Proc.devRef .tc main_arg16) :=
  W4_of_ne m ρ c main_arg16 (by decide)
theorem main_arg16_W5 : W5 m ρ c (Proc.devRef .tc main_arg16) = W4 m ρ c (Proc.devRef .tc main_arg16) := by
  show StableHlo.after hostOps2 (W4 m ρ c) (Proc.devRef .tc main_arg16) = _
  host_keeps
theorem main_arg16_W6 : W6 m ρ c (Proc.devRef .tc main_arg16) = W5 m ρ c (Proc.devRef .tc main_arg16) :=
  W6_of_ne m ρ c main_arg16 (by decide)
theorem main_arg16_at1 : W1 m ρ c (Proc.devRef .tc main_arg16) = W0 m ρ c (Proc.devRef .tc main_arg16) :=
  (main_arg16_W1 m ρ c)
theorem main_arg16_at2 : W2 m ρ c (Proc.devRef .tc main_arg16) = W0 m ρ c (Proc.devRef .tc main_arg16) :=
  ((main_arg16_W2 m ρ c).trans (main_arg16_W1 m ρ c))
theorem main_arg16_at3 : W3 m ρ c (Proc.devRef .tc main_arg16) = W0 m ρ c (Proc.devRef .tc main_arg16) :=
  (((main_arg16_W3 m ρ c).trans (main_arg16_W2 m ρ c)).trans (main_arg16_W1 m ρ c))
theorem main_arg16_at4 : W4 m ρ c (Proc.devRef .tc main_arg16) = W0 m ρ c (Proc.devRef .tc main_arg16) :=
  ((((main_arg16_W4 m ρ c).trans (main_arg16_W3 m ρ c)).trans (main_arg16_W2 m ρ c)).trans (main_arg16_W1 m ρ c))
theorem main_arg16_at5 : W5 m ρ c (Proc.devRef .tc main_arg16) = W0 m ρ c (Proc.devRef .tc main_arg16) :=
  (((((main_arg16_W5 m ρ c).trans (main_arg16_W4 m ρ c)).trans (main_arg16_W3 m ρ c)).trans (main_arg16_W2 m ρ c)).trans (main_arg16_W1 m ρ c))
theorem main_arg16_at6 : W6 m ρ c (Proc.devRef .tc main_arg16) = W0 m ρ c (Proc.devRef .tc main_arg16) :=
  ((((((main_arg16_W6 m ρ c).trans (main_arg16_W5 m ρ c)).trans (main_arg16_W4 m ρ c)).trans (main_arg16_W3 m ρ c)).trans (main_arg16_W2 m ρ c)).trans (main_arg16_W1 m ρ c))

theorem main_arg13_W1 : W1 m ρ c (Proc.devRef .tc main_arg13) = W0 m ρ c (Proc.devRef .tc main_arg13) := by
  show StableHlo.after hostOps0 (W0 m ρ c) (Proc.devRef .tc main_arg13) = _
  host_keeps
theorem main_arg13_W2 : W2 m ρ c (Proc.devRef .tc main_arg13) = W1 m ρ c (Proc.devRef .tc main_arg13) :=
  W2_of_ne m ρ c main_arg13 (by decide)
theorem main_arg13_W3 : W3 m ρ c (Proc.devRef .tc main_arg13) = W2 m ρ c (Proc.devRef .tc main_arg13) := by
  show StableHlo.after hostOps1 (W2 m ρ c) (Proc.devRef .tc main_arg13) = _
  host_keeps
theorem main_arg13_W4 : W4 m ρ c (Proc.devRef .tc main_arg13) = W3 m ρ c (Proc.devRef .tc main_arg13) :=
  W4_of_ne m ρ c main_arg13 (by decide)
theorem main_arg13_W5 : W5 m ρ c (Proc.devRef .tc main_arg13) = W4 m ρ c (Proc.devRef .tc main_arg13) := by
  show StableHlo.after hostOps2 (W4 m ρ c) (Proc.devRef .tc main_arg13) = _
  host_keeps
theorem main_arg13_W6 : W6 m ρ c (Proc.devRef .tc main_arg13) = W5 m ρ c (Proc.devRef .tc main_arg13) :=
  W6_of_ne m ρ c main_arg13 (by decide)
theorem main_arg13_W7 : W7 m ρ c (Proc.devRef .tc main_arg13) = W6 m ρ c (Proc.devRef .tc main_arg13) := by
  show StableHlo.after hostOps3 (W6 m ρ c) (Proc.devRef .tc main_arg13) = _
  host_keeps
theorem main_arg13_at1 : W1 m ρ c (Proc.devRef .tc main_arg13) = W0 m ρ c (Proc.devRef .tc main_arg13) :=
  (main_arg13_W1 m ρ c)
theorem main_arg13_at2 : W2 m ρ c (Proc.devRef .tc main_arg13) = W0 m ρ c (Proc.devRef .tc main_arg13) :=
  ((main_arg13_W2 m ρ c).trans (main_arg13_W1 m ρ c))
theorem main_arg13_at3 : W3 m ρ c (Proc.devRef .tc main_arg13) = W0 m ρ c (Proc.devRef .tc main_arg13) :=
  (((main_arg13_W3 m ρ c).trans (main_arg13_W2 m ρ c)).trans (main_arg13_W1 m ρ c))
theorem main_arg13_at4 : W4 m ρ c (Proc.devRef .tc main_arg13) = W0 m ρ c (Proc.devRef .tc main_arg13) :=
  ((((main_arg13_W4 m ρ c).trans (main_arg13_W3 m ρ c)).trans (main_arg13_W2 m ρ c)).trans (main_arg13_W1 m ρ c))
theorem main_arg13_at5 : W5 m ρ c (Proc.devRef .tc main_arg13) = W0 m ρ c (Proc.devRef .tc main_arg13) :=
  (((((main_arg13_W5 m ρ c).trans (main_arg13_W4 m ρ c)).trans (main_arg13_W3 m ρ c)).trans (main_arg13_W2 m ρ c)).trans (main_arg13_W1 m ρ c))
theorem main_arg13_at6 : W6 m ρ c (Proc.devRef .tc main_arg13) = W0 m ρ c (Proc.devRef .tc main_arg13) :=
  ((((((main_arg13_W6 m ρ c).trans (main_arg13_W5 m ρ c)).trans (main_arg13_W4 m ρ c)).trans (main_arg13_W3 m ρ c)).trans (main_arg13_W2 m ρ c)).trans (main_arg13_W1 m ρ c))
theorem main_arg13_at7 : W7 m ρ c (Proc.devRef .tc main_arg13) = W0 m ρ c (Proc.devRef .tc main_arg13) :=
  (((((((main_arg13_W7 m ρ c).trans (main_arg13_W6 m ρ c)).trans (main_arg13_W5 m ρ c)).trans (main_arg13_W4 m ρ c)).trans (main_arg13_W3 m ρ c)).trans (main_arg13_W2 m ρ c)).trans (main_arg13_W1 m ρ c))

theorem main_arg15_W1 : W1 m ρ c (Proc.devRef .tc main_arg15) = W0 m ρ c (Proc.devRef .tc main_arg15) := by
  show StableHlo.after hostOps0 (W0 m ρ c) (Proc.devRef .tc main_arg15) = _
  host_keeps
theorem main_arg15_W2 : W2 m ρ c (Proc.devRef .tc main_arg15) = W1 m ρ c (Proc.devRef .tc main_arg15) :=
  W2_of_ne m ρ c main_arg15 (by decide)
theorem main_arg15_W3 : W3 m ρ c (Proc.devRef .tc main_arg15) = W2 m ρ c (Proc.devRef .tc main_arg15) := by
  show StableHlo.after hostOps1 (W2 m ρ c) (Proc.devRef .tc main_arg15) = _
  host_keeps
theorem main_arg15_W4 : W4 m ρ c (Proc.devRef .tc main_arg15) = W3 m ρ c (Proc.devRef .tc main_arg15) :=
  W4_of_ne m ρ c main_arg15 (by decide)
theorem main_arg15_W5 : W5 m ρ c (Proc.devRef .tc main_arg15) = W4 m ρ c (Proc.devRef .tc main_arg15) := by
  show StableHlo.after hostOps2 (W4 m ρ c) (Proc.devRef .tc main_arg15) = _
  host_keeps
theorem main_arg15_W6 : W6 m ρ c (Proc.devRef .tc main_arg15) = W5 m ρ c (Proc.devRef .tc main_arg15) :=
  W6_of_ne m ρ c main_arg15 (by decide)
theorem main_arg15_W7 : W7 m ρ c (Proc.devRef .tc main_arg15) = W6 m ρ c (Proc.devRef .tc main_arg15) := by
  show StableHlo.after hostOps3 (W6 m ρ c) (Proc.devRef .tc main_arg15) = _
  host_keeps
theorem main_arg15_at1 : W1 m ρ c (Proc.devRef .tc main_arg15) = W0 m ρ c (Proc.devRef .tc main_arg15) :=
  (main_arg15_W1 m ρ c)
theorem main_arg15_at2 : W2 m ρ c (Proc.devRef .tc main_arg15) = W0 m ρ c (Proc.devRef .tc main_arg15) :=
  ((main_arg15_W2 m ρ c).trans (main_arg15_W1 m ρ c))
theorem main_arg15_at3 : W3 m ρ c (Proc.devRef .tc main_arg15) = W0 m ρ c (Proc.devRef .tc main_arg15) :=
  (((main_arg15_W3 m ρ c).trans (main_arg15_W2 m ρ c)).trans (main_arg15_W1 m ρ c))
theorem main_arg15_at4 : W4 m ρ c (Proc.devRef .tc main_arg15) = W0 m ρ c (Proc.devRef .tc main_arg15) :=
  ((((main_arg15_W4 m ρ c).trans (main_arg15_W3 m ρ c)).trans (main_arg15_W2 m ρ c)).trans (main_arg15_W1 m ρ c))
theorem main_arg15_at5 : W5 m ρ c (Proc.devRef .tc main_arg15) = W0 m ρ c (Proc.devRef .tc main_arg15) :=
  (((((main_arg15_W5 m ρ c).trans (main_arg15_W4 m ρ c)).trans (main_arg15_W3 m ρ c)).trans (main_arg15_W2 m ρ c)).trans (main_arg15_W1 m ρ c))
theorem main_arg15_at6 : W6 m ρ c (Proc.devRef .tc main_arg15) = W0 m ρ c (Proc.devRef .tc main_arg15) :=
  ((((((main_arg15_W6 m ρ c).trans (main_arg15_W5 m ρ c)).trans (main_arg15_W4 m ρ c)).trans (main_arg15_W3 m ρ c)).trans (main_arg15_W2 m ρ c)).trans (main_arg15_W1 m ρ c))
theorem main_arg15_at7 : W7 m ρ c (Proc.devRef .tc main_arg15) = W0 m ρ c (Proc.devRef .tc main_arg15) :=
  (((((((main_arg15_W7 m ρ c).trans (main_arg15_W6 m ρ c)).trans (main_arg15_W5 m ρ c)).trans (main_arg15_W4 m ρ c)).trans (main_arg15_W3 m ρ c)).trans (main_arg15_W2 m ρ c)).trans (main_arg15_W1 m ρ c))

theorem main_arg2_W1 : W1 m ρ c (Proc.devRef .tc main_arg2) = W0 m ρ c (Proc.devRef .tc main_arg2) := by
  show StableHlo.after hostOps0 (W0 m ρ c) (Proc.devRef .tc main_arg2) = _
  host_keeps
theorem main_arg2_W2 : W2 m ρ c (Proc.devRef .tc main_arg2) = W1 m ρ c (Proc.devRef .tc main_arg2) :=
  (W2_arr m ρ c 1).trans (((dat0 (V1 m ρ) c).arrAt_in 1 rfl _).trans (A_eq0 (V1 m ρ) c 1))
theorem main_arg2_W3 : W3 m ρ c (Proc.devRef .tc main_arg2) = W2 m ρ c (Proc.devRef .tc main_arg2) := by
  show StableHlo.after hostOps1 (W2 m ρ c) (Proc.devRef .tc main_arg2) = _
  host_keeps
theorem main_arg2_W4 : W4 m ρ c (Proc.devRef .tc main_arg2) = W3 m ρ c (Proc.devRef .tc main_arg2) :=
  W4_of_ne m ρ c main_arg2 (by decide)
theorem main_arg2_W5 : W5 m ρ c (Proc.devRef .tc main_arg2) = W4 m ρ c (Proc.devRef .tc main_arg2) := by
  show StableHlo.after hostOps2 (W4 m ρ c) (Proc.devRef .tc main_arg2) = _
  host_keeps
theorem main_arg2_W6 : W6 m ρ c (Proc.devRef .tc main_arg2) = W5 m ρ c (Proc.devRef .tc main_arg2) :=
  W6_of_ne m ρ c main_arg2 (by decide)
theorem main_arg2_W7 : W7 m ρ c (Proc.devRef .tc main_arg2) = W6 m ρ c (Proc.devRef .tc main_arg2) := by
  show StableHlo.after hostOps3 (W6 m ρ c) (Proc.devRef .tc main_arg2) = _
  host_keeps
theorem main_arg2_at1 : W1 m ρ c (Proc.devRef .tc main_arg2) = W0 m ρ c (Proc.devRef .tc main_arg2) :=
  (main_arg2_W1 m ρ c)
theorem main_arg2_at2 : W2 m ρ c (Proc.devRef .tc main_arg2) = W0 m ρ c (Proc.devRef .tc main_arg2) :=
  ((main_arg2_W2 m ρ c).trans (main_arg2_W1 m ρ c))
theorem main_arg2_at3 : W3 m ρ c (Proc.devRef .tc main_arg2) = W0 m ρ c (Proc.devRef .tc main_arg2) :=
  (((main_arg2_W3 m ρ c).trans (main_arg2_W2 m ρ c)).trans (main_arg2_W1 m ρ c))
theorem main_arg2_at4 : W4 m ρ c (Proc.devRef .tc main_arg2) = W0 m ρ c (Proc.devRef .tc main_arg2) :=
  ((((main_arg2_W4 m ρ c).trans (main_arg2_W3 m ρ c)).trans (main_arg2_W2 m ρ c)).trans (main_arg2_W1 m ρ c))
theorem main_arg2_at5 : W5 m ρ c (Proc.devRef .tc main_arg2) = W0 m ρ c (Proc.devRef .tc main_arg2) :=
  (((((main_arg2_W5 m ρ c).trans (main_arg2_W4 m ρ c)).trans (main_arg2_W3 m ρ c)).trans (main_arg2_W2 m ρ c)).trans (main_arg2_W1 m ρ c))
theorem main_arg2_at6 : W6 m ρ c (Proc.devRef .tc main_arg2) = W0 m ρ c (Proc.devRef .tc main_arg2) :=
  ((((((main_arg2_W6 m ρ c).trans (main_arg2_W5 m ρ c)).trans (main_arg2_W4 m ρ c)).trans (main_arg2_W3 m ρ c)).trans (main_arg2_W2 m ρ c)).trans (main_arg2_W1 m ρ c))
theorem main_arg2_at7 : W7 m ρ c (Proc.devRef .tc main_arg2) = W0 m ρ c (Proc.devRef .tc main_arg2) :=
  (((((((main_arg2_W7 m ρ c).trans (main_arg2_W6 m ρ c)).trans (main_arg2_W5 m ρ c)).trans (main_arg2_W4 m ρ c)).trans (main_arg2_W3 m ρ c)).trans (main_arg2_W2 m ρ c)).trans (main_arg2_W1 m ρ c))

theorem main_arg3_W1 : W1 m ρ c (Proc.devRef .tc main_arg3) = W0 m ρ c (Proc.devRef .tc main_arg3) := by
  show StableHlo.after hostOps0 (W0 m ρ c) (Proc.devRef .tc main_arg3) = _
  host_keeps
theorem main_arg3_at1 : W1 m ρ c (Proc.devRef .tc main_arg3) = W0 m ρ c (Proc.devRef .tc main_arg3) :=
  (main_arg3_W1 m ρ c)

theorem main_arg17_W1 : W1 m ρ c (Proc.devRef .tc main_arg17) = W0 m ρ c (Proc.devRef .tc main_arg17) := by
  show StableHlo.after hostOps0 (W0 m ρ c) (Proc.devRef .tc main_arg17) = _
  host_keeps
theorem main_arg17_W2 : W2 m ρ c (Proc.devRef .tc main_arg17) = W1 m ρ c (Proc.devRef .tc main_arg17) :=
  W2_of_ne m ρ c main_arg17 (by decide)
theorem main_arg17_W3 : W3 m ρ c (Proc.devRef .tc main_arg17) = W2 m ρ c (Proc.devRef .tc main_arg17) := by
  show StableHlo.after hostOps1 (W2 m ρ c) (Proc.devRef .tc main_arg17) = _
  host_keeps
theorem main_arg17_W4 : W4 m ρ c (Proc.devRef .tc main_arg17) = W3 m ρ c (Proc.devRef .tc main_arg17) :=
  W4_of_ne m ρ c main_arg17 (by decide)
theorem main_arg17_W5 : W5 m ρ c (Proc.devRef .tc main_arg17) = W4 m ρ c (Proc.devRef .tc main_arg17) := by
  show StableHlo.after hostOps2 (W4 m ρ c) (Proc.devRef .tc main_arg17) = _
  host_keeps
theorem main_arg17_W6 : W6 m ρ c (Proc.devRef .tc main_arg17) = W5 m ρ c (Proc.devRef .tc main_arg17) :=
  W6_of_ne m ρ c main_arg17 (by decide)
theorem main_arg17_W7 : W7 m ρ c (Proc.devRef .tc main_arg17) = W6 m ρ c (Proc.devRef .tc main_arg17) := by
  show StableHlo.after hostOps3 (W6 m ρ c) (Proc.devRef .tc main_arg17) = _
  host_keeps
theorem main_arg17_W8 : W8 m ρ c (Proc.devRef .tc main_arg17) = W7 m ρ c (Proc.devRef .tc main_arg17) :=
  W8_of_ne m ρ c main_arg17 (by decide)
theorem main_arg17_at1 : W1 m ρ c (Proc.devRef .tc main_arg17) = W0 m ρ c (Proc.devRef .tc main_arg17) :=
  (main_arg17_W1 m ρ c)
theorem main_arg17_at2 : W2 m ρ c (Proc.devRef .tc main_arg17) = W0 m ρ c (Proc.devRef .tc main_arg17) :=
  ((main_arg17_W2 m ρ c).trans (main_arg17_W1 m ρ c))
theorem main_arg17_at3 : W3 m ρ c (Proc.devRef .tc main_arg17) = W0 m ρ c (Proc.devRef .tc main_arg17) :=
  (((main_arg17_W3 m ρ c).trans (main_arg17_W2 m ρ c)).trans (main_arg17_W1 m ρ c))
theorem main_arg17_at4 : W4 m ρ c (Proc.devRef .tc main_arg17) = W0 m ρ c (Proc.devRef .tc main_arg17) :=
  ((((main_arg17_W4 m ρ c).trans (main_arg17_W3 m ρ c)).trans (main_arg17_W2 m ρ c)).trans (main_arg17_W1 m ρ c))
theorem main_arg17_at5 : W5 m ρ c (Proc.devRef .tc main_arg17) = W0 m ρ c (Proc.devRef .tc main_arg17) :=
  (((((main_arg17_W5 m ρ c).trans (main_arg17_W4 m ρ c)).trans (main_arg17_W3 m ρ c)).trans (main_arg17_W2 m ρ c)).trans (main_arg17_W1 m ρ c))
theorem main_arg17_at6 : W6 m ρ c (Proc.devRef .tc main_arg17) = W0 m ρ c (Proc.devRef .tc main_arg17) :=
  ((((((main_arg17_W6 m ρ c).trans (main_arg17_W5 m ρ c)).trans (main_arg17_W4 m ρ c)).trans (main_arg17_W3 m ρ c)).trans (main_arg17_W2 m ρ c)).trans (main_arg17_W1 m ρ c))
theorem main_arg17_at7 : W7 m ρ c (Proc.devRef .tc main_arg17) = W0 m ρ c (Proc.devRef .tc main_arg17) :=
  (((((((main_arg17_W7 m ρ c).trans (main_arg17_W6 m ρ c)).trans (main_arg17_W5 m ρ c)).trans (main_arg17_W4 m ρ c)).trans (main_arg17_W3 m ρ c)).trans (main_arg17_W2 m ρ c)).trans (main_arg17_W1 m ρ c))
theorem main_arg17_at8 : W8 m ρ c (Proc.devRef .tc main_arg17) = W0 m ρ c (Proc.devRef .tc main_arg17) :=
  ((((((((main_arg17_W8 m ρ c).trans (main_arg17_W7 m ρ c)).trans (main_arg17_W6 m ρ c)).trans (main_arg17_W5 m ρ c)).trans (main_arg17_W4 m ρ c)).trans (main_arg17_W3 m ρ c)).trans (main_arg17_W2 m ρ c)).trans (main_arg17_W1 m ρ c))

theorem main_arg18_W1 : W1 m ρ c (Proc.devRef .tc main_arg18) = W0 m ρ c (Proc.devRef .tc main_arg18) := by
  show StableHlo.after hostOps0 (W0 m ρ c) (Proc.devRef .tc main_arg18) = _
  host_keeps
theorem main_arg18_W2 : W2 m ρ c (Proc.devRef .tc main_arg18) = W1 m ρ c (Proc.devRef .tc main_arg18) :=
  W2_of_ne m ρ c main_arg18 (by decide)
theorem main_arg18_W3 : W3 m ρ c (Proc.devRef .tc main_arg18) = W2 m ρ c (Proc.devRef .tc main_arg18) := by
  show StableHlo.after hostOps1 (W2 m ρ c) (Proc.devRef .tc main_arg18) = _
  host_keeps
theorem main_arg18_W4 : W4 m ρ c (Proc.devRef .tc main_arg18) = W3 m ρ c (Proc.devRef .tc main_arg18) :=
  W4_of_ne m ρ c main_arg18 (by decide)
theorem main_arg18_W5 : W5 m ρ c (Proc.devRef .tc main_arg18) = W4 m ρ c (Proc.devRef .tc main_arg18) := by
  show StableHlo.after hostOps2 (W4 m ρ c) (Proc.devRef .tc main_arg18) = _
  host_keeps
theorem main_arg18_W6 : W6 m ρ c (Proc.devRef .tc main_arg18) = W5 m ρ c (Proc.devRef .tc main_arg18) :=
  W6_of_ne m ρ c main_arg18 (by decide)
theorem main_arg18_W7 : W7 m ρ c (Proc.devRef .tc main_arg18) = W6 m ρ c (Proc.devRef .tc main_arg18) := by
  show StableHlo.after hostOps3 (W6 m ρ c) (Proc.devRef .tc main_arg18) = _
  host_keeps
theorem main_arg18_W8 : W8 m ρ c (Proc.devRef .tc main_arg18) = W7 m ρ c (Proc.devRef .tc main_arg18) :=
  W8_of_ne m ρ c main_arg18 (by decide)
theorem main_arg18_at1 : W1 m ρ c (Proc.devRef .tc main_arg18) = W0 m ρ c (Proc.devRef .tc main_arg18) :=
  (main_arg18_W1 m ρ c)
theorem main_arg18_at2 : W2 m ρ c (Proc.devRef .tc main_arg18) = W0 m ρ c (Proc.devRef .tc main_arg18) :=
  ((main_arg18_W2 m ρ c).trans (main_arg18_W1 m ρ c))
theorem main_arg18_at3 : W3 m ρ c (Proc.devRef .tc main_arg18) = W0 m ρ c (Proc.devRef .tc main_arg18) :=
  (((main_arg18_W3 m ρ c).trans (main_arg18_W2 m ρ c)).trans (main_arg18_W1 m ρ c))
theorem main_arg18_at4 : W4 m ρ c (Proc.devRef .tc main_arg18) = W0 m ρ c (Proc.devRef .tc main_arg18) :=
  ((((main_arg18_W4 m ρ c).trans (main_arg18_W3 m ρ c)).trans (main_arg18_W2 m ρ c)).trans (main_arg18_W1 m ρ c))
theorem main_arg18_at5 : W5 m ρ c (Proc.devRef .tc main_arg18) = W0 m ρ c (Proc.devRef .tc main_arg18) :=
  (((((main_arg18_W5 m ρ c).trans (main_arg18_W4 m ρ c)).trans (main_arg18_W3 m ρ c)).trans (main_arg18_W2 m ρ c)).trans (main_arg18_W1 m ρ c))
theorem main_arg18_at6 : W6 m ρ c (Proc.devRef .tc main_arg18) = W0 m ρ c (Proc.devRef .tc main_arg18) :=
  ((((((main_arg18_W6 m ρ c).trans (main_arg18_W5 m ρ c)).trans (main_arg18_W4 m ρ c)).trans (main_arg18_W3 m ρ c)).trans (main_arg18_W2 m ρ c)).trans (main_arg18_W1 m ρ c))
theorem main_arg18_at7 : W7 m ρ c (Proc.devRef .tc main_arg18) = W0 m ρ c (Proc.devRef .tc main_arg18) :=
  (((((((main_arg18_W7 m ρ c).trans (main_arg18_W6 m ρ c)).trans (main_arg18_W5 m ρ c)).trans (main_arg18_W4 m ρ c)).trans (main_arg18_W3 m ρ c)).trans (main_arg18_W2 m ρ c)).trans (main_arg18_W1 m ρ c))
theorem main_arg18_at8 : W8 m ρ c (Proc.devRef .tc main_arg18) = W0 m ρ c (Proc.devRef .tc main_arg18) :=
  ((((((((main_arg18_W8 m ρ c).trans (main_arg18_W7 m ρ c)).trans (main_arg18_W6 m ρ c)).trans (main_arg18_W5 m ρ c)).trans (main_arg18_W4 m ρ c)).trans (main_arg18_W3 m ρ c)).trans (main_arg18_W2 m ρ c)).trans (main_arg18_W1 m ρ c))

theorem main_v1_W2 : W2 m ρ c (Proc.devRef .tc main_v1) = W1 m ρ c (Proc.devRef .tc main_v1) :=
  W2_of_ne m ρ c main_v1 (by decide)
theorem main_v1_W3 : W3 m ρ c (Proc.devRef .tc main_v1) = W2 m ρ c (Proc.devRef .tc main_v1) := by
  show StableHlo.after hostOps1 (W2 m ρ c) (Proc.devRef .tc main_v1) = _
  host_keeps
theorem main_v1_W4 : W4 m ρ c (Proc.devRef .tc main_v1) = W3 m ρ c (Proc.devRef .tc main_v1) :=
  W4_of_ne m ρ c main_v1 (by decide)
theorem main_v1_W5 : W5 m ρ c (Proc.devRef .tc main_v1) = W4 m ρ c (Proc.devRef .tc main_v1) := by
  show StableHlo.after hostOps2 (W4 m ρ c) (Proc.devRef .tc main_v1) = _
  host_keeps
theorem main_v1_W6 : W6 m ρ c (Proc.devRef .tc main_v1) = W5 m ρ c (Proc.devRef .tc main_v1) :=
  W6_of_ne m ρ c main_v1 (by decide)
theorem main_v1_at2 : W2 m ρ c (Proc.devRef .tc main_v1) = W1 m ρ c (Proc.devRef .tc main_v1) :=
  (main_v1_W2 m ρ c)
theorem main_v1_at3 : W3 m ρ c (Proc.devRef .tc main_v1) = W1 m ρ c (Proc.devRef .tc main_v1) :=
  ((main_v1_W3 m ρ c).trans (main_v1_W2 m ρ c))
theorem main_v1_at4 : W4 m ρ c (Proc.devRef .tc main_v1) = W1 m ρ c (Proc.devRef .tc main_v1) :=
  (((main_v1_W4 m ρ c).trans (main_v1_W3 m ρ c)).trans (main_v1_W2 m ρ c))
theorem main_v1_at5 : W5 m ρ c (Proc.devRef .tc main_v1) = W1 m ρ c (Proc.devRef .tc main_v1) :=
  ((((main_v1_W5 m ρ c).trans (main_v1_W4 m ρ c)).trans (main_v1_W3 m ρ c)).trans (main_v1_W2 m ρ c))
theorem main_v1_at6 : W6 m ρ c (Proc.devRef .tc main_v1) = W1 m ρ c (Proc.devRef .tc main_v1) :=
  (((((main_v1_W6 m ρ c).trans (main_v1_W5 m ρ c)).trans (main_v1_W4 m ρ c)).trans (main_v1_W3 m ρ c)).trans (main_v1_W2 m ρ c))

theorem main_v3_W2 : W2 m ρ c (Proc.devRef .tc main_v3) = W1 m ρ c (Proc.devRef .tc main_v3) :=
  W2_of_ne m ρ c main_v3 (by decide)
theorem main_v3_W3 : W3 m ρ c (Proc.devRef .tc main_v3) = W2 m ρ c (Proc.devRef .tc main_v3) := by
  show StableHlo.after hostOps1 (W2 m ρ c) (Proc.devRef .tc main_v3) = _
  host_keeps
theorem main_v3_W4 : W4 m ρ c (Proc.devRef .tc main_v3) = W3 m ρ c (Proc.devRef .tc main_v3) :=
  W4_of_ne m ρ c main_v3 (by decide)
theorem main_v3_W5 : W5 m ρ c (Proc.devRef .tc main_v3) = W4 m ρ c (Proc.devRef .tc main_v3) := by
  show StableHlo.after hostOps2 (W4 m ρ c) (Proc.devRef .tc main_v3) = _
  host_keeps
theorem main_v3_W6 : W6 m ρ c (Proc.devRef .tc main_v3) = W5 m ρ c (Proc.devRef .tc main_v3) :=
  W6_of_ne m ρ c main_v3 (by decide)
theorem main_v3_at2 : W2 m ρ c (Proc.devRef .tc main_v3) = W1 m ρ c (Proc.devRef .tc main_v3) :=
  (main_v3_W2 m ρ c)
theorem main_v3_at3 : W3 m ρ c (Proc.devRef .tc main_v3) = W1 m ρ c (Proc.devRef .tc main_v3) :=
  ((main_v3_W3 m ρ c).trans (main_v3_W2 m ρ c))
theorem main_v3_at4 : W4 m ρ c (Proc.devRef .tc main_v3) = W1 m ρ c (Proc.devRef .tc main_v3) :=
  (((main_v3_W4 m ρ c).trans (main_v3_W3 m ρ c)).trans (main_v3_W2 m ρ c))
theorem main_v3_at5 : W5 m ρ c (Proc.devRef .tc main_v3) = W1 m ρ c (Proc.devRef .tc main_v3) :=
  ((((main_v3_W5 m ρ c).trans (main_v3_W4 m ρ c)).trans (main_v3_W3 m ρ c)).trans (main_v3_W2 m ρ c))
theorem main_v3_at6 : W6 m ρ c (Proc.devRef .tc main_v3) = W1 m ρ c (Proc.devRef .tc main_v3) :=
  (((((main_v3_W6 m ρ c).trans (main_v3_W5 m ρ c)).trans (main_v3_W4 m ρ c)).trans (main_v3_W3 m ρ c)).trans (main_v3_W2 m ρ c))

theorem main_v43_W8 : W8 m ρ c (Proc.devRef .tc main_v43) = W7 m ρ c (Proc.devRef .tc main_v43) :=
  W8_of_ne m ρ c main_v43 (by decide)
theorem main_v43_W9 : W9 m ρ c (Proc.devRef .tc main_v43) = W8 m ρ c (Proc.devRef .tc main_v43) := by
  show StableHlo.after hostOps4 (W8 m ρ c) (Proc.devRef .tc main_v43) = _
  host_keeps
theorem main_v43_W10 : W10 m ρ c (Proc.devRef .tc main_v43) = W9 m ρ c (Proc.devRef .tc main_v43) :=
  W10_of_ne m ρ c main_v43 (by decide)
theorem main_v43_W11 : W11 m ρ c (Proc.devRef .tc main_v43) = W10 m ρ c (Proc.devRef .tc main_v43) := by
  show StableHlo.after hostOps5 (W10 m ρ c) (Proc.devRef .tc main_v43) = _
  host_keeps
theorem main_v43_at8 : W8 m ρ c (Proc.devRef .tc main_v43) = W7 m ρ c (Proc.devRef .tc main_v43) :=
  (main_v43_W8 m ρ c)
theorem main_v43_at9 : W9 m ρ c (Proc.devRef .tc main_v43) = W7 m ρ c (Proc.devRef .tc main_v43) :=
  ((main_v43_W9 m ρ c).trans (main_v43_W8 m ρ c))
theorem main_v43_at10 : W10 m ρ c (Proc.devRef .tc main_v43) = W7 m ρ c (Proc.devRef .tc main_v43) :=
  (((main_v43_W10 m ρ c).trans (main_v43_W9 m ρ c)).trans (main_v43_W8 m ρ c))
theorem main_v43_at11 : W11 m ρ c (Proc.devRef .tc main_v43) = W7 m ρ c (Proc.devRef .tc main_v43) :=
  ((((main_v43_W11 m ρ c).trans (main_v43_W10 m ρ c)).trans (main_v43_W9 m ρ c)).trans (main_v43_W8 m ρ c))

end Cert.KernelIdeal.Keep

end
-- ==== Proof.Region0.lean ====
/-
  Region 0 (the edge message) of the idealized kernel, read off the generated frame at the extended reals and at
  arbitrary entry contents: the output array after the region is, entry by entry,
  relu ((x_src[e,j] + Σ_k ef[e,k]·W[k,j]) + b[j]).

  The region cuts the 800000 rows into 100 blocks of 8000 rows; grid point t stages rows 8000·t … 8000·t + 7999 of
  the gathered source rows and of the edge features, the whole 64×64 weight and the whole 1×64 bias, and writes back
  rows 8000·t … 8000·t + 7999 of the output. Row e is therefore written by point e / 8000, and its entries depend on row
  e of the two row-blocked operands only.
-/
import proofs.«158963_j17583596109847_2_alg».proof.Proof.Gen.KernelIdeal.Frame
import proofs.«158963_j17583596109847_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Stage0

open Idealize.ShloMosaic Idealize.ShloMosaic.TcCoe Idealize.ShloMosaic.ValueIdx Idealize.SL.Sem Cert.KernelIdeal Cert.KernelIdeal.Gen
open scoped BigOperators

/-! ## The body's arithmetic at one entry of the block -/

/-- The left operand's index at output index i and contraction index k: row i 0 (the one free axis) … -/
theorem lhs_free (i : S8000x64.Idx) (k : dot_S8000x64_S64x64_S8000x64_1_0_0_1_n_n.contr.Idx) :
    (dot_S8000x64_S64x64_S8000x64_1_0_0_1_n_n.lhsIdx i k 0).val = (i 0).val := by
  unfold DotDims.lhsIdx
  rw [dif_neg (show ¬(0 : Fin S8000x64.rank) ∈ dot_S8000x64_S64x64_S8000x64_1_0_0_1_n_n.lhsBatch by decide), dif_pos (show (0 : Fin S8000x64.rank) ∈ dot_S8000x64_S64x64_S8000x64_1_0_0_1_n_n.lhsNonContracting by decide)]
  rfl
/-- … and column k (the contracted axis); -/
theorem lhs_contr (i : S8000x64.Idx) (k : dot_S8000x64_S64x64_S8000x64_1_0_0_1_n_n.contr.Idx) :
    (dot_S8000x64_S64x64_S8000x64_1_0_0_1_n_n.lhsIdx i k 1).val = (k ⟨0, by decide⟩).val :=
  dot_S8000x64_S64x64_S8000x64_1_0_0_1_n_n.lhsIdx_val_of_single rfl i k
/-- the right operand's: row k (the contracted axis) … -/
theorem rhs_contr (i : S8000x64.Idx) (k : dot_S8000x64_S64x64_S8000x64_1_0_0_1_n_n.contr.Idx) :
    (dot_S8000x64_S64x64_S8000x64_1_0_0_1_n_n.rhsIdx i k 0).val = (k ⟨0, by decide⟩).val :=
  dot_S8000x64_S64x64_S8000x64_1_0_0_1_n_n.rhsIdx_val_of_single rfl i k
/-- … and column i 1 (the one free axis). -/
theorem rhs_free (i : S8000x64.Idx) (k : dot_S8000x64_S64x64_S8000x64_1_0_0_1_n_n.contr.Idx) :
    (dot_S8000x64_S64x64_S8000x64_1_0_0_1_n_n.rhsIdx i k 1).val = (i 1).val := by
  unfold DotDims.rhsIdx
  rw [dif_neg (show ¬(1 : Fin S64x64.rank) ∈ dot_S8000x64_S64x64_S8000x64_1_0_0_1_n_n.rhsBatch by decide), dif_pos (show (1 : Fin S64x64.rank) ∈ dot_S8000x64_S64x64_S8000x64_1_0_0_1_n_n.rhsNonContracting by decide)]
  rfl

/-- The block product into a zero accumulator, at row p and column q of the block: the sum over the 64 contracted
    coordinates of the products. -/
theorem matmul_apply0 (a : FVec Ideal S8000x64 .bf16) (w : FVec Ideal S64x64 .bf16) (p : Fin 8000) (q : Fin 64) :
    matmul dot_S8000x64_S64x64_S8000x64_1_0_0_1_n_n none a w (constant (F := Ideal) S8000x64 .f32 0x00000000#32) (ix2 p q)
      = ∑ k : Fin 64, a (ix2 p k) * w (ix2 k q) := by
  refine (Ideal.matmul_constant_zero_apply dot_S8000x64_S64x64_S8000x64_1_0_0_1_n_n none a w (ix2 p q)).trans ?_
  rw [← Equiv.sum_comp (ValueIdx.contrEquiv1 dot_S8000x64_S64x64_S8000x64_1_0_0_1_n_n 64 rfl rfl).symm]
  refine Finset.sum_congr rfl fun k _ => ?_
  have hk := ValueIdx.contrEquiv1_symm_val dot_S8000x64_S64x64_S8000x64_1_0_0_1_n_n 64 rfl rfl k
  have el : dot_S8000x64_S64x64_S8000x64_1_0_0_1_n_n.lhsIdx (ix2 p q) ((ValueIdx.contrEquiv1 dot_S8000x64_S64x64_S8000x64_1_0_0_1_n_n 64 rfl rfl).symm k) = ix2 p k :=
    funext fun a => Fin.ext (by
      match a with
      | ⟨0, _⟩ => exact lhs_free _ _
      | ⟨1, _⟩ => exact (lhs_contr _ _).trans hk)
  have er : dot_S8000x64_S64x64_S8000x64_1_0_0_1_n_n.rhsIdx (ix2 p q) ((ValueIdx.contrEquiv1 dot_S8000x64_S64x64_S8000x64_1_0_0_1_n_n 64 rfl rfl).symm k) = ix2 k q :=
    funext fun a => Fin.ext (by
      match a with
      | ⟨0, _⟩ => exact (rhs_contr _ _).trans hk
      | ⟨1, _⟩ => exact rhs_free _ _)
  rw [el, er]

/-- The body's result at row p and column q of the block, from the four staged blocks: the source row's entry plus the
    edge-feature row against the weight's column, plus the bias's entry, clamped below at zero. The two narrowings to
    bf16 are the identity on the extended reals, the two shape casts are between equal shapes, and the one bias row is
    read at every row. -/
theorem pay_apply (ef : Vec Ideal S8000x64 .f32) (w : Vec Ideal S64x64 .f32) (xs : Vec Ideal S8000x64 .f32)
    (b : Vec Ideal S1x64 .f32) (p : Fin 8000) (q : Fin 64) :
    k0_pay1 ef w xs b (ix2 p q)
      = max ((xs (ix2 p q) + ∑ k : Fin 64, ef (ix2 p k) * w (ix2 k q)) + b (ix2 (0 : Fin 1) q)) 0 := by
  unfold k0_pay1
  simp only [shapeCast_self]
  show max ((xs (ix2 p q)
      + matmul dot_S8000x64_S64x64_S8000x64_1_0_0_1_n_n none (truncf (F := Ideal) .bf16 ef bitsLt_bf16_f32)
          (truncf (F := Ideal) .bf16 w bitsLt_bf16_f32) (constant (F := Ideal) S8000x64 .f32 0x00000000#32) (ix2 p q))
      + broadcastTo S8000x64 b broadcasts_S1x64_S8000x64 (ix2 p q)) (Ideal.ofBits .f32 0x00000000#32) = _
  rw [matmul_apply0, broadcastTo_1b_ab_apply, Ideal.ofBits_zero_f32]
  rfl

/-! ## The blocks a grid point stages -/

theorem hz : (![0, 0] : Fin 2 → Nat) = fun _ => 0 := funext fun a => by fin_cases a <;> rfl

/-- The printed index maps, decided over the 100 grid points: the two row-blocked operands and the output are at block
    row t, block column 0; the weight and the bias at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row p of grid point t's block of 8000 rows, as a row of the whole array. -/
def rowOf (t : Fin cfg0.N) (p : Fin 8000) : Fin 800000 :=
  ⟨8000 * t.val + p.val, by have h : t.val < grid0.N := t.isLt; rw [N_0] at h; have := p.isLt; omega⟩

variable (V : (c : Dev nD) → (b : Ref sig .tc) → Buf (Elt Ideal) ((c : Thread nD τ).loc b))

/-- Window 0's block at point t is rows 8000·t … of the gathered source rows. -/
theorem blk0_apply (c : Dev nD) (t : Fin cfg0.N) (p : Fin 8000) (q : Fin 64) :
    (iblk0 V c 0 t : Vec Ideal S8000x64 .f32) (ix2 p q) = (V c main_v10 : S800000x64.Idx → EReal) (ix2 (rowOf t p) q) := by
  obtain ⟨e0, e1, -⟩ := idx_facts t
  unfold iblk0
  rw [View.read_apply]
  show V c main_v10 _ = V c main_v10 _
  congr 1
  funext a
  apply Fin.ext
  match a with
  | ⟨0, _⟩ => show win0_0.index t (0 : Fin 2) * 8000 + 1 * p.val = 8000 * t.val + p.val; rw [e0]; omega
  | ⟨1, _⟩ => show win0_0.index t (1 : Fin 2) * 64 + 1 * q.val = q.val; rw [e1]; omega

/-- Window 1's block at point t is the same rows of the edge features. -/
theorem blk1_apply (c : Dev nD) (t : Fin cfg0.N) (p : Fin 8000) (q : Fin 64) :
    (iblk0 V c 1 t : Vec Ideal S8000x64 .f32) (ix2 p q) = (V c main_arg2 : S800000x64.Idx → EReal) (ix2 (rowOf t p) q) := by
  obtain ⟨-, -, e0, e1, -⟩ := idx_facts t
  unfold iblk0
  rw [View.read_apply]
  show V c main_arg2 _ = V c main_arg2 _
  congr 1
  funext a
  apply Fin.ext
  match a with
  | ⟨0, _⟩ => show win0_1.index t (0 : Fin 2) * 8000 + 1 * p.val = 8000 * t.val + p.val; rw [e0]; omega
  | ⟨1, _⟩ => show win0_1.index t (1 : Fin 2) * 64 + 1 * q.val = q.val; rw [e1]; omega

/-- Window 2's block is the whole weight at every point. -/
theorem blk2_apply (c : Dev nD) (t : Fin cfg0.N) (k : Fin 64) (q : Fin 64) :
    (iblk0 V c 2 t : Vec Ideal S64x64 .f32) (ix2 k q) = (V c main_arg3 : S64x64.Idx → EReal) (ix2 k q) := by
  obtain ⟨-, -, -, -, e0, e1, -⟩ := idx_facts t
  unfold iblk0
  rw [View.read_apply]
  show V c main_arg3 _ = V c main_arg3 _
  congr 1
  funext a
  apply Fin.ext
  match a with
  | ⟨0, _⟩ => show win0_2.index t (0 : Fin 2) * 64 + 1 * k.val = k.val; rw [e0]; omega
  | ⟨1, _⟩ => show win0_2.index t (1 : Fin 2) * 64 + 1 * q.val = q.val; rw [e1]; omega

/-- Window 3's block is the whole bias row at every point. -/
theorem blk3_apply (c : Dev nD) (t : Fin cfg0.N) (z : Fin 1) (q : Fin 64) :
    (iblk0 V c 3 t : Vec Ideal S1x64 .f32) (ix2 z q) = (V c main_v11 : S1x64.Idx → EReal) (ix2 z q) := by
  obtain ⟨-, -, -, -, -, -, e0, e1, -⟩ := idx_facts t
  unfold iblk0
  rw [View.read_apply]
  show V c main_v11 _ = V c main_v11 _
  congr 1
  funext a
  apply Fin.ext
  match a with
  | ⟨0, _⟩ => show win0_3.index t (0 : Fin 2) * 1 + 1 * z.val = z.val; rw [e0]; omega
  | ⟨1, _⟩ => show win0_3.index t (1 : Fin 2) * 64 + 1 * q.val = q.val; rw [e1]; omega

/-- An entry of the output's block at point t sits in the array at row 8000·t + p, column q. -/
theorem emb4_eq (t : Fin cfg0.N) (p : Fin 8000) (q : Fin 64) :
    (((cfg0.win 4).blk t).view.emb (ix2 p q) : S800000x64.Idx) = ix2 (rowOf t p) q := by
  obtain ⟨-, -, -, -, -, -, -, -, e0, e1⟩ := idx_facts t
  funext a
  apply Fin.ext
  match a with
  | ⟨0, _⟩ => show win0_4.index t (0 : Fin 2) * 8000 + 1 * p.val = 8000 * t.val + p.val; rw [e0]; omega
  | ⟨1, _⟩ => show win0_4.index t (1 : Fin 2) * 64 + 1 * q.val = q.val; rw [e1]; omega

/-! ## What a grid point writes back -/

/-- The entry's formula respects equality of its three summands. -/
theorem relu_congr {a a' s s' b b' : EReal} (ha : a = a') (hs : s = s') (hb : b = b') :
    max ((a + s) + b) 0 = max ((a' + s') + b') 0 := by subst ha hs hb; rfl

/-- The whole output array the region leaves, as a function of the four operand arrays at entry. -/
abbrev G (c : Dev nD) : S800000x64.Idx → EReal :=
  Cert.Spec.msgArr (V c main_v10 : S800000x64.Idx → EReal) (V c main_arg2 : S800000x64.Idx → EReal)
    (V c main_arg3 : S64x64.Idx → EReal) (V c main_v11 : S1x64.Idx → EReal)

/-- Point t writes back block t of that array: the body's one whole-block store of its payload, each staged block read
    where the output's rows say. -/
theorem flushed_eq (c : Dev nD) (t : Fin cfg0.N) :
    (dat0 (F := Ideal) V c).flushed 4 t = ((cfg0.win 4).blk t).view.read (Elt Ideal) (G V c) := by
  show (cfg0.win 4).cut (grid0.coords t) ((dat0 (F := Ideal) V c).after 4 t) = _
  rw [after0_4]
  unfold out0_4
  rw [View.canon_unit_zero hz]
  simp only [View.ld_unit_zero (S := S8000x64) hz, View.ld_unit_zero (S := S64x64) hz, View.ld_unit_zero (S := S1x64) hz]
  refine funext fun (j : S8000x64.Idx) => ?_
  obtain ⟨p, q, rfl⟩ : ∃ (p : Fin 8000) (q : Fin 64), j = ix2 p q := ⟨j 0, j 1, eq_ix2 j⟩
  show k0_pay1 (iblk0 V c 1 t) (iblk0 V c 2 t) (iblk0 V c 0 t) (iblk0 V c 3 t) (ix2 p q)
      = G V c (((cfg0.win 4).blk t).view.emb (ix2 p q))
  refine (pay_apply (iblk0 V c 1 t) (iblk0 V c 2 t) (iblk0 V c 0 t) (iblk0 V c 3 t) p q).trans ?_
  refine Eq.trans ?_ (congrArg (G V c) (emb4_eq t p q)).symm
  refine Eq.trans ?_ (show Cert.Spec.msgAt (V c main_v10 : S800000x64.Idx → EReal) (V c main_arg2 : S800000x64.Idx → EReal)
    (V c main_arg3 : S64x64.Idx → EReal) (V c main_v11 : S1x64.Idx → EReal) (rowOf t p) q = G V c (ix2 (rowOf t p) q) from rfl)
  unfold Cert.Spec.msgAt Cert.Spec.rowDot
  exact relu_congr (blk0_apply V c t p q)
    (Finset.sum_congr rfl fun k _ => congrArg₂ (· * ·) (blk1_apply V c t p k) (blk2_apply V c t k q))
    (blk3_apply V c t 0 q)

/-! ## The blocks cover the array -/

/-- An index of the array is in point t's block iff each coordinate is in the block's range on its axis. -/
theorem mem_blk (t : Fin cfg0.N) (i : S800000x64.Idx) :
    i ∈ ((cfg0.win 4).blk t).view.set ↔ ∀ a : Fin 2, win0_4.index t a * S8000x64.size a ≤ (i a).val
      ∧ (i a).val < win0_4.index t a * S8000x64.size a + S8000x64.size a := by
  show i ∈ ((View.whole main_v12).slice (win0_4.rect t)).set ↔ _
  rw [View.set_slice_whole, Rect.mem_set_unit]
  exact Iff.rfl

/-- Row e is in the block of point e / 8000, which writes back. -/
theorem cover (i : S800000x64.Idx) :
    ∃ t : Fin cfg0.N, (cfg0.win 4).flush t = true ∧ i ∈ ((cfg0.win 4).blk t).view.set := by
  have hi0 : (i 0).val < 800000 := (i 0).isLt
  have hi1 : (i 1).val < 64 := (i 1).isLt
  have hN : grid0.N = 100 := N_0
  have ht : (i 0).val / 8000 < cfg0.N := by show (i 0).val / 8000 < grid0.N; rw [hN]; omega
  obtain ⟨-, -, -, -, -, -, -, -, e0, e1⟩ := idx_facts ⟨(i 0).val / 8000, ht⟩
  refine ⟨⟨(i 0).val / 8000, ht⟩, flush0_4 _, ?_⟩
  rw [mem_blk]
  intro a
  match a with
  | ⟨0, _⟩ =>
    show win0_4.index ⟨(i 0).val / 8000, ht⟩ (0 : Fin 2) * 8000 ≤ (i 0).val
      ∧ (i 0).val < win0_4.index ⟨(i 0).val / 8000, ht⟩ (0 : Fin 2) * 8000 + 8000
    rw [e0]; show (i 0).val / 8000 * 8000 ≤ (i 0).val ∧ (i 0).val < (i 0).val / 8000 * 8000 + 8000; omega
  | ⟨1, _⟩ =>
    show win0_4.index ⟨(i 0).val / 8000, ht⟩ (1 : Fin 2) * 64 ≤ (i 1).val
      ∧ (i 1).val < win0_4.index ⟨(i 0).val / 8000, ht⟩ (1 : Fin 2) * 64 + 64
    rw [e1]; omega

/-! ## The array after the region -/

/-- THE OUTPUT ARRAY of region 0, whatever the region finds in its operand arrays: entry (e, j) is
    relu ((x_src[e,j] + Σ_k ef[e,k]·W[k,j]) + b[j]). -/
theorem value0 (c : Dev nD) : (dat0 (F := Ideal) V c).arrAt 4 cfg0.N
      = Cert.Spec.msgArr (V c main_v10) (V c main_arg2) (V c main_arg3) (V c main_v11) :=
  (dat0 (F := Ideal) V c).arrAt_eq_of_cover 4 (G V c) (fun t _ => flushed_eq V c t) cover

end Cert.KernelIdeal.Stage0

end
-- ==== Proof.Region1.lean ====
/-
  The value of the node-perceptron region, read off its frame at the ideal values and at arbitrary entry contents.

  The region's grid has ten points. Point `t` stages rows `5000 t … 5000 t + 4999` of the two node arrays
  [50000, 64], the whole of two weight matrices [64, 64] and two bias rows [1, 64], and writes back rows
  `5000 t … 5000 t + 4999` of the node output [50000, 64] and block row `t` of the statistics [10, 2, 64].

  * The body's first payload at row `p`, lane `j` of the block is the two-layer perceptron of that row:
    `(relu ((x0 + x1)·W1 + b1))·W2 + b2`, each matrix product the plain sum over the 64 contracted lanes
    (`matmul_at`, `pay1_at`).
  * Its second payload at `(0, r, j)` is, for `r = 0`, the sum over the block's 5000 rows of the first payload at lane
    `j`, and for `r = 1` the sum of its squares (`colsum_at`, `pay2_at`).
  * Each input block is rows of its array: a block's coordinate is the block index times the block size plus the
    coordinate inside the block, the index maps decided once over the ten points (`idx_facts`, `iblk0_at` … `iblk5_at`).
  * So what point `t` writes back is block `t` of one whole-array function (`flushed6_eq`, `flushed7_eq`), the blocks
    cover each output (row `n` by point `n / 5000`, block row `b` by point `b`: `cover6`, `cover7`), and each output
    array ends as that function (`value1_pre`, `value1_stat`).
-/
import proofs.«158963_j17583596109847_2_alg».proof.Proof.Gen.KernelIdeal.Frame
import proofs.«158963_j17583596109847_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Stage1

open Idealize.ShloMosaic Idealize.ShloMosaic.TcCoe Idealize.ShloMosaic.ValueIdx Idealize.SL.Sem Cert.KernelIdeal Cert.KernelIdeal.Gen
open scoped BigOperators

/-! ## The body's arithmetic read at an index

A block is 5000 rows of 64 lanes. The first payload is the two-layer perceptron of the row:
the two input blocks added, multiplied by the first weight matrix, the first bias row added, clamped
below at zero, multiplied by the second weight matrix, the second bias row added. The narrowing
format changes are the identity on the extended reals, and each matrix product into the zero
accumulator is the plain sum over the 64 contracted lanes. -/

/-- The product's dimension numbers: rows of the left operand against columns of the right, one contracted axis. -/
abbrev D1 : DotDims S5000x64 S64x64 S5000x64 := dot_S5000x64_S64x64_S5000x64_1_0_0_1_n_n

/-- The left operand's row is the output's row … -/
theorem lhs_row (i : S5000x64.Idx) (q : D1.contr.Idx) : (D1.lhsIdx i q 0).val = (i 0).val := by
  unfold DotDims.lhsIdx
  rw [dif_neg (show ¬(0 : Fin S5000x64.rank) ∈ D1.lhsBatch by decide), dif_pos (show (0 : Fin S5000x64.rank) ∈ D1.lhsNonContracting by decide)]
  rfl
/-- … its lane the contracted coordinate; -/
theorem lhs_lane (i : S5000x64.Idx) (q : D1.contr.Idx) : (D1.lhsIdx i q 1).val = (q ⟨0, by decide⟩).val :=
  D1.lhsIdx_val_of_single rfl i q
/-- the right operand's row is the contracted coordinate … -/
theorem rhs_row (i : S5000x64.Idx) (q : D1.contr.Idx) : (D1.rhsIdx i q 0).val = (q ⟨0, by decide⟩).val :=
  D1.rhsIdx_val_of_single rfl i q
/-- … and its lane the output's lane. -/
theorem rhs_lane (i : S5000x64.Idx) (q : D1.contr.Idx) : (D1.rhsIdx i q 1).val = (i 1).val := by
  unfold DotDims.rhsIdx
  rw [dif_neg (show ¬(1 : Fin S64x64.rank) ∈ D1.rhsBatch by decide), dif_pos (show (1 : Fin S64x64.rank) ∈ D1.rhsNonContracting by decide)]
  rfl

/-- A 5000×64 by 64×64 matrix product into the zero accumulator, read at row `p`, lane `j`: the sum over
    the contracted lane `k` of the left operand at `(p, k)` times the right operand at `(k, j)`. -/
theorem matmul_at {φ₁ φ₂ : FTy} (lhs : FVec Ideal S5000x64 φ₁) (rhs : FVec Ideal S64x64 φ₂) (p : Fin 5000) (j : Fin 64) :
    matmul D1 none lhs rhs (constant (F := Ideal) S5000x64 .f32 0x00000000#32) (ix2 p j)
      = ∑ k : Fin 64, lhs (ix2 p k) * rhs (ix2 k j) := by
  refine (Ideal.matmul_constant_zero_apply D1 none lhs rhs (ix2 p j)).trans ?_
  rw [← Equiv.sum_comp (contrEquiv1 D1 64 rfl rfl).symm]
  refine Finset.sum_congr rfl fun k _ => ?_
  have hk := contrEquiv1_symm_val D1 64 rfl rfl k
  have el : D1.lhsIdx (ix2 p j) ((contrEquiv1 D1 64 rfl rfl).symm k) = ix2 p k :=
    funext fun a => Fin.ext (by
      match a with
      | ⟨0, _⟩ => exact lhs_row _ _
      | ⟨1, _⟩ => exact (lhs_lane _ _).trans hk)
  have er : D1.rhsIdx (ix2 p j) ((contrEquiv1 D1 64 rfl rfl).symm k) = ix2 k j :=
    funext fun a => Fin.ext (by
      match a with
      | ⟨0, _⟩ => exact (rhs_row _ _).trans hk
      | ⟨1, _⟩ => exact rhs_lane _ _)
  rw [el, er]

/-- The hidden layer of one row: the two inputs added, times the first weights, plus the first bias, clamped at zero. -/
def hid (x0 x1 : Vec Ideal S5000x64 .f32) (w1 : Vec Ideal S64x64 .f32) (b1 : Vec Ideal S1x64 .f32) (p : Fin 5000) (k : Fin 64) : EReal :=
  max ((∑ q : Fin 64, (x0 (ix2 p q) + x1 (ix2 p q)) * w1 (ix2 q k)) + b1 (ix2 0 k)) 0

/-- The perceptron's output for one row and lane, from the blocks the body loaded. -/
def pre (x0 x1 : Vec Ideal S5000x64 .f32) (w1 : Vec Ideal S64x64 .f32) (b1 : Vec Ideal S1x64 .f32)
    (w2 : Vec Ideal S64x64 .f32) (b2 : Vec Ideal S1x64 .f32) (p : Fin 5000) (j : Fin 64) : EReal :=
  (∑ k : Fin 64, hid x0 x1 w1 b1 p k * w2 (ix2 k j)) + b2 (ix2 0 j)

/-- The first payload at row `p`, lane `j` is the perceptron of that row. -/
theorem pay1_at (x0 x1 : Vec Ideal S5000x64 .f32) (w1 : Vec Ideal S64x64 .f32) (b1 : Vec Ideal S1x64 .f32)
    (w2 : Vec Ideal S64x64 .f32) (b2 : Vec Ideal S1x64 .f32) (p : Fin 5000) (j : Fin 64) :
    k1_pay1 (F := Ideal) x0 x1 w1 b1 w2 b2 (ix2 p j) = pre x0 x1 w1 b1 w2 b2 p j := by
  unfold k1_pay1
  simp only [shapeCast_self]
  refine (addf_apply _ _ (ix2 p j)).trans ?_
  refine congrArg₂ (· + ·) ((matmul_at _ _ p j).trans (Finset.sum_congr rfl fun k _ => ?_)) (broadcastTo_1b_ab_apply _ _ p j)
  refine congrArg₂ (· * ·) ?_ rfl
  show max (matmul D1 none _ _ (constant (F := Ideal) S5000x64 .f32 0x00000000#32) (ix2 p k)
      + broadcastTo S5000x64 b1 broadcasts_S1x64_S5000x64 (ix2 p k)) (Ideal.ofBits .f32 0x00000000#32) = _
  rw [matmul_at, broadcastTo_1b_ab_apply, Ideal.ofBits_zero_f32]
  rfl

/-! ## The statistics payload read at an index

The second payload sums the first payload, and its square, down the block's 5000 rows lane by lane,
and stacks the two rows of 64 sums: row 0 the column sums, row 1 the column sums of squares. -/

/-- A sum down the 5000 rows from the zero accumulator, read at lane `j`: the sum over the rows of the source at `(r, j)`. -/
theorem colsum_at (src : FVec Ideal S5000x64 .f32) (hacc : (0x00000000#32 : BitVec 32) = 0x00000000#32) (j : Fin 64) :
    multiReduction (F := Ideal) .add [0] S64 src 0x00000000#32 reduces_S5000x64_S64 (.inl rfl) hacc (ix1 j)
      = ∑ r : Fin 5000, src (ix2 r j) := by
  refine (Ideal.multiReduction_add_single src 0x00000000#32 reduces_S5000x64_S64 (.inl rfl) hacc (ix1 j)).trans ?_
  refine Finset.sum_congr rfl fun r _ => congrArg src ?_
  funext a
  apply Fin.ext
  match a with
  | ⟨0, _⟩ => rfl
  | ⟨1, _⟩ => rfl

/-- The second payload is the stack of the two lane sums, each as one row, with a leading unit axis. -/
theorem pay2_def (x0 x1 : Vec Ideal S5000x64 .f32) (w1 : Vec Ideal S64x64 .f32) (b1 : Vec Ideal S1x64 .f32)
    (w2 : Vec Ideal S64x64 .f32) (b2 : Vec Ideal S1x64 .f32) :
    k1_pay2 (F := Ideal) x0 x1 w1 b1 w2 b2
      = shapeCast S1x2x64 (concatenate S2x64 0
          [⟨S1x64, shapeCast S1x64 (multiReduction (F := Ideal) .add [0] S64 (k1_pay1 (F := Ideal) x0 x1 w1 b1 w2 b2) 0x00000000#32 reduces_S5000x64_S64 (.inl rfl) rfl) shapeCasts_S64_S1x64⟩,
           ⟨S1x64, shapeCast S1x64 (multiReduction (F := Ideal) .add [0] S64 (mulf (k1_pay1 (F := Ideal) x0 x1 w1 b1 w2 b2) (k1_pay1 (F := Ideal) x0 x1 w1 b1 w2 b2)) 0x00000000#32 reduces_S5000x64_S64 (.inl rfl) rfl) shapeCasts_S64_S1x64⟩]
          concatenates_S1x64_S1x64_S2x64_d0) shapeCasts_S2x64_S1x2x64 := rfl

/-- The second payload at `(u, r, j)`: for `r = 0` the sum over the block's rows of the perceptron at lane `j`, for `r = 1` the sum of its squares. -/
theorem pay2_at (x0 x1 : Vec Ideal S5000x64 .f32) (w1 : Vec Ideal S64x64 .f32) (b1 : Vec Ideal S1x64 .f32)
    (w2 : Vec Ideal S64x64 .f32) (b2 : Vec Ideal S1x64 .f32) (u : Fin 1) (r : Fin 2) (j : Fin 64) :
    k1_pay2 (F := Ideal) x0 x1 w1 b1 w2 b2 (ix3 u r j)
      = if r.val = 0 then ∑ p : Fin 5000, pre x0 x1 w1 b1 w2 b2 p j
        else ∑ p : Fin 5000, pre x0 x1 w1 b1 w2 b2 p j * pre x0 x1 w1 b1 w2 b2 p j := by
  rw [pay2_def]
  refine (shapeCast_ab_1ab_apply _ _ u r j).trans ?_
  by_cases hr : r.val = 0
  · rw [if_pos hr]
    refine (concatenate_pair_apply_left (0 : Fin S2x64.rank) _ _ concatenates_S1x64_S1x64_S2x64_d0 (ix2 r j) rfl (ix2 (0 : Fin 1) j) ?_).trans ?_
    · intro b
      match b with
      | ⟨0, _⟩ => exact hr.symm
      | ⟨1, _⟩ => rfl
    refine (shapeCast_a_1a_apply _ _ (0 : Fin 1) j).trans ?_
    exact (colsum_at _ rfl j).trans (Finset.sum_congr rfl fun p _ => pay1_at x0 x1 w1 b1 w2 b2 p j)
  · rw [if_neg hr]
    have hr1 : r.val = 1 := by have := r.isLt; omega
    refine (concatenate_pair_apply_right (0 : Fin S2x64.rank) _ _ concatenates_S1x64_S1x64_S2x64_d0 (ix2 r j) rfl rfl (ix2 (0 : Fin 1) j) ?_ ?_).trans ?_
    · intro b hb
      match b with
      | ⟨0, _⟩ => exact absurd rfl hb
      | ⟨1, _⟩ => rfl
    · show 0 + 1 = r.val
      omega
    refine (shapeCast_a_1a_apply _ _ (0 : Fin 1) j).trans ?_
    refine (colsum_at _ rfl j).trans (Finset.sum_congr rfl fun p _ => ?_)
    exact (mulf_apply _ _ (ix2 p j)).trans (congrArg₂ (· * ·) (pay1_at x0 x1 w1 b1 w2 b2 p j) (pay1_at x0 x1 w1 b1 w2 b2 p j))

/-! ## From blocks to the arrays

Grid point `t` of ten stages rows `5000 t … 5000 t + 4999` of the two node arrays and of the output, the
whole of each weight matrix and bias row, and row `t` of the statistics. A block's coordinate in its
array is the block index times the block size plus the coordinate inside the block. -/

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the ten points: the row-blocked windows sit at block row `t`, the
    weights and biases at block zero. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ win1_7.index t (0 : Fin 3) = t.val ∧ win1_7.index t (1 : Fin 3) = 0 ∧ win1_7.index t (2 : Fin 3) = 0 :=
  (by decide +kernel : ∀ t : Fin grid1.N, _)

section Blocks
variable (V : (c : Dev nD) → (b : Ref sig .tc) → Buf (Elt Ideal) ((c : Thread nD τ).loc b)) (c : Dev nD) (t : Fin cfg1.N)

/-- Row `p` of the first node block is row `5000 t + p` of its array. -/
theorem iblk0_at (p : Fin 5000) (q : Fin 64) (n : Fin 50000) (hn : n.val = 5000 * t.val + p.val) :
    (iblk1 (F := Ideal) V c 0 t : Vec Ideal S5000x64 .f32) (ix2 p q) = (V c main_arg0 : S50000x64.Idx → EReal) (ix2 n q) := by
  obtain ⟨e0, e1, -⟩ := idx_facts t
  unfold iblk1
  rw [View.read_apply]
  show V c main_arg0 _ = V c main_arg0 _
  congr 1
  funext a
  apply Fin.ext
  match a with
  | ⟨0, _⟩ => show win1_0.index t 0 * 5000 + 1 * p.val = n.val; rw [e0, hn]; omega
  | ⟨1, _⟩ => show win1_0.index t 1 * 64 + 1 * q.val = q.val; rw [e1]; omega

/-- Row `p` of the second node block is row `5000 t + p` of its array. -/
theorem iblk1_at (p : Fin 5000) (q : Fin 64) (n : Fin 50000) (hn : n.val = 5000 * t.val + p.val) :
    (iblk1 (F := Ideal) V c 1 t : Vec Ideal S5000x64 .f32) (ix2 p q) = (V c main_v15 : S50000x64.Idx → EReal) (ix2 n q) := by
  obtain ⟨-, -, e0, e1, -⟩ := idx_facts t
  unfold iblk1
  rw [View.read_apply]
  show V c main_v15 _ = V c main_v15 _
  congr 1
  funext a
  apply Fin.ext
  match a with
  | ⟨0, _⟩ => show win1_1.index t 0 * 5000 + 1 * p.val = n.val; rw [e0, hn]; omega
  | ⟨1, _⟩ => show win1_1.index t 1 * 64 + 1 * q.val = q.val; rw [e1]; omega

/-- The first weight block is the whole matrix. -/
theorem iblk2_at (p q : Fin 64) :
    (iblk1 (F := Ideal) V c 2 t : Vec Ideal S64x64 .f32) (ix2 p q) = (V c main_arg5 : S64x64.Idx → EReal) (ix2 p q) := by
  obtain ⟨-, -, -, -, e0, e1, -⟩ := idx_facts t
  unfold iblk1
  rw [View.read_apply]
  show V c main_arg5 _ = V c main_arg5 _
  congr 1
  funext a
  apply Fin.ext
  match a with
  | ⟨0, _⟩ => show win1_2.index t 0 * 64 + 1 * p.val = p.val; rw [e0]; omega
  | ⟨1, _⟩ => show win1_2.index t 1 * 64 + 1 * q.val = q.val; rw [e1]; omega

/-- The first bias block is the whole row. -/
theorem iblk3_at (p : Fin 1) (q : Fin 64) :
    (iblk1 (F := Ideal) V c 3 t : Vec Ideal S1x64 .f32) (ix2 p q) = (V c main_v16 : S1x64.Idx → EReal) (ix2 p q) := by
  obtain ⟨-, -, -, -, -, -, e0, e1, -⟩ := idx_facts t
  unfold iblk1
  rw [View.read_apply]
  show V c main_v16 _ = V c main_v16 _
  congr 1
  funext a
  apply Fin.ext
  match a with
  | ⟨0, _⟩ => show win1_3.index t 0 * 1 + 1 * p.val = p.val; rw [e0]; omega
  | ⟨1, _⟩ => show win1_3.index t 1 * 64 + 1 * q.val = q.val; rw [e1]; omega

/-- The second weight block is the whole matrix. -/
theorem iblk4_at (p q : Fin 64) :
    (iblk1 (F := Ideal) V c 4 t : Vec Ideal S64x64 .f32) (ix2 p q) = (V c main_arg7 : S64x64.Idx → EReal) (ix2 p q) := by
  obtain ⟨-, -, -, -, -, -, -, -, e0, e1, -⟩ := idx_facts t
  unfold iblk1
  rw [View.read_apply]
  show V c main_arg7 _ = V c main_arg7 _
  congr 1
  funext a
  apply Fin.ext
  match a with
  | ⟨0, _⟩ => show win1_4.index t 0 * 64 + 1 * p.val = p.val; rw [e0]; omega
  | ⟨1, _⟩ => show win1_4.index t 1 * 64 + 1 * q.val = q.val; rw [e1]; omega

/-- The second bias block is the whole row. -/
theorem iblk5_at (p : Fin 1) (q : Fin 64) :
    (iblk1 (F := Ideal) V c 5 t : Vec Ideal S1x64 .f32) (ix2 p q) = (V c main_v17 : S1x64.Idx → EReal) (ix2 p q) := by
  obtain ⟨-, -, -, -, -, -, -, -, -, -, e0, e1, -⟩ := idx_facts t
  unfold iblk1
  rw [View.read_apply]
  show V c main_v17 _ = V c main_v17 _
  congr 1
  funext a
  apply Fin.ext
  match a with
  | ⟨0, _⟩ => show win1_5.index t 0 * 1 + 1 * p.val = p.val; rw [e0]; omega
  | ⟨1, _⟩ => show win1_5.index t 1 * 64 + 1 * q.val = q.val; rw [e1]; omega

end Blocks

section Arrays
variable (V : (c : Dev nD) → (b : Ref sig .tc) → Buf (Elt Ideal) ((c : Thread nD τ).loc b)) (c : Dev nD)

/-- Row `p` of the block at point `t` computes the perceptron of node `5000 t + p`. -/
theorem pre_block (t : Fin cfg1.N) (p : Fin 5000) (j : Fin 64) (n : Fin 50000) (hn : n.val = 5000 * t.val + p.val) :
    pre (iblk1 (F := Ideal) V c 0 t) (iblk1 (F := Ideal) V c 1 t) (iblk1 (F := Ideal) V c 2 t) (iblk1 (F := Ideal) V c 3 t)
        (iblk1 (F := Ideal) V c 4 t) (iblk1 (F := Ideal) V c 5 t) p j
      = Cert.Spec.preAt (V c main_arg0) (V c main_v15) (V c main_arg5) (V c main_v16) (V c main_arg7) (V c main_v17) n j := by
  unfold pre Cert.Spec.preAt hid Cert.Spec.hidAt
  refine congrArg₂ (· + ·) (Finset.sum_congr rfl fun k _ => congrArg₂ (· * ·) (congrArg (max · 0)
    (congrArg₂ (· + ·) (Finset.sum_congr rfl fun r _ => congrArg₂ (· * ·)
      (congrArg₂ (· + ·) (iblk0_at V c t p r n hn) (iblk1_at V c t p r n hn)) (iblk2_at V c t r k)) (iblk3_at V c t 0 k)))
    (iblk4_at V c t k j)) (iblk5_at V c t 0 j)

/-- The first payload of the blocks at point `t`, at block index `y`, is the array entry at row `5000 t + y₀`, lane `y₁`. -/
theorem block6 (t : Fin cfg1.N) (y : S5000x64.Idx) (i : S50000x64.Idx) (h0 : (i 0).val = 5000 * t.val + (y 0).val) (h1 : (i 1).val = (y 1).val) :
    k1_pay1 (F := Ideal) (iblk1 (F := Ideal) V c 0 t) (iblk1 (F := Ideal) V c 1 t) (iblk1 (F := Ideal) V c 2 t) (iblk1 (F := Ideal) V c 3 t)
        (iblk1 (F := Ideal) V c 4 t) (iblk1 (F := Ideal) V c 5 t) y
      = Cert.Spec.preArr (V c main_arg0) (V c main_v15) (V c main_arg5) (V c main_v16) (V c main_arg7) (V c main_v17) i := by
  obtain ⟨p, q, rfl⟩ : ∃ (p : Fin 5000) (q : Fin 64), y = ix2 p q := ⟨y 0, y 1, eq_ix2 y⟩
  obtain ⟨n, j, rfl⟩ : ∃ (n : Fin 50000) (j : Fin 64), i = ix2 n j := ⟨i 0, i 1, eq_ix2 i⟩
  have h0' : n.val = 5000 * t.val + p.val := h0
  obtain rfl : j = q := Fin.ext h1
  exact (pay1_at _ _ _ _ _ _ p j).trans (pre_block V c t p j n h0')

/-- What point `t` writes back to the node output is block `t` of the perceptron's array. -/
theorem flushed6_eq (t : Fin cfg1.N) :
    (dat1 (F := Ideal) V c).flushed 6 t = ((cfg1.win 6).blk t).view.read (Elt Ideal)
      (Cert.Spec.preArr (V c main_arg0) (V c main_v15) (V c main_arg5) (V c main_v16) (V c main_arg7) (V c main_v17)) := by
  show (cfg1.win 6).cut (grid1.coords t) ((dat1 (F := Ideal) V c).after 6 t) = _
  rw [after1_6]
  unfold out1_6
  rw [View.canon_unit_zero hz2]
  simp only [View.ld_unit_zero (S := S5000x64) hz2, View.ld_unit_zero (S := S64x64) hz2, View.ld_unit_zero (S := S1x64) hz2]
  obtain ⟨-, -, -, -, -, -, -, -, -, -, -, -, e0, e1, -⟩ := idx_facts t
  funext y
  refine block6 V c t y (((cfg1.win 6).blk t).view.emb y) ?_ ?_
  · show win1_6.index t 0 * 5000 + 1 * (y 0).val = 5000 * t.val + (y 0).val; rw [e0]; omega
  · show win1_6.index t 1 * 64 + 1 * (y 1).val = (y 1).val; rw [e1]; omega

/-- An index of the node output is in point `t`'s block iff each coordinate is in the block's range on its axis. -/
theorem mem_blk6 (t : Fin cfg1.N) (i : S50000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v18_0).slice (win1_6.rect t)).set ↔ _
  rw [View.set_slice_whole, Rect.mem_set_unit]
  exact Iff.rfl

/-- Row `r` of the node output is written by point `r / 5000`. -/
theorem cover6 (i : S50000x64.Idx) : ∃ t : Fin cfg1.N, (cfg1.win 6).flush t = true ∧ i ∈ ((cfg1.win 6).blk t).view.set := by
  have hi0 : (i 0).val < 50000 := (i 0).isLt
  have hi1 : (i 1).val < 64 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨-, -, -, -, -, -, -, -, -, -, -, -, e0, e1, -⟩ := idx_facts t
  refine ⟨t, flush1_6 t, ?_⟩
  rw [mem_blk6]
  intro a
  match a with
  | ⟨0, _⟩ => show win1_6.index t 0 * 5000 ≤ (i 0).val ∧ (i 0).val < win1_6.index t 0 * 5000 + 5000; rw [e0, ht]; omega
  | ⟨1, _⟩ => show win1_6.index t 1 * 64 ≤ (i 1).val ∧ (i 1).val < win1_6.index t 1 * 64 + 64; rw [e1]; omega

/-- The node output after the region is the perceptron of the arrays the region found, entry by entry. -/
theorem final6 : (dat1 (F := Ideal) V c).arrAt 6 cfg1.N
    = Cert.Spec.preArr (V c main_arg0) (V c main_v15) (V c main_arg5) (V c main_v16) (V c main_arg7) (V c main_v17) :=
  (dat1 (F := Ideal) V c).arrAt_eq_of_cover 6 (Cert.Spec.preArr (V c main_arg0) (V c main_v15) (V c main_arg5) (V c main_v16) (V c main_arg7) (V c main_v17))
    (fun t _ => flushed6_eq V c t) cover6

/-! ### The statistics output -/

/-- The second payload of the blocks at point `t`, at block index `y`, is the statistics entry at block row `t`, row `y₁`, lane `y₂`. -/
theorem block7 (t : Fin cfg1.N) (y : S1x2x64.Idx) (i : S10x2x64.Idx) (h0 : (i 0).val = t.val + (y 0).val)
    (h1 : (i 1).val = (y 1).val) (h2 : (i 2).val = (y 2).val) :
    k1_pay2 (F := Ideal) (iblk1 (F := Ideal) V c 0 t) (iblk1 (F := Ideal) V c 1 t) (iblk1 (F := Ideal) V c 2 t) (iblk1 (F := Ideal) V c 3 t)
        (iblk1 (F := Ideal) V c 4 t) (iblk1 (F := Ideal) V c 5 t) y
      = Cert.Spec.nodeStatArr (V c main_arg0) (V c main_v15) (V c main_arg5) (V c main_v16) (V c main_arg7) (V c main_v17) i := by
  obtain ⟨u, r, j, rfl⟩ : ∃ (u : Fin 1) (r : Fin 2) (j : Fin 64), y = ix3 u r j := ⟨y 0, y 1, y 2, eq_ix3 y⟩
  obtain ⟨b, r', j', rfl⟩ : ∃ (b : Fin 10) (r' : Fin 2) (j' : Fin 64), i = ix3 b r' j' := ⟨i 0, i 1, i 2, eq_ix3 i⟩
  have hb : b.val = t.val := by
    have hu := u.isLt
    have h0' : b.val = t.val + u.val := h0
    omega
  obtain rfl : r' = r := Fin.ext h1
  obtain rfl : j' = j := Fin.ext h2
  refine (pay2_at _ _ _ _ _ _ u r' j').trans ?_
  have hrow : ∀ p : Fin 5000, (Cert.Spec.nodeRow b p).val = 5000 * t.val + p.val := fun p => by
    show 5000 * b.val + p.val = 5000 * t.val + p.val
    rw [hb]
  show _ = if r'.val = 0
    then ∑ p : Fin 5000, Cert.Spec.preAt (V c main_arg0) (V c main_v15) (V c main_arg5) (V c main_v16) (V c main_arg7) (V c main_v17) (Cert.Spec.nodeRow b p) j'
    else ∑ p : Fin 5000, Cert.Spec.preAt (V c main_arg0) (V c main_v15) (V c main_arg5) (V c main_v16) (V c main_arg7) (V c main_v17) (Cert.Spec.nodeRow b p) j'
          * Cert.Spec.preAt (V c main_arg0) (V c main_v15) (V c main_arg5) (V c main_v16) (V c main_arg7) (V c main_v17) (Cert.Spec.nodeRow b p) j'
  by_cases hr : r'.val = 0
  · rw [if_pos hr, if_pos hr]
    exact Finset.sum_congr rfl fun p _ => pre_block V c t p j' _ (hrow p)
  · rw [if_neg hr, if_neg hr]
    exact Finset.sum_congr rfl fun p _ => congrArg₂ (· * ·) (pre_block V c t p j' _ (hrow p)) (pre_block V c t p j' _ (hrow p))

/-- What point `t` writes back to the statistics output is block `t` of the statistics array. -/
theorem flushed7_eq (t : Fin cfg1.N) :
    (dat1 (F := Ideal) V c).flushed 7 t = ((cfg1.win 7).blk t).view.read (Elt Ideal)
      (Cert.Spec.nodeStatArr (V c main_arg0) (V c main_v15) (V c main_arg5) (V c main_v16) (V c main_arg7) (V c main_v17)) := by
  show (cfg1.win 7).cut (grid1.coords t) ((dat1 (F := Ideal) V c).after 7 t) = _
  rw [after1_7]
  unfold out1_7
  rw [View.canon_unit_zero hz3]
  simp only [View.ld_unit_zero (S := S5000x64) hz2, View.ld_unit_zero (S := S64x64) hz2, View.ld_unit_zero (S := S1x64) hz2]
  obtain ⟨-, -, -, -, -, -, -, -, -, -, -, -, -, -, e0, e1, e2⟩ := idx_facts t
  funext y
  refine block7 V c t y (((cfg1.win 7).blk t).view.emb y) ?_ ?_ ?_
  · show win1_7.index t 0 * 1 + 1 * (y 0).val = t.val + (y 0).val; rw [e0]; omega
  · show win1_7.index t 1 * 2 + 1 * (y 1).val = (y 1).val; rw [e1]; omega
  · show win1_7.index t 2 * 64 + 1 * (y 2).val = (y 2).val; rw [e2]; omega

/-- An index of the statistics output is in point `t`'s block iff each coordinate is in the block's range on its axis. -/
theorem mem_blk7 (t : Fin cfg1.N) (i : S10x2x64.Idx) :
    i ∈ ((cfg1.win 7).blk t).view.set ↔ ∀ a : Fin 3, win1_7.index t a * S1x2x64.size a ≤ (i a).val ∧ (i a).val < win1_7.index t a * S1x2x64.size a + S1x2x64.size a := by
  show i ∈ ((View.whole main_v18_1).slice (win1_7.rect t)).set ↔ _
  rw [View.set_slice_whole, Rect.mem_set_unit]
  exact Iff.rfl

/-- Block row `b` of the statistics output is written by point `b`. -/
theorem cover7 (i : S10x2x64.Idx) : ∃ t : Fin cfg1.N, (cfg1.win 7).flush t = true ∧ i ∈ ((cfg1.win 7).blk t).view.set := by
  have hi0 : (i 0).val < 10 := (i 0).isLt
  have hi1 : (i 1).val < 2 := (i 1).isLt
  have hi2 : (i 2).val < 64 := (i 2).isLt
  have hN : cfg1.N = 10 := N_1
  obtain ⟨t, ht⟩ : ∃ t : Fin cfg1.N, t.val = (i 0).val := ⟨⟨(i 0).val, by rw [hN]; omega⟩, rfl⟩
  obtain ⟨-, -, -, -, -, -, -, -, -, -, -, -, -, -, e0, e1, e2⟩ := idx_facts t
  refine ⟨t, flush1_7 t, ?_⟩
  rw [mem_blk7]
  intro a
  match a with
  | ⟨0, _⟩ => show win1_7.index t 0 * 1 ≤ (i 0).val ∧ (i 0).val < win1_7.index t 0 * 1 + 1; rw [e0, ht]; omega
  | ⟨1, _⟩ => show win1_7.index t 1 * 2 ≤ (i 1).val ∧ (i 1).val < win1_7.index t 1 * 2 + 2; rw [e1]; omega
  | ⟨2, _⟩ => show win1_7.index t 2 * 64 ≤ (i 2).val ∧ (i 2).val < win1_7.index t 2 * 64 + 64; rw [e2]; omega

/-- The statistics output after the region: per block of 5000 node rows, the column sums of the perceptron and of its squares. -/
theorem final7 : (dat1 (F := Ideal) V c).arrAt 7 cfg1.N
    = Cert.Spec.nodeStatArr (V c main_arg0) (V c main_v15) (V c main_arg5) (V c main_v16) (V c main_arg7) (V c main_v17) :=
  (dat1 (F := Ideal) V c).arrAt_eq_of_cover 7 (Cert.Spec.nodeStatArr (V c main_arg0) (V c main_v15) (V c main_arg5) (V c main_v16) (V c main_arg7) (V c main_v17))
    (fun t _ => flushed7_eq V c t) cover7

end Arrays

/-- THE NODE OUTPUT of the region, at any entry contents: the two-layer perceptron of the node rows. -/
theorem value1_pre (V : (c : Dev nD) → (b : Ref sig .tc) → Buf (Elt Ideal) ((c : Thread nD τ).loc b)) (c : Dev nD) :
    (dat1 (F := Ideal) V c).arrAt 6 cfg1.N
      = Cert.Spec.preArr (V c main_arg0) (V c main_v15) (V c main_arg5) (V c main_v16) (V c main_arg7) (V c main_v17) :=
  final6 V c

/-- THE STATISTICS OUTPUT of the region, at any entry contents: for each of the ten blocks of 5000 node rows, row 0 the
    column sums of the perceptron's output and row 1 the column sums of its squares. -/
theorem value1_stat (V : (c : Dev nD) → (b : Ref sig .tc) → Buf (Elt Ideal) ((c : Thread nD τ).loc b)) (c : Dev nD) :
    (dat1 (F := Ideal) V c).arrAt 7 cfg1.N
      = Cert.Spec.nodeStatArr (V c main_arg0) (V c main_v15) (V c main_arg5) (V c main_v16) (V c main_arg7) (V c main_v17) :=
  final7 V c

end Cert.KernelIdeal.Stage1

end
-- ==== Proof.Region24.lean ====
/-
  The two normalisation regions of the idealized kernel, read off the generated frame at an arbitrary entry contents:
  each leaves in its result array, entry by entry, relu ((h − μ)·(v + ε)^(-1/2)·γ + β) of the matrix entry h against
  the lane's mean μ, variance v, scale γ and shift β.

  Per region: the body's one stored payload read at an entry of the block (pointwise operations, the four row vectors
  broadcast down the rows); what a grid point writes back is the corresponding block of the normalised array (the
  matrix's block and the result's block sit at the same rows, the statistics' blocks are their whole arrays: the
  printed index maps decided over the grid); the blocks of the result tile its rows, so the array ends holding the
  normalised array.
-/
import proofs.«158963_j17583596109847_2_alg».proof.Proof.Gen.KernelIdeal.Frame
import proofs.«158963_j17583596109847_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Stage24

open Idealize.ShloMosaic Idealize.ShloMosaic.TcCoe Idealize.ShloMosaic.ValueIdx Idealize.SL.Sem Cert.KernelIdeal Cert.KernelIdeal.Gen
open Idealize.ShloMosaic.Pipeline (Dat)

/-- The zero offsets of a whole-block load or store. -/
theorem hz : (![0, 0] : Fin 2 → Nat) = fun _ => 0 := funext fun a => by fin_cases a <;> rfl

variable (V : (c : Dev nD) → (b : Ref sig .tc) → Buf (Elt Ideal) ((c : Thread nD τ).loc b))

/-! ## Region 2: blocks of 5000 rows of the [25000, 128] matrix, 5 grid points -/

/-- The body's value at an entry of the block: the entry of the matrix block less the mean's lane, times the
    reciprocal square root of the variance's lane plus ε, times the scale's lane, plus the shift's lane, clamped
    below at 0. The payload's operands come in the order variance, matrix, mean, scale, shift. -/
theorem pay2_apply (v0 : Vec Ideal S1x128 .f32) (v5 : Vec Ideal S5000x128 .f32) (v7 v13 v17 : Vec Ideal S1x128 .f32)
    (p : Fin 5000) (q : Fin 128) :
    k2_pay1 (F := Ideal) v0 v5 v7 v13 v17 (ix2 p q)
      = Cert.Spec.bnS (v5 (ix2 p q)) (v7 (ix2 0 q)) (v0 (ix2 0 q)) (v13 (ix2 0 q)) (v17 (ix2 0 q)) := by
  unfold k2_pay1 Cert.Spec.bnS Cert.Spec.eps
  simp only [maximumf_apply, addf_apply, mulf_apply, subf_apply, broadcast_apply, shapeCast_self, broadcastTo_1b_ab_apply]
  exact congrArg₂ max rfl Ideal.ofBits_zero_f32

/-- The same entry against the arrays the blocks are cut from: when the matrix block's entry at `y` is the matrix's
    entry at `i` (same lane), and each statistics block is its one-row array, the body's value at `y` is the
    normalised array's entry at `i`. -/
theorem pay2_point {R : Nat} (h : Cert.Spec.Arr2 R 128) (mu v g be : Cert.Spec.Arr2 1 128)
    (x0 : Vec Ideal S5000x128 .f32) (x1 x2 x3 x4 : Vec Ideal S1x128 .f32)
    (y : S5000x128.Idx) (i : (⟨2, ![R, 128]⟩ : Shape).Idx)
    (hi : (i 1).val = (y 1).val)
    (e0 : x0 y = h i)
    (e1 : ∀ q : Fin 128, x1 (ix2 0 q) = mu (ix2 0 q))
    (e2 : ∀ q : Fin 128, x2 (ix2 0 q) = v (ix2 0 q))
    (e3 : ∀ q : Fin 128, x3 (ix2 0 q) = g (ix2 0 q))
    (e4 : ∀ q : Fin 128, x4 (ix2 0 q) = be (ix2 0 q)) :
    k2_pay1 (F := Ideal) x2 x0 x1 x3 x4 y = Cert.Spec.bnArr h mu v g be i := by
  obtain ⟨p, q, rfl⟩ : ∃ (p : Fin 5000) (q : Fin 128), y = ix2 p q := ⟨y 0, y 1, eq_ix2 y⟩
  obtain ⟨r, q', rfl⟩ : ∃ (r : Fin R) (q' : Fin 128), i = ix2 r q' := ⟨i 0, i 1, eq_ix2 i⟩
  obtain rfl : q' = q := Fin.ext hi
  rw [pay2_apply, e0, e1, e2, e3, e4]
  rfl

/-- The printed index maps over the grid: the matrix and the result move one block of rows per point, the four
    statistics rows stay at block 0. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The matrix's block at point `t`, read where the result's block has its entry `j`, is the matrix's entry under the
    result's entry: both blocks sit at rows `5000·t …`. -/
theorem iblk2_0_at (c : Dev nD) (t : Fin cfg2.N) (j : ((win2 5).xblock (grid2.coords t)).Idx) :
    iblk2 (F := Ideal) V c 0 t ((win2 5).xinj (grid2.coords t) j) = V c main_v33 (((cfg2.win 5).blk t).view.emb j) := by
  obtain ⟨a0, a1, -, -, -, -, -, -, -, -, o0, o1⟩ := idx_facts2 t
  show V c main_v33 (((cfg2.win 0).blk t).view.emb ((win2 5).xinj (grid2.coords t) j)) = V c main_v33 (((cfg2.win 5).blk t).view.emb j)
  refine congrArg (V c main_v33) (funext fun a => Fin.ext ?_)
  match a with
  | ⟨0, _⟩ => show win2_0.index t (0 : Fin 2) * 5000 + 1 * (j 0).val = win2_5.index t (0 : Fin 2) * 5000 + 1 * (j 0).val; omega
  | ⟨1, _⟩ => show win2_0.index t (1 : Fin 2) * 128 + 1 * (j 1).val = win2_5.index t (1 : Fin 2) * 128 + 1 * (j 1).val; omega

/-- The mean's block at any point is its whole one-row array. -/
theorem iblk2_1_at (c : Dev nD) (t : Fin cfg2.N) (q : Fin 128) :
    iblk2 (F := Ideal) V c 1 t (ix2 (0 : Fin 1) q) = V c main_v35 (ix2 (0 : Fin 1) q) := by
  obtain ⟨-, -, b0, b1, c0, c1, d0, d1, f0, f1, -, -⟩ := idx_facts2 t
  show V c main_v35 (((cfg2.win 1).blk t).view.emb (ix2 (0 : Fin 1) q)) = V c main_v35 (ix2 (0 : Fin 1) q)
  refine congrArg (V c main_v35) (funext fun a => Fin.ext ?_)
  match a with
  | ⟨0, _⟩ => show win2_1.index t (0 : Fin 2) * 1 + 1 * 0 = 0; omega
  | ⟨1, _⟩ => show win2_1.index t (1 : Fin 2) * 128 + 1 * q.val = q.val; omega

/-- The variance's block at any point is its whole one-row array. -/
theorem iblk2_2_at (c : Dev nD) (t : Fin cfg2.N) (q : Fin 128) :
    iblk2 (F := Ideal) V c 2 t (ix2 (0 : Fin 1) q) = V c main_v37 (ix2 (0 : Fin 1) q) := by
  obtain ⟨-, -, b0, b1, c0, c1, d0, d1, f0, f1, -, -⟩ := idx_facts2 t
  show V c main_v37 (((cfg2.win 2).blk t).view.emb (ix2 (0 : Fin 1) q)) = V c main_v37 (ix2 (0 : Fin 1) q)
  refine congrArg (V c main_v37) (funext fun a => Fin.ext ?_)
  match a with
  | ⟨0, _⟩ => show win2_2.index t (0 : Fin 2) * 1 + 1 * 0 = 0; omega
  | ⟨1, _⟩ => show win2_2.index t (1 : Fin 2) * 128 + 1 * q.val = q.val; omega

/-- The scale's block at any point is its whole one-row array. -/
theorem iblk2_3_at (c : Dev nD) (t : Fin cfg2.N) (q : Fin 128) :
    iblk2 (F := Ideal) V c 3 t (ix2 (0 : Fin 1) q) = V c main_v39 (ix2 (0 : Fin 1) q) := by
  obtain ⟨-, -, b0, b1, c0, c1, d0, d1, f0, f1, -, -⟩ := idx_facts2 t
  show V c main_v39 (((cfg2.win 3).blk t).view.emb (ix2 (0 : Fin 1) q)) = V c main_v39 (ix2 (0 : Fin 1) q)
  refine congrArg (V c main_v39) (funext fun a => Fin.ext ?_)
  match a with
  | ⟨0, _⟩ => show win2_3.index t (0 : Fin 2) * 1 + 1 * 0 = 0; omega
  | ⟨1, _⟩ => show win2_3.index t (1 : Fin 2) * 128 + 1 * q.val = q.val; omega

/-- The shift's block at any point is its whole one-row array. -/
theorem iblk2_4_at (c : Dev nD) (t : Fin cfg2.N) (q : Fin 128) :
    iblk2 (F := Ideal) V c 4 t (ix2 (0 : Fin 1) q) = V c main_v41 (ix2 (0 : Fin 1) q) := by
  obtain ⟨-, -, b0, b1, c0, c1, d0, d1, f0, f1, -, -⟩ := idx_facts2 t
  show V c main_v41 (((cfg2.win 4).blk t).view.emb (ix2 (0 : Fin 1) q)) = V c main_v41 (ix2 (0 : Fin 1) q)
  refine congrArg (V c main_v41) (funext fun a => Fin.ext ?_)
  match a with
  | ⟨0, _⟩ => show win2_4.index t (0 : Fin 2) * 1 + 1 * 0 = 0; omega
  | ⟨1, _⟩ => show win2_4.index t (1 : Fin 2) * 128 + 1 * q.val = q.val; omega

/-- What point `t` writes back is block `t` of the normalised array: the body stores one whole-block payload, its
    matrix block is rows `5000·t …` of the matrix (the same rows the result's block covers), and each statistics block
    is the whole one-row array. -/
theorem flushed2_eq (c : Dev nD) (t : Fin cfg2.N) :
    (dat2 (F := Ideal) V c).flushed 5 t = ((cfg2.win 5).blk t).view.read (Elt Ideal)
      (Cert.Spec.bnArr (R := 25000) (V c main_v33) (V c main_v35) (V c main_v37) (V c main_v39) (V c main_v41)) := by
  show (cfg2.win 5).cut (grid2.coords t) ((dat2 V c).after 5 t) = _
  rw [after2_5]
  unfold out2_5
  rw [View.canon_unit_zero hz]
  simp only [View.ld_unit_zero (S := S5000x128) hz, View.ld_unit_zero (S := S1x128) hz]
  funext j
  refine pay2_point (R := 25000) (V c main_v33) (V c main_v35) (V c main_v37) (V c main_v39) (V c main_v41)
    (iblk2 V c 0 t) (iblk2 V c 1 t) (iblk2 V c 2 t) (iblk2 V c 3 t) (iblk2 V c 4 t)
    ((win2 5).xinj (grid2.coords t) j) (((cfg2.win 5).blk t).view.emb j) ?_
    (iblk2_0_at V c t j) (iblk2_1_at V c t) (iblk2_2_at V c t) (iblk2_3_at V c t) (iblk2_4_at V c t)
  have o1 := (idx_facts2 t).2.2.2.2.2.2.2.2.2.2.2
  show win2_5.index t (1 : Fin 2) * 128 + 1 * (j 1).val = (j 1).val
  omega

/-- An index of the result array is in point `t`'s block iff each coordinate is in the block's range on its axis. -/
theorem mem_blk2 (t : Fin cfg2.N) (i : S25000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v42).slice (win2_5.rect t)).set ↔ _
  rw [View.set_slice_whole, Rect.mem_set_unit]
  exact Iff.rfl

/-- Row `r` of the result is written back by the point `r / 5000`: the 5 blocks of 5000 rows tile the 25000 rows. -/
theorem cover2 (i : S25000x128.Idx) :
    ∃ t : Fin cfg2.N, (cfg2.win 5).flush t = true ∧ i ∈ ((cfg2.win 5).blk t).view.set := by
  have hi0 : (i 0).val < 25000 := (i 0).isLt
  have hi1 : (i 1).val < 128 := (i 1).isLt
  have ht : (i 0).val / 5000 < cfg2.N := by show (i 0).val / 5000 < 5; omega
  obtain ⟨-, -, -, -, -, -, -, -, -, -, o0, o1⟩ := idx_facts2 ⟨(i 0).val / 5000, ht⟩
  refine ⟨⟨(i 0).val / 5000, ht⟩, flush2_5 _, ?_⟩
  rw [mem_blk2]
  intro a
  match a with
  | ⟨0, _⟩ =>
    show win2_5.index ⟨(i 0).val / 5000, ht⟩ (0 : Fin 2) * 5000 ≤ (i 0).val ∧ (i 0).val < win2_5.index ⟨(i 0).val / 5000, ht⟩ (0 : Fin 2) * 5000 + 5000
    rw [o0]; show (i 0).val / 5000 * 5000 ≤ (i 0).val ∧ (i 0).val < (i 0).val / 5000 * 5000 + 5000; omega
  | ⟨1, _⟩ =>
    show win2_5.index ⟨(i 0).val / 5000, ht⟩ (1 : Fin 2) * 128 ≤ (i 1).val ∧ (i 1).val < win2_5.index ⟨(i 0).val / 5000, ht⟩ (1 : Fin 2) * 128 + 128
    rw [o1]; omega

/-- The result array after the region: every entry of the matrix normalised against the one row each of mean,
    variance, scale and shift, and clamped below at 0. -/
theorem value2 (c : Dev nD) : (dat2 (F := Ideal) V c).arrAt 5 cfg2.N
    = Cert.Spec.bnArr (V c main_v33) (V c main_v35) (V c main_v37) (V c main_v39) (V c main_v41) :=
  (dat2 (F := Ideal) V c).arrAt_eq_of_cover 5 _ (fun t _ => flushed2_eq V c t) cover2

/-! ## Region 4: blocks of 4000 rows of the [400000, 128] matrix, 100 grid points -/

/-- The body's value at an entry of the block: the entry of the matrix block less the mean's lane, times the
    reciprocal square root of the variance's lane plus ε, times the scale's lane, plus the shift's lane, clamped
    below at 0. The payload's operands come in the order variance, matrix, mean, scale, shift. -/
theorem pay4_apply (v0 : Vec Ideal S1x128 .f32) (v5 : Vec Ideal S4000x128 .f32) (v7 v13 v17 : Vec Ideal S1x128 .f32)
    (p : Fin 4000) (q : Fin 128) :
    k4_pay1 (F := Ideal) v0 v5 v7 v13 v17 (ix2 p q)
      = Cert.Spec.bnS (v5 (ix2 p q)) (v7 (ix2 0 q)) (v0 (ix2 0 q)) (v13 (ix2 0 q)) (v17 (ix2 0 q)) := by
  unfold k4_pay1 Cert.Spec.bnS Cert.Spec.eps
  simp only [maximumf_apply, addf_apply, mulf_apply, subf_apply, broadcast_apply, shapeCast_self, broadcastTo_1b_ab_apply]
  exact congrArg₂ max rfl Ideal.ofBits_zero_f32

/-- The same entry against the arrays the blocks are cut from: when the matrix block's entry at `y` is the matrix's
    entry at `i` (same lane), and each statistics block is its one-row array, the body's value at `y` is the
    normalised array's entry at `i`. -/
theorem pay4_point {R : Nat} (h : Cert.Spec.Arr2 R 128) (mu v g be : Cert.Spec.Arr2 1 128)
    (x0 : Vec Ideal S4000x128 .f32) (x1 x2 x3 x4 : Vec Ideal S1x128 .f32)
    (y : S4000x128.Idx) (i : (⟨2, ![R, 128]⟩ : Shape).Idx)
    (hi : (i 1).val = (y 1).val)
    (e0 : x0 y = h i)
    (e1 : ∀ q : Fin 128, x1 (ix2 0 q) = mu (ix2 0 q))
    (e2 : ∀ q : Fin 128, x2 (ix2 0 q) = v (ix2 0 q))
    (e3 : ∀ q : Fin 128, x3 (ix2 0 q) = g (ix2 0 q))
    (e4 : ∀ q : Fin 128, x4 (ix2 0 q) = be (ix2 0 q)) :
    k4_pay1 (F := Ideal) x2 x0 x1 x3 x4 y = Cert.Spec.bnArr h mu v g be i := by
  obtain ⟨p, q, rfl⟩ : ∃ (p : Fin 4000) (q : Fin 128), y = ix2 p q := ⟨y 0, y 1, eq_ix2 y⟩
  obtain ⟨r, q', rfl⟩ : ∃ (r : Fin R) (q' : Fin 128), i = ix2 r q' := ⟨i 0, i 1, eq_ix2 i⟩
  obtain rfl : q' = q := Fin.ext hi
  rw [pay4_apply, e0, e1, e2, e3, e4]
  rfl

/-- The printed index maps over the grid: the matrix and the result move one block of rows per point, the four
    statistics rows stay at block 0. -/
theorem idx_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- The matrix's block at point `t`, read where the result's block has its entry `j`, is the matrix's entry under the
    result's entry: both blocks sit at rows `4000·t …`. -/
theorem iblk4_0_at (c : Dev nD) (t : Fin cfg4.N) (j : ((win4 5).xblock (grid4.coords t)).Idx) :
    iblk4 (F := Ideal) V c 0 t ((win4 5).xinj (grid4.coords t) j) = V c main_v79 (((cfg4.win 5).blk t).view.emb j) := by
  obtain ⟨a0, a1, -, -, -, -, -, -, -, -, o0, o1⟩ := idx_facts4 t
  show V c main_v79 (((cfg4.win 0).blk t).view.emb ((win4 5).xinj (grid4.coords t) j)) = V c main_v79 (((cfg4.win 5).blk t).view.emb j)
  refine congrArg (V c main_v79) (funext fun a => Fin.ext ?_)
  match a with
  | ⟨0, _⟩ => show win4_0.index t (0 : Fin 2) * 4000 + 1 * (j 0).val = win4_5.index t (0 : Fin 2) * 4000 + 1 * (j 0).val; omega
  | ⟨1, _⟩ => show win4_0.index t (1 : Fin 2) * 128 + 1 * (j 1).val = win4_5.index t (1 : Fin 2) * 128 + 1 * (j 1).val; omega

/-- The mean's block at any point is its whole one-row array. -/
theorem iblk4_1_at (c : Dev nD) (t : Fin cfg4.N) (q : Fin 128) :
    iblk4 (F := Ideal) V c 1 t (ix2 (0 : Fin 1) q) = V c main_v81 (ix2 (0 : Fin 1) q) := by
  obtain ⟨-, -, b0, b1, c0, c1, d0, d1, f0, f1, -, -⟩ := idx_facts4 t
  show V c main_v81 (((cfg4.win 1).blk t).view.emb (ix2 (0 : Fin 1) q)) = V c main_v81 (ix2 (0 : Fin 1) q)
  refine congrArg (V c main_v81) (funext fun a => Fin.ext ?_)
  match a with
  | ⟨0, _⟩ => show win4_1.index t (0 : Fin 2) * 1 + 1 * 0 = 0; omega
  | ⟨1, _⟩ => show win4_1.index t (1 : Fin 2) * 128 + 1 * q.val = q.val; omega

/-- The variance's block at any point is its whole one-row array. -/
theorem iblk4_2_at (c : Dev nD) (t : Fin cfg4.N) (q : Fin 128) :
    iblk4 (F := Ideal) V c 2 t (ix2 (0 : Fin 1) q) = V c main_v83 (ix2 (0 : Fin 1) q) := by
  obtain ⟨-, -, b0, b1, c0, c1, d0, d1, f0, f1, -, -⟩ := idx_facts4 t
  show V c main_v83 (((cfg4.win 2).blk t).view.emb (ix2 (0 : Fin 1) q)) = V c main_v83 (ix2 (0 : Fin 1) q)
  refine congrArg (V c main_v83) (funext fun a => Fin.ext ?_)
  match a with
  | ⟨0, _⟩ => show win4_2.index t (0 : Fin 2) * 1 + 1 * 0 = 0; omega
  | ⟨1, _⟩ => show win4_2.index t (1 : Fin 2) * 128 + 1 * q.val = q.val; omega

/-- The scale's block at any point is its whole one-row array. -/
theorem iblk4_3_at (c : Dev nD) (t : Fin cfg4.N) (q : Fin 128) :
    iblk4 (F := Ideal) V c 3 t (ix2 (0 : Fin 1) q) = V c main_v85 (ix2 (0 : Fin 1) q) := by
  obtain ⟨-, -, b0, b1, c0, c1, d0, d1, f0, f1, -, -⟩ := idx_facts4 t
  show V c main_v85 (((cfg4.win 3).blk t).view.emb (ix2 (0 : Fin 1) q)) = V c main_v85 (ix2 (0 : Fin 1) q)
  refine congrArg (V c main_v85) (funext fun a => Fin.ext ?_)
  match a with
  | ⟨0, _⟩ => show win4_3.index t (0 : Fin 2) * 1 + 1 * 0 = 0; omega
  | ⟨1, _⟩ => show win4_3.index t (1 : Fin 2) * 128 + 1 * q.val = q.val; omega

/-- The shift's block at any point is its whole one-row array. -/
theorem iblk4_4_at (c : Dev nD) (t : Fin cfg4.N) (q : Fin 128) :
    iblk4 (F := Ideal) V c 4 t (ix2 (0 : Fin 1) q) = V c main_v87 (ix2 (0 : Fin 1) q) := by
  obtain ⟨-, -, b0, b1, c0, c1, d0, d1, f0, f1, -, -⟩ := idx_facts4 t
  show V c main_v87 (((cfg4.win 4).blk t).view.emb (ix2 (0 : Fin 1) q)) = V c main_v87 (ix2 (0 : Fin 1) q)
  refine congrArg (V c main_v87) (funext fun a => Fin.ext ?_)
  match a with
  | ⟨0, _⟩ => show win4_4.index t (0 : Fin 2) * 1 + 1 * 0 = 0; omega
  | ⟨1, _⟩ => show win4_4.index t (1 : Fin 2) * 128 + 1 * q.val = q.val; omega

/-- What point `t` writes back is block `t` of the normalised array: the body stores one whole-block payload, its
    matrix block is rows `4000·t …` of the matrix (the same rows the result's block covers), and each statistics block
    is the whole one-row array. -/
theorem flushed4_eq (c : Dev nD) (t : Fin cfg4.N) :
    (dat4 (F := Ideal) V c).flushed 5 t = ((cfg4.win 5).blk t).view.read (Elt Ideal)
      (Cert.Spec.bnArr (R := 400000) (V c main_v79) (V c main_v81) (V c main_v83) (V c main_v85) (V c main_v87)) := by
  show (cfg4.win 5).cut (grid4.coords t) ((dat4 V c).after 5 t) = _
  rw [after4_5]
  unfold out4_5
  rw [View.canon_unit_zero hz]
  simp only [View.ld_unit_zero (S := S4000x128) hz, View.ld_unit_zero (S := S1x128) hz]
  funext j
  refine pay4_point (R := 400000) (V c main_v79) (V c main_v81) (V c main_v83) (V c main_v85) (V c main_v87)
    (iblk4 V c 0 t) (iblk4 V c 1 t) (iblk4 V c 2 t) (iblk4 V c 3 t) (iblk4 V c 4 t)
    ((win4 5).xinj (grid4.coords t) j) (((cfg4.win 5).blk t).view.emb j) ?_
    (iblk4_0_at V c t j) (iblk4_1_at V c t) (iblk4_2_at V c t) (iblk4_3_at V c t) (iblk4_4_at V c t)
  have o1 := (idx_facts4 t).2.2.2.2.2.2.2.2.2.2.2
  show win4_5.index t (1 : Fin 2) * 128 + 1 * (j 1).val = (j 1).val
  omega

/-- An index of the result array is in point `t`'s block iff each coordinate is in the block's range on its axis. -/
theorem mem_blk4 (t : Fin cfg4.N) (i : S400000x128.Idx) :
    i ∈ ((cfg4.win 5).blk t).view.set ↔ ∀ a : Fin 2, win4_5.index t a * S4000x128.size a ≤ (i a).val ∧ (i a).val < win4_5.index t a * S4000x128.size a + S4000x128.size a := by
  show i ∈ ((View.whole main_v88).slice (win4_5.rect t)).set ↔ _
  rw [View.set_slice_whole, Rect.mem_set_unit]
  exact Iff.rfl

/-- Row `r` of the result is written back by the point `r / 4000`: the 100 blocks of 4000 rows tile the 400000 rows. -/
theorem cover4 (i : S400000x128.Idx) :
    ∃ t : Fin cfg4.N, (cfg4.win 5).flush t = true ∧ i ∈ ((cfg4.win 5).blk t).view.set := by
  have hi0 : (i 0).val < 400000 := (i 0).isLt
  have hi1 : (i 1).val < 128 := (i 1).isLt
  have ht : (i 0).val / 4000 < cfg4.N := by show (i 0).val / 4000 < 100; omega
  obtain ⟨-, -, -, -, -, -, -, -, -, -, o0, o1⟩ := idx_facts4 ⟨(i 0).val / 4000, ht⟩
  refine ⟨⟨(i 0).val / 4000, ht⟩, flush4_5 _, ?_⟩
  rw [mem_blk4]
  intro a
  match a with
  | ⟨0, _⟩ =>
    show win4_5.index ⟨(i 0).val / 4000, ht⟩ (0 : Fin 2) * 4000 ≤ (i 0).val ∧ (i 0).val < win4_5.index ⟨(i 0).val / 4000, ht⟩ (0 : Fin 2) * 4000 + 4000
    rw [o0]; show (i 0).val / 4000 * 4000 ≤ (i 0).val ∧ (i 0).val < (i 0).val / 4000 * 4000 + 4000; omega
  | ⟨1, _⟩ =>
    show win4_5.index ⟨(i 0).val / 4000, ht⟩ (1 : Fin 2) * 128 ≤ (i 1).val ∧ (i 1).val < win4_5.index ⟨(i 0).val / 4000, ht⟩ (1 : Fin 2) * 128 + 128
    rw [o1]; omega

/-- The result array after the region: every entry of the matrix normalised against the one row each of mean,
    variance, scale and shift, and clamped below at 0. -/
theorem value4 (c : Dev nD) : (dat4 (F := Ideal) V c).arrAt 5 cfg4.N
    = Cert.Spec.bnArr (V c main_v79) (V c main_v81) (V c main_v83) (V c main_v85) (V c main_v87) :=
  (dat4 (F := Ideal) V c).arrAt_eq_of_cover 5 _ (fun t _ => flushed4_eq V c t) cover4

end Cert.KernelIdeal.Stage24

end
-- ==== Proof.Region3.lean ====
/-
  The edge network's region of the idealized kernel, read at the extended reals and at arbitrary contents of the
  buffers on entry. The grid has 200 points. At point t the body reads rows 4000·t … 4000·t + 3999 of the gathered
  source rows, the gathered target rows and the edge features, and the whole of three 64×64 weights, a 64×64 second
  and third weight and their three 1×64 biases. It writes the same rows of the [800000, 64] output,
      out[e, j] = Σ_k relu (Σ_q relu (((xs[e,·]·wa[·,q] + xd[e,·]·wb[·,q]) + ef[e,·]·wc[·,q]) + b1[q]) · w2[q,k] + b2[k]) · w3[k,j] + b3[j],
  and slab t of the [200, 2, 64] statistics: row 0 the column sums of those 4000 rows of out, row 1 the column sums
  of their squares. Every block product accumulates into zero, so at an index it is a plain sum over the contraction
  coordinate; narrowing a value is the identity on the extended reals; the zero pattern is 0. The blocks tile both
  outputs (row r is in block r / 4000, slab b in block b), so after the run each output array is the specification's
  array of the same name.
-/
import proofs.«158963_j17583596109847_2_alg».proof.Proof.Gen.KernelIdeal.Frame
import proofs.«158963_j17583596109847_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Stage3

open Idealize.ShloMosaic Idealize.ShloMosaic.TcCoe Idealize.ShloMosaic.ValueIdx Idealize.SL.Sem Cert.KernelIdeal Cert.KernelIdeal.Gen
open scoped BigOperators

/-! ## The block's matrix product at an index

A 4000×64 block times a 64×64 matrix contracts the block's column axis with the matrix's row axis:
the operand indices of output (p, q) at contraction coordinate k are (p, k) and (k, q). -/

theorem lhs_0 (i : S4000x64.Idx) (q : dot_S4000x64_S64x64_S4000x64_1_0_0_1_n_n.contr.Idx) :
    (dot_S4000x64_S64x64_S4000x64_1_0_0_1_n_n.lhsIdx i q 0).val = (i 0).val := by
  unfold DotDims.lhsIdx
  rw [dif_neg (show ¬(0 : Fin S4000x64.rank) ∈ dot_S4000x64_S64x64_S4000x64_1_0_0_1_n_n.lhsBatch by decide), dif_pos (show (0 : Fin S4000x64.rank) ∈ dot_S4000x64_S64x64_S4000x64_1_0_0_1_n_n.lhsNonContracting by decide)]
  rfl
theorem lhs_1 (i : S4000x64.Idx) (q : dot_S4000x64_S64x64_S4000x64_1_0_0_1_n_n.contr.Idx) :
    (dot_S4000x64_S64x64_S4000x64_1_0_0_1_n_n.lhsIdx i q 1).val = (q ⟨0, by decide⟩).val :=
  dot_S4000x64_S64x64_S4000x64_1_0_0_1_n_n.lhsIdx_val_of_single rfl i q
theorem rhs_0 (i : S4000x64.Idx) (q : dot_S4000x64_S64x64_S4000x64_1_0_0_1_n_n.contr.Idx) :
    (dot_S4000x64_S64x64_S4000x64_1_0_0_1_n_n.rhsIdx i q 0).val = (q ⟨0, by decide⟩).val :=
  dot_S4000x64_S64x64_S4000x64_1_0_0_1_n_n.rhsIdx_val_of_single rfl i q
theorem rhs_1 (i : S4000x64.Idx) (q : dot_S4000x64_S64x64_S4000x64_1_0_0_1_n_n.contr.Idx) :
    (dot_S4000x64_S64x64_S4000x64_1_0_0_1_n_n.rhsIdx i q 1).val = (i 1).val := by
  unfold DotDims.rhsIdx
  rw [dif_neg (show ¬(1 : Fin S64x64.rank) ∈ dot_S4000x64_S64x64_S4000x64_1_0_0_1_n_n.rhsBatch by decide), dif_pos (show (1 : Fin S64x64.rank) ∈ dot_S4000x64_S64x64_S4000x64_1_0_0_1_n_n.rhsNonContracting by decide)]
  rfl

/-- Into the zero accumulator: at (p, q) the sum over k of the block's (p, k) times the matrix's (k, q). -/
theorem mm_apply {φ₁ φ₂ : FTy} (x : FVec Ideal S4000x64 φ₁) (w : FVec Ideal S64x64 φ₂) (p : Fin 4000) (q : Fin 64) :
    matmul dot_S4000x64_S64x64_S4000x64_1_0_0_1_n_n none x w (constant (F := Ideal) S4000x64 .f32 0x00000000#32) (ix2 p q)
      = ∑ k : Fin 64, x (ix2 p k) * w (ix2 k q) := by
  refine (Ideal.matmul_constant_zero_apply dot_S4000x64_S64x64_S4000x64_1_0_0_1_n_n none x w (ix2 p q)).trans ?_
  rw [← Equiv.sum_comp (ValueIdx.contrEquiv1 dot_S4000x64_S64x64_S4000x64_1_0_0_1_n_n 64 rfl rfl).symm]
  refine Finset.sum_congr rfl fun k _ => ?_
  have hk := ValueIdx.contrEquiv1_symm_val dot_S4000x64_S64x64_S4000x64_1_0_0_1_n_n 64 rfl rfl k
  have el : dot_S4000x64_S64x64_S4000x64_1_0_0_1_n_n.lhsIdx (ix2 p q) ((ValueIdx.contrEquiv1 dot_S4000x64_S64x64_S4000x64_1_0_0_1_n_n 64 rfl rfl).symm k) = ix2 p k := funext fun a => Fin.ext (by
    match a with
    | ⟨0, _⟩ => exact lhs_0 _ _
    | ⟨1, _⟩ => exact (lhs_1 _ _).trans hk)
  have er : dot_S4000x64_S64x64_S4000x64_1_0_0_1_n_n.rhsIdx (ix2 p q) ((ValueIdx.contrEquiv1 dot_S4000x64_S64x64_S4000x64_1_0_0_1_n_n 64 rfl rfl).symm k) = ix2 k q := funext fun a => Fin.ext (by
    match a with
    | ⟨0, _⟩ => exact (rhs_0 _ _).trans hk
    | ⟨1, _⟩ => exact rhs_1 _ _)
  rw [el, er]

/-! ## The body's arithmetic at an index of the block -/

/-- The f32 zero pattern is the extended real zero. -/
theorem zero_word : (FloatOps.ofBits (F := Ideal) .f32 0x00000000#32 : EReal) = 0 := Ideal.ofBits_zero_f32

/-- The first layer (three products added in the order source, target, features; bias; relu) through the second
    layer's product and bias, at (p, q) of the block. -/
theorem pay3_apply (v0 v3 v6 : Vec Ideal S4000x64 .f32) (v8 v11 v14 : Vec Ideal S64x64 .f32) (v22 : Vec Ideal S1x64 .f32)
    (v29 : Vec Ideal S64x64 .f32) (v32 : Vec Ideal S1x64 .f32) (p : Fin 4000) (q : Fin 64) :
    k3_pay3 v0 v3 v6 v8 v11 v14 v22 v29 v32 (ix2 p q)
      = (∑ k : Fin 64, max ((((∑ r : Fin 64, v0 (ix2 p r) * v8 (ix2 r k)) + ∑ r : Fin 64, v3 (ix2 p r) * v11 (ix2 r k))
            + ∑ r : Fin 64, v6 (ix2 p r) * v14 (ix2 r k)) + v22 (ix2 0 k)) 0 * v29 (ix2 k q)) + v32 (ix2 0 q) := by
  unfold k3_pay3
  simp only [shapeCast_self, addf_apply, mm_apply, maximumf_apply, truncf_apply, broadcast_apply, broadcastTo_1b_ab_apply, zero_word]

/-- The relu of the second layer, the third layer's product and bias, at (p, q) of the block. -/
theorem pay1_apply (v35 : FVec Ideal S4000x64 .f32) (v39 : Vec Ideal S64x64 .f32) (v42 : Vec Ideal S1x64 .f32) (p : Fin 4000) (q : Fin 64) :
    k3_pay1 v35 v39 v42 (ix2 p q) = (∑ k : Fin 64, max (v35 (ix2 p k)) 0 * v39 (ix2 k q)) + v42 (ix2 0 q) := by
  unfold k3_pay1
  simp only [shapeCast_self, addf_apply, mm_apply, maximumf_apply, truncf_apply, broadcast_apply, broadcastTo_1b_ab_apply, zero_word]

/-! ## The statistics payload at an index -/

/-- The lane reduction over the block's 4000 rows, at column q, is the sum over the rows. -/
theorem colsum_apply (src : FVec Ideal S4000x64 .f32) (q : Fin 64) :
    multiReduction .add [0] S64 src 0x00000000#32 reduces_S4000x64_S64 (.inl rfl) rfl (ix1 q) = ∑ p : Fin 4000, src (ix2 p q) := by
  refine (Ideal.multiReduction_add_single src 0x00000000#32 reduces_S4000x64_S64 (.inl rfl) rfl (ix1 q)).trans ?_
  show ∑ p : Fin 4000, src (reduces_S4000x64_S64.lift (ix1 q) p) = ∑ p : Fin 4000, src (ix2 p q)
  refine Finset.sum_congr rfl fun p _ => congrArg src ?_
  funext a
  apply Fin.ext
  match a with
  | ⟨0, _⟩ => rfl
  | ⟨1, _⟩ => rfl

/-- Row 0 of the statistics block is the column sums of the block's output, row 1 the column sums of its squares. -/
theorem pay2_apply (v35 : FVec Ideal S4000x64 .f32) (v39 : Vec Ideal S64x64 .f32) (v42 : Vec Ideal S1x64 .f32)
    (u : Fin 1) (s : Fin 2) (q : Fin 64) :
    k3_pay2 v35 v39 v42 (ix3 u s q)
      = if s.val = 0 then ∑ p : Fin 4000, k3_pay1 v35 v39 v42 (ix2 p q)
        else ∑ p : Fin 4000, k3_pay1 v35 v39 v42 (ix2 p q) * k3_pay1 v35 v39 v42 (ix2 p q) := by
  unfold k3_pay2
  refine (shapeCast_ab_1ab_apply _ _ u s q).trans ?_
  match s with
  | ⟨0, _⟩ =>
    rw [if_pos rfl]
    refine (concatenate_pair_apply_left (t := S2x64) (s₁ := S1x64) (s₂ := S1x64) 0 _ _ _ (ix2 (⟨0, by decide⟩ : Fin 2) q) rfl (ix2 (0 : Fin 1) q)
      (fun b => by match b with | ⟨0, _⟩ => rfl | ⟨1, _⟩ => rfl)).trans ?_
    refine (shapeCast_a_1a_apply _ _ 0 q).trans ?_
    exact colsum_apply _ q
  | ⟨1, _⟩ =>
    rw [if_neg (by simp)]
    refine (concatenate_pair_apply_right (t := S2x64) (s₁ := S1x64) (s₂ := S1x64) 0 _ _ _ (ix2 (⟨1, by decide⟩ : Fin 2) q) rfl rfl (ix2 (0 : Fin 1) q)
      (fun b hb => by match b with | ⟨0, _⟩ => exact absurd rfl hb | ⟨1, _⟩ => rfl) rfl).trans ?_
    refine (shapeCast_a_1a_apply _ _ 0 q).trans ?_
    refine (colsum_apply _ q).trans ?_
    rfl

/-! ## The windows' blocks, read off their arrays

The grid has 200 points; at point t the three row windows and the first output hold rows 4000·t … 4000·t + 3999 of
their [800000, 64] arrays, the statistics window holds slab t of [200, 2, 64], and every other window holds its
whole array. A block's coordinate in its array is the block index times the block size plus the coordinate inside
the block. -/

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided once over the grid. -/
theorem idx_facts : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = t.val ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = 0 ∧ win3_5.index t (1 : Fin 2) = 0)
    ∧ (win3_6.index t (0 : Fin 2) = 0 ∧ win3_6.index t (1 : Fin 2) = 0)
    ∧ (win3_7.index t (0 : Fin 2) = 0 ∧ win3_7.index t (1 : Fin 2) = 0)
    ∧ (win3_8.index t (0 : Fin 2) = 0 ∧ win3_8.index t (1 : Fin 2) = 0)
    ∧ (win3_9.index t (0 : Fin 2) = 0 ∧ win3_9.index t (1 : Fin 2) = 0)
    ∧ (win3_10.index t (0 : Fin 2) = 0 ∧ win3_10.index t (1 : Fin 2) = 0)
    ∧ (win3_11.index t (0 : Fin 2) = t.val ∧ win3_11.index t (1 : Fin 2) = 0)
    ∧ (win3_12.index t (0 : Fin 3) = t.val ∧ win3_12.index t (1 : Fin 3) = 0 ∧ win3_12.index t (2 : Fin 3) = 0) :=
  (by decide +kernel : ∀ t : Fin grid3.N, _)

/-- Source rows: entry (p, r) of point t's block is entry (4000·t + p, r) of the array. -/
theorem iblk3_0_apply (c : Dev nD) (t : Fin cfg3.N) (p : Fin 4000) (r : Fin 64) (e : Fin 800000) (he : e.val = 4000 * t.val + p.val) :
    (iblk3 (F := Ideal) V c 0 t : Vec Ideal S4000x64 .f32) (ix2 p r) = (V c main_v50 : S800000x64.Idx → EReal) (ix2 e r) := by
  obtain ⟨e0, e1⟩ := (idx_facts t).1
  unfold iblk3
  rw [View.read_apply]
  show V c main_v50 _ = V c main_v50 _
  congr 1
  funext a
  apply Fin.ext
  match a with
  | ⟨0, _⟩ => show win3_0.index t 0 * 4000 + 1 * p.val = e.val; rw [e0, he]; omega
  | ⟨1, _⟩ => show win3_0.index t 1 * 64 + 1 * r.val = r.val; rw [e1]; omega
/-- Target rows likewise. -/
theorem iblk3_1_apply (c : Dev nD) (t : Fin cfg3.N) (p : Fin 4000) (r : Fin 64) (e : Fin 800000) (he : e.val = 4000 * t.val + p.val) :
    (iblk3 (F := Ideal) V c 1 t : Vec Ideal S4000x64 .f32) (ix2 p r) = (V c main_v57 : S800000x64.Idx → EReal) (ix2 e r) := by
  obtain ⟨e0, e1⟩ := (idx_facts t).2.1
  unfold iblk3
  rw [View.read_apply]
  show V c main_v57 _ = V c main_v57 _
  congr 1
  funext a
  apply Fin.ext
  match a with
  | ⟨0, _⟩ => show win3_1.index t 0 * 4000 + 1 * p.val = e.val; rw [e0, he]; omega
  | ⟨1, _⟩ => show win3_1.index t 1 * 64 + 1 * r.val = r.val; rw [e1]; omega
/-- Edge features likewise. -/
theorem iblk3_2_apply (c : Dev nD) (t : Fin cfg3.N) (p : Fin 4000) (r : Fin 64) (e : Fin 800000) (he : e.val = 4000 * t.val + p.val) :
    (iblk3 (F := Ideal) V c 2 t : Vec Ideal S4000x64 .f32) (ix2 p r) = (V c main_arg2 : S800000x64.Idx → EReal) (ix2 e r) := by
  obtain ⟨e0, e1⟩ := (idx_facts t).2.2.1
  unfold iblk3
  rw [View.read_apply]
  show V c main_arg2 _ = V c main_arg2 _
  congr 1
  funext a
  apply Fin.ext
  match a with
  | ⟨0, _⟩ => show win3_2.index t 0 * 4000 + 1 * p.val = e.val; rw [e0, he]; omega
  | ⟨1, _⟩ => show win3_2.index t 1 * 64 + 1 * r.val = r.val; rw [e1]; omega
/-- The weights and biases are whole-array windows: at every point the block is the array. -/
theorem iblk3_3_eq (c : Dev nD) (t : Fin cfg3.N) :
    (iblk3 (F := Ideal) V c 3 t : Vec Ideal S64x64 .f32) = (V c main_v58 : S64x64.Idx → EReal) := by
  obtain ⟨e0, e1⟩ := (idx_facts t).2.2.2.1
  funext j
  unfold iblk3
  rw [View.read_apply]
  show V c main_v58 _ = V c main_v58 _
  congr 1
  funext a
  apply Fin.ext
  match a with
  | ⟨0, _⟩ => show win3_3.index t 0 * 64 + 1 * (j 0).val = (j 0).val; rw [e0]; omega
  | ⟨1, _⟩ => show win3_3.index t 1 * 64 + 1 * (j 1).val = (j 1).val; rw [e1]; omega

theorem iblk3_4_eq (c : Dev nD) (t : Fin cfg3.N) :
    (iblk3 (F := Ideal) V c 4 t : Vec Ideal S64x64 .f32) = (V c main_v59 : S64x64.Idx → EReal) := by
  obtain ⟨e0, e1⟩ := (idx_facts t).2.2.2.2.1
  funext j
  unfold iblk3
  rw [View.read_apply]
  show V c main_v59 _ = V c main_v59 _
  congr 1
  funext a
  apply Fin.ext
  match a with
  | ⟨0, _⟩ => show win3_4.index t 0 * 64 + 1 * (j 0).val = (j 0).val; rw [e0]; omega
  | ⟨1, _⟩ => show win3_4.index t 1 * 64 + 1 * (j 1).val = (j 1).val; rw [e1]; omega

theorem iblk3_5_eq (c : Dev nD) (t : Fin cfg3.N) :
    (iblk3 (F := Ideal) V c 5 t : Vec Ideal S64x64 .f32) = (V c main_v60 : S64x64.Idx → EReal) := by
  obtain ⟨e0, e1⟩ := (idx_facts t).2.2.2.2.2.1
  funext j
  unfold iblk3
  rw [View.read_apply]
  show V c main_v60 _ = V c main_v60 _
  congr 1
  funext a
  apply Fin.ext
  match a with
  | ⟨0, _⟩ => show win3_5.index t 0 * 64 + 1 * (j 0).val = (j 0).val; rw [e0]; omega
  | ⟨1, _⟩ => show win3_5.index t 1 * 64 + 1 * (j 1).val = (j 1).val; rw [e1]; omega

theorem iblk3_6_eq (c : Dev nD) (t : Fin cfg3.N) :
    (iblk3 (F := Ideal) V c 6 t : Vec Ideal S1x64 .f32) = (V c main_v61 : S1x64.Idx → EReal) := by
  obtain ⟨e0, e1⟩ := (idx_facts t).2.2.2.2.2.2.1
  funext j
  unfold iblk3
  rw [View.read_apply]
  show V c main_v61 _ = V c main_v61 _
  congr 1
  funext a
  apply Fin.ext
  match a with
  | ⟨0, _⟩ => show win3_6.index t 0 * 1 + 1 * (j 0).val = (j 0).val; rw [e0]; omega
  | ⟨1, _⟩ => show win3_6.index t 1 * 64 + 1 * (j 1).val = (j 1).val; rw [e1]; omega

theorem iblk3_7_eq (c : Dev nD) (t : Fin cfg3.N) :
    (iblk3 (F := Ideal) V c 7 t : Vec Ideal S64x64 .f32) = (V c main_arg13 : S64x64.Idx → EReal) := by
  obtain ⟨e0, e1⟩ := (idx_facts t).2.2.2.2.2.2.2.1
  funext j
  unfold iblk3
  rw [View.read_apply]
  show V c main_arg13 _ = V c main_arg13 _
  congr 1
  funext a
  apply Fin.ext
  match a with
  | ⟨0, _⟩ => show win3_7.index t 0 * 64 + 1 * (j 0).val = (j 0).val; rw [e0]; omega
  | ⟨1, _⟩ => show win3_7.index t 1 * 64 + 1 * (j 1).val = (j 1).val; rw [e1]; omega

theorem iblk3_8_eq (c : Dev nD) (t : Fin cfg3.N) :
    (iblk3 (F := Ideal) V c 8 t : Vec Ideal S1x64 .f32) = (V c main_v62 : S1x64.Idx → EReal) := by
  obtain ⟨e0, e1⟩ := (idx_facts t).2.2.2.2.2.2.2.2.1
  funext j
  unfold iblk3
  rw [View.read_apply]
  show V c main_v62 _ = V c main_v62 _
  congr 1
  funext a
  apply Fin.ext
  match a with
  | ⟨0, _⟩ => show win3_8.index t 0 * 1 + 1 * (j 0).val = (j 0).val; rw [e0]; omega
  | ⟨1, _⟩ => show win3_8.index t 1 * 64 + 1 * (j 1).val = (j 1).val; rw [e1]; omega

theorem iblk3_9_eq (c : Dev nD) (t : Fin cfg3.N) :
    (iblk3 (F := Ideal) V c 9 t : Vec Ideal S64x64 .f32) = (V c main_arg15 : S64x64.Idx → EReal) := by
  obtain ⟨e0, e1⟩ := (idx_facts t).2.2.2.2.2.2.2.2.2.1
  funext j
  unfold iblk3
  rw [View.read_apply]
  show V c main_arg15 _ = V c main_arg15 _
  congr 1
  funext a
  apply Fin.ext
  match a with
  | ⟨0, _⟩ => show win3_9.index t 0 * 64 + 1 * (j 0).val = (j 0).val; rw [e0]; omega
  | ⟨1, _⟩ => show win3_9.index t 1 * 64 + 1 * (j 1).val = (j 1).val; rw [e1]; omega

theorem iblk3_10_eq (c : Dev nD) (t : Fin cfg3.N) :
    (iblk3 (F := Ideal) V c 10 t : Vec Ideal S1x64 .f32) = (V c main_v63 : S1x64.Idx → EReal) := by
  obtain ⟨e0, e1⟩ := (idx_facts t).2.2.2.2.2.2.2.2.2.2.1
  funext j
  unfold iblk3
  rw [View.read_apply]
  show V c main_v63 _ = V c main_v63 _
  congr 1
  funext a
  apply Fin.ext
  match a with
  | ⟨0, _⟩ => show win3_10.index t 0 * 1 + 1 * (j 0).val = (j 0).val; rw [e0]; omega
  | ⟨1, _⟩ => show win3_10.index t 1 * 64 + 1 * (j 1).val = (j 1).val; rw [e1]; omega

/-! ## The block's value against the specification -/

/-- With the three row blocks read as rows 4000·b + p of their arrays, the body's output at (p, q) is the
    specification's entry at (4000·b + p, q): the same sums in the same order. -/
theorem block_pre (XS XD EF : Spec.Arr2 800000 64) (WA WB WC : Spec.Arr2 64 64) (B1 : Spec.Arr2 1 64)
    (W2 : Spec.Arr2 64 64) (B2 : Spec.Arr2 1 64) (W3 : Spec.Arr2 64 64) (B3 : Spec.Arr2 1 64)
    (x0 x1 x2 : Vec Ideal S4000x64 .f32) (b : Fin 200)
    (h0 : ∀ (p : Fin 4000) (r : Fin 64), x0 (ix2 p r) = XS (ix2 (Spec.edgeRow b p) r))
    (h1 : ∀ (p : Fin 4000) (r : Fin 64), x1 (ix2 p r) = XD (ix2 (Spec.edgeRow b p) r))
    (h2 : ∀ (p : Fin 4000) (r : Fin 64), x2 (ix2 p r) = EF (ix2 (Spec.edgeRow b p) r))
    (p : Fin 4000) (q : Fin 64) :
    k3_pay1 (k3_pay3 x0 x1 x2 WA WB WC B1 W2 B2) W3 B3 (ix2 p q)
      = Spec.epreAt XS XD EF WA WB WC B1 W2 B2 W3 B3 (Spec.edgeRow b p) q := by
  rw [pay1_apply]
  simp only [pay3_apply, h0, h1, h2]
  rfl

/-! ## What a point writes back, and the arrays after the run -/

/-- The grid point as the number of its row block. -/
def blockOf (t : Fin cfg3.N) : Fin 200 := ⟨t.val, Nat.lt_of_lt_of_eq t.isLt (show cfg3.N = 200 from N_3)⟩

/-- What the [800000, 64] output ends holding: the edge network's third layer, entry by entry. -/
abbrev pre (c : Dev nD) : S800000x64.Idx → EReal := Spec.epreArr (V c main_v50) (V c main_v57) (V c main_arg2) (V c main_v58) (V c main_v59) (V c main_v60) (V c main_v61) (V c main_arg13) (V c main_v62) (V c main_arg15) (V c main_v63)

/-- What the [200, 2, 64] output ends holding: per block of 4000 rows the column sums and the column sums of squares. -/
abbrev stat (c : Dev nD) : S200x2x64.Idx → EReal := Spec.edgeStatArr (V c main_v50) (V c main_v57) (V c main_arg2) (V c main_v58) (V c main_v59) (V c main_v60) (V c main_v61) (V c main_arg13) (V c main_v62) (V c main_arg15) (V c main_v63)

/-- The body's first output at (p, q) of point t's block, from the arrays. -/
theorem out11_at (c : Dev nD) (t : Fin cfg3.N) (p : Fin 4000) (q : Fin 64) :
    k3_pay1 (k3_pay3 (iblk3 (F := Ideal) V c 0 t) (iblk3 (F := Ideal) V c 1 t) (iblk3 (F := Ideal) V c 2 t) (V c main_v58) (V c main_v59) (V c main_v60) (V c main_v61) (V c main_arg13) (V c main_v62)) (V c main_arg15) (V c main_v63) (ix2 p q)
      = Spec.epreAt (V c main_v50) (V c main_v57) (V c main_arg2) (V c main_v58) (V c main_v59) (V c main_v60) (V c main_v61) (V c main_arg13) (V c main_v62) (V c main_arg15) (V c main_v63) (Spec.edgeRow (blockOf t) p) q :=
  block_pre (V c main_v50) (V c main_v57) (V c main_arg2) (V c main_v58) (V c main_v59) (V c main_v60) (V c main_v61) (V c main_arg13) (V c main_v62) (V c main_arg15) (V c main_v63)
    (iblk3 (F := Ideal) V c 0 t) (iblk3 (F := Ideal) V c 1 t) (iblk3 (F := Ideal) V c 2 t) (blockOf t)
    (fun p r => iblk3_0_apply V c t p r (Spec.edgeRow (blockOf t) p) rfl)
    (fun p r => iblk3_1_apply V c t p r (Spec.edgeRow (blockOf t) p) rfl)
    (fun p r => iblk3_2_apply V c t p r (Spec.edgeRow (blockOf t) p) rfl) p q

/-- Entry (p, q) of point t's block of the [800000, 64] output sits at (4000·t + p, q) of the array. -/
theorem emb11_eq (t : Fin cfg3.N) (p : Fin 4000) (q : Fin 64) :
    (((cfg3.win 11).blk t).view.emb (ix2 p q) : S800000x64.Idx) = ix2 (Spec.edgeRow (blockOf t) p) q := by
  obtain ⟨e0, e1⟩ := (idx_facts t).2.2.2.2.2.2.2.2.2.2.2.1
  funext a
  apply Fin.ext
  match a with
  | ⟨0, _⟩ => show win3_11.index t 0 * 4000 + 1 * p.val = 4000 * t.val + p.val; rw [e0]; omega
  | ⟨1, _⟩ => show win3_11.index t 1 * 64 + 1 * q.val = q.val; rw [e1]; omega

/-- WHAT POINT t WRITES BACK to the first output is block t of the specification's array. -/
theorem flushed11_eq (c : Dev nD) (t : Fin cfg3.N) :
    (dat3 (F := Ideal) V c).flushed 11 t = ((cfg3.win 11).blk t).view.read (Elt Ideal) (pre V c) := by
  show (cfg3.win 11).cut (grid3.coords t) ((dat3 (F := Ideal) V c).after 11 t) = _
  rw [after3_11]
  unfold out3_11
  rw [View.canon_unit_zero hz2]
  simp only [View.ld_unit_zero (S := S4000x64) hz2, View.ld_unit_zero (S := S64x64) hz2, View.ld_unit_zero (S := S1x64) hz2]
  rw [iblk3_3_eq V c t, iblk3_4_eq V c t, iblk3_5_eq V c t, iblk3_6_eq V c t, iblk3_7_eq V c t, iblk3_8_eq V c t, iblk3_9_eq V c t, iblk3_10_eq V c t]
  funext j
  obtain ⟨p, q, rfl⟩ : ∃ (p : Fin 4000) (q : Fin 64), j = ix2 p q := ⟨j 0, j 1, eq_ix2 j⟩
  rw [View.read_apply]
  refine (out11_at V c t p q).trans ?_
  show pre V c (ix2 (Spec.edgeRow (blockOf t) p) q) = pre V c _
  exact congrArg (pre V c) (emb11_eq t p q).symm

/-- An index of the [800000, 64] output is in point t's block iff each coordinate is in the block's range on its axis. -/
theorem mem_blk11 (t : Fin cfg3.N) (i : S800000x64.Idx) :
    i ∈ ((cfg3.win 11).blk t).view.set ↔ ∀ a : Fin 2, win3_11.index t a * S4000x64.size a ≤ (i a).val ∧ (i a).val < win3_11.index t a * S4000x64.size a + S4000x64.size a := by
  show i ∈ ((View.whole main_v64_0).slice (win3_11.rect t)).set ↔ _
  rw [View.set_slice_whole, Rect.mem_set_unit]
  exact Iff.rfl

/-- Row r of the output is covered by the point r / 4000. -/
theorem cover11 (i : S800000x64.Idx) : ∃ t : Fin cfg3.N, (cfg3.win 11).flush t = true ∧ i ∈ ((cfg3.win 11).blk t).view.set := by
  have hi0 : (i 0).val < 800000 := (i 0).isLt
  have hi1 : (i 1).val < 64 := (i 1).isLt
  have hN : cfg3.N = 200 := N_3
  obtain ⟨t, ht⟩ : ∃ t : Fin cfg3.N, t.val = (i 0).val / 4000 := ⟨⟨(i 0).val / 4000, by rw [hN]; omega⟩, rfl⟩
  obtain ⟨e0, e1⟩ := (idx_facts t).2.2.2.2.2.2.2.2.2.2.2.1
  refine ⟨t, flush3_11 t, ?_⟩
  rw [mem_blk11]
  intro a
  match a with
  | ⟨0, _⟩ => show win3_11.index t 0 * 4000 ≤ (i 0).val ∧ (i 0).val < win3_11.index t 0 * 4000 + 4000; rw [e0, ht]; omega
  | ⟨1, _⟩ => show win3_11.index t 1 * 64 ≤ (i 1).val ∧ (i 1).val < win3_11.index t 1 * 64 + 64; rw [e1]; omega

/-- THE FIRST OUTPUT after the run: the edge network's third layer of the arrays the region finds. -/
theorem value3_pre (c : Dev nD) : (dat3 (F := Ideal) V c).arrAt 11 cfg3.N
      = Cert.Spec.epreArr (V c main_v50) (V c main_v57) (V c main_arg2) (V c main_v58) (V c main_v59) (V c main_v60) (V c main_v61) (V c main_arg13) (V c main_v62) (V c main_arg15) (V c main_v63) :=
  (dat3 (F := Ideal) V c).arrAt_eq_of_cover 11 (pre V c) (fun t _ => flushed11_eq V c t) cover11

/-! ## The statistics output -/

/-- The statistics block of row block b: row 0 the column sums of the specification's entries over the block's
    rows, row 1 the column sums of their squares. -/
theorem block_stat (XS XD EF : Spec.Arr2 800000 64) (WA WB WC : Spec.Arr2 64 64) (B1 : Spec.Arr2 1 64)
    (W2 : Spec.Arr2 64 64) (B2 : Spec.Arr2 1 64) (W3 : Spec.Arr2 64 64) (B3 : Spec.Arr2 1 64)
    (x0 x1 x2 : Vec Ideal S4000x64 .f32) (b : Fin 200)
    (h0 : ∀ (p : Fin 4000) (r : Fin 64), x0 (ix2 p r) = XS (ix2 (Spec.edgeRow b p) r))
    (h1 : ∀ (p : Fin 4000) (r : Fin 64), x1 (ix2 p r) = XD (ix2 (Spec.edgeRow b p) r))
    (h2 : ∀ (p : Fin 4000) (r : Fin 64), x2 (ix2 p r) = EF (ix2 (Spec.edgeRow b p) r))
    (u : Fin 1) (s : Fin 2) (q : Fin 64) :
    k3_pay2 (k3_pay3 x0 x1 x2 WA WB WC B1 W2 B2) W3 B3 (ix3 u s q)
      = Spec.edgeStatArr XS XD EF WA WB WC B1 W2 B2 W3 B3 (ix3 b s q) := by
  rw [pay2_apply]
  simp only [block_pre XS XD EF WA WB WC B1 W2 B2 W3 B3 x0 x1 x2 b h0 h1 h2]
  rfl

/-- The body's second output at (u, s, q) of point t's block, from the arrays. -/
theorem out12_at (c : Dev nD) (t : Fin cfg3.N) (u : Fin 1) (s : Fin 2) (q : Fin 64) :
    k3_pay2 (k3_pay3 (iblk3 (F := Ideal) V c 0 t) (iblk3 (F := Ideal) V c 1 t) (iblk3 (F := Ideal) V c 2 t) (V c main_v58) (V c main_v59) (V c main_v60) (V c main_v61) (V c main_arg13) (V c main_v62)) (V c main_arg15) (V c main_v63) (ix3 u s q)
      = stat V c (ix3 (blockOf t) s q) :=
  block_stat (V c main_v50) (V c main_v57) (V c main_arg2) (V c main_v58) (V c main_v59) (V c main_v60) (V c main_v61) (V c main_arg13) (V c main_v62) (V c main_arg15) (V c main_v63)
    (iblk3 (F := Ideal) V c 0 t) (iblk3 (F := Ideal) V c 1 t) (iblk3 (F := Ideal) V c 2 t) (blockOf t)
    (fun p r => iblk3_0_apply V c t p r (Spec.edgeRow (blockOf t) p) rfl)
    (fun p r => iblk3_1_apply V c t p r (Spec.edgeRow (blockOf t) p) rfl)
    (fun p r => iblk3_2_apply V c t p r (Spec.edgeRow (blockOf t) p) rfl) u s q

/-- Entry (u, s, q) of point t's slab of the [200, 2, 64] output sits at (t, s, q) of the array. -/
theorem emb12_eq (t : Fin cfg3.N) (u : Fin 1) (s : Fin 2) (q : Fin 64) :
    (((cfg3.win 12).blk t).view.emb (ix3 u s q) : S200x2x64.Idx) = ix3 (blockOf t) s q := by
  obtain ⟨e0, e1, e2⟩ := (idx_facts t).2.2.2.2.2.2.2.2.2.2.2.2
  have hu : u.val < 1 := u.isLt
  have key : ∀ a : Fin 3, ((((cfg3.win 12).blk t).view.emb (ix3 u s q) : S200x2x64.Idx) a).val
      = ((ix3 (blockOf t) s q : S200x2x64.Idx) a).val := by
    intro a
    match a with
    | ⟨0, _⟩ => show win3_12.index t 0 * 1 + 1 * u.val = t.val; rw [e0]; omega
    | ⟨1, _⟩ => show win3_12.index t 1 * 2 + 1 * s.val = s.val; rw [e1]; omega
    | ⟨2, _⟩ => show win3_12.index t 2 * 64 + 1 * q.val = q.val; rw [e2]; omega
  exact funext fun a => Fin.ext (key a)

/-- WHAT POINT t WRITES BACK to the statistics output is slab t of the specification's array. -/
theorem flushed12_eq (c : Dev nD) (t : Fin cfg3.N) :
    (dat3 (F := Ideal) V c).flushed 12 t = ((cfg3.win 12).blk t).view.read (Elt Ideal) (stat V c) := by
  show (cfg3.win 12).cut (grid3.coords t) ((dat3 (F := Ideal) V c).after 12 t) = _
  rw [after3_12]
  unfold out3_12
  rw [View.canon_unit_zero hz3]
  simp only [View.ld_unit_zero (S := S4000x64) hz2, View.ld_unit_zero (S := S64x64) hz2, View.ld_unit_zero (S := S1x64) hz2]
  rw [iblk3_3_eq V c t, iblk3_4_eq V c t, iblk3_5_eq V c t, iblk3_6_eq V c t, iblk3_7_eq V c t, iblk3_8_eq V c t, iblk3_9_eq V c t, iblk3_10_eq V c t]
  funext j
  obtain ⟨u, s, q, rfl⟩ : ∃ (u : Fin 1) (s : Fin 2) (q : Fin 64), j = ix3 u s q := ⟨j 0, j 1, j 2, eq_ix3 j⟩
  rw [View.read_apply]
  refine (out12_at V c t u s q).trans ?_
  show stat V c (ix3 (blockOf t) s q) = stat V c _
  exact congrArg (stat V c) (emb12_eq t u s q).symm

/-- An index of the [200, 2, 64] output is in point t's slab iff each coordinate is in the slab's range on its axis. -/
theorem mem_blk12 (t : Fin cfg3.N) (i : S200x2x64.Idx) :
    i ∈ ((cfg3.win 12).blk t).view.set ↔ ∀ a : Fin 3, win3_12.index t a * S1x2x64.size a ≤ (i a).val ∧ (i a).val < win3_12.index t a * S1x2x64.size a + S1x2x64.size a := by
  show i ∈ ((View.whole main_v64_1).slice (win3_12.rect t)).set ↔ _
  rw [View.set_slice_whole, Rect.mem_set_unit]
  exact Iff.rfl

/-- Slab b of the statistics is covered by the point b. -/
theorem cover12 (i : S200x2x64.Idx) : ∃ t : Fin cfg3.N, (cfg3.win 12).flush t = true ∧ i ∈ ((cfg3.win 12).blk t).view.set := by
  have hi0 : (i 0).val < 200 := (i 0).isLt
  have hi1 : (i 1).val < 2 := (i 1).isLt
  have hi2 : (i 2).val < 64 := (i 2).isLt
  have hN : cfg3.N = 200 := N_3
  obtain ⟨t, ht⟩ : ∃ t : Fin cfg3.N, t.val = (i 0).val := ⟨⟨(i 0).val, by rw [hN]; omega⟩, rfl⟩
  obtain ⟨e0, e1, e2⟩ := (idx_facts t).2.2.2.2.2.2.2.2.2.2.2.2
  refine ⟨t, flush3_12 t, ?_⟩
  rw [mem_blk12]
  intro a
  match a with
  | ⟨0, _⟩ => show win3_12.index t 0 * 1 ≤ (i 0).val ∧ (i 0).val < win3_12.index t 0 * 1 + 1; rw [e0, ht]; omega
  | ⟨1, _⟩ => show win3_12.index t 1 * 2 ≤ (i 1).val ∧ (i 1).val < win3_12.index t 1 * 2 + 2; rw [e1]; omega
  | ⟨2, _⟩ => show win3_12.index t 2 * 64 ≤ (i 2).val ∧ (i 2).val < win3_12.index t 2 * 64 + 64; rw [e2]; omega

/-- THE STATISTICS OUTPUT after the run: per block of 4000 rows the column sums of the third layer and of its squares. -/
theorem value3_stat (c : Dev nD) : (dat3 (F := Ideal) V c).arrAt 12 cfg3.N
      = Cert.Spec.edgeStatArr (V c main_v50) (V c main_v57) (V c main_arg2) (V c main_v58) (V c main_v59) (V c main_v60) (V c main_v61) (V c main_arg13) (V c main_v62) (V c main_arg15) (V c main_v63) :=
  (dat3 (F := Ideal) V c).arrAt_eq_of_cover 12 (stat V c) (fun t _ => flushed12_eq V c t) cover12

end Cert.KernelIdeal.Stage3

end
-- ==== Proof.LibERealCoe.lean ====
/-
  Coercions between the reals and the extended reals, for a certificate whose inputs are all
  finite: every operation of the ideal instance, applied to (coercions of) real numbers, is the
  coercion of the corresponding real operation. Nothing here mentions a program or a size.
-/
import Idealize.ShloMosaic.PureOps.Ideal
import Idealize.ShloMosaic.PureOps.Ideal.Laws
import Mathlib.Data.EReal.Inv
import Mathlib.Data.Finset.Lattice.Fold
import Mathlib.Algebra.BigOperators.Group.Finset.Basic

namespace Cert.Lib.ERealCoe

open Idealize.ShloMosaic
open scoped BigOperators

universe u
variable {ι : Type u}

/-! ### Sums -/

/-- The coercion of a finite sum of reals is the sum of the coercions. -/
theorem coe_sum (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A finite sum of products of coerced reals is the coercion of the real sum of products. -/
theorem sum_mul_coe (s : Finset ι) (f g : ι → ℝ) :
    ∑ i ∈ s, ((f i : ℝ) : EReal) * ((g i : ℝ) : EReal) = ((∑ i ∈ s, f i * g i : ℝ) : EReal) := by
  rw [coe_sum]
  exact Finset.sum_congr rfl fun i _ => (EReal.coe_mul _ _).symm

/-! ### The pointwise operations -/

/-- The exponential of a real, at the ideal instance, is the real exponential. -/
theorem exp_coe (x : ℝ) : Ideal.exp ((x : ℝ) : EReal) = ((Real.exp x : ℝ) : EReal) := rfl

/-- The exponential of minus infinity, at the ideal instance, is zero. -/
theorem exp_bot : Ideal.exp (⊥ : EReal) = 0 := rfl

/-- The quotient of two reals with a nonzero divisor, at the ideal instance, is the real quotient. -/
theorem div_coe (a : ℝ) {b : ℝ} (hb : b ≠ 0) :
    Ideal.div ((a : ℝ) : EReal) ((b : ℝ) : EReal) = ((a / b : ℝ) : EReal) := by
  rw [Ideal.div_coe hb, ← EReal.coe_mul, mul_one_div]

/-- The difference of two reals is the same in the reals and in the extended reals. -/
theorem sub_coe (a b : ℝ) : ((a : ℝ) : EReal) - ((b : ℝ) : EReal) = ((a - b : ℝ) : EReal) :=
  (EReal.coe_sub a b).symm

/-- The sum of two reals is the same in the reals and in the extended reals. -/
theorem add_coe (a b : ℝ) : ((a : ℝ) : EReal) + ((b : ℝ) : EReal) = ((a + b : ℝ) : EReal) :=
  (EReal.coe_add a b).symm

/-- The product of two reals is the same in the reals and in the extended reals. -/
theorem mul_coe (a b : ℝ) : ((a : ℝ) : EReal) * ((b : ℝ) : EReal) = ((a * b : ℝ) : EReal) :=
  (EReal.coe_mul a b).symm

/-- The negation of a real is the same in the reals and in the extended reals. -/
theorem neg_coe (a : ℝ) : -((a : ℝ) : EReal) = ((-a : ℝ) : EReal) :=
  (EReal.coe_neg a).symm

/-- The coercion is monotone, so the maximum of two reals is the same in the reals and in the
    extended reals. -/
theorem max_coe (a b : ℝ) : max ((a : ℝ) : EReal) ((b : ℝ) : EReal) = ((max a b : ℝ) : EReal) :=
  (EReal.coe_strictMono.monotone.map_max).symm

/-- The minimum of two reals is the same in the reals and in the extended reals. -/
theorem min_coe (a b : ℝ) : min ((a : ℝ) : EReal) ((b : ℝ) : EReal) = ((min a b : ℝ) : EReal) :=
  (EReal.coe_strictMono.monotone.map_min).symm

/-- Minus infinity is neutral for the maximum, on the left. -/
theorem max_bot_left' (x : EReal) : max ⊥ x = x := max_bot_left x

/-- Minus infinity is neutral for the maximum, on the right. -/
theorem max_bot_right' (x : EReal) : max x ⊥ = x := max_bot_right x

/-! ### Maxima over a finite set -/

/-- The maximum over a nonempty finite set of coerced reals is the coercion of the real maximum:
    the coercion is monotone. -/
theorem sup'_coe (s : Finset ι) (hs : s.Nonempty) (F : ι → ℝ) :
    s.sup' hs (fun i => ((F i : ℝ) : EReal)) = ((s.sup' hs F : ℝ) : EReal) :=
  (Finset.comp_sup'_eq_sup'_comp hs (fun r : ℝ => (r : EReal))
    (fun a b => EReal.coe_strictMono.monotone.map_max)).symm

/-- Folding the maximum from minus infinity over a finite set is the supremum over it. -/
theorem fold_max_bot_eq_sup (s : Finset ι) (f : ι → EReal) :
    s.fold max ⊥ f = s.sup f := rfl

/-- Folding the maximum from minus infinity over a nonempty finite set is the maximum over it. -/
theorem fold_max_bot (s : Finset ι) (hs : s.Nonempty) (f : ι → EReal) :
    s.fold max ⊥ f = s.sup' hs f :=
  (Finset.sup'_eq_sup hs f).symm

/-- The same over all of Fin (n+1). -/
theorem fold_max_bot_univ {n : Nat} (f : Fin (n + 1) → EReal) :
    (Finset.univ : Finset (Fin (n + 1))).fold max ⊥ f = Finset.univ.sup' Finset.univ_nonempty f :=
  fold_max_bot _ _ f

/-- Folding the maximum from minus infinity over a nonempty finite set of coerced reals is the
    coercion of the real maximum. -/
theorem fold_max_bot_coe (s : Finset ι) (hs : s.Nonempty) (F : ι → ℝ) :
    s.fold max ⊥ (fun i => ((F i : ℝ) : EReal)) = ((s.sup' hs F : ℝ) : EReal) := by
  rw [fold_max_bot s hs, sup'_coe]

/-! ### Two f32 patterns -/

/-- The f32 pattern of minus infinity denotes the bottom of the extended reals. -/
theorem ofBits_neg_inf_f32 : Ideal.ofBits .f32 0xFF800000#32 = (⊥ : EReal) := by
  simp [Ideal.ofBits, Ideal.ieee]

/-- The f32 pattern of plus infinity denotes the top of the extended reals. -/
theorem ofBits_pos_inf_f32 : Ideal.ofBits .f32 0x7F800000#32 = (⊤ : EReal) := by
  simp [Ideal.ofBits, Ideal.ieee]

/-- The f32 pattern of zero denotes zero. -/
theorem ofBits_zero_f32 : Ideal.ofBits .f32 0x00000000#32 = (0 : EReal) :=
  Ideal.ofBits_zero_f32

/-! ### Families of finite entries -/

/-- Every entry of the family is (the coercion of) a real number. -/
def IsFin {ι : Type u} (f : ι → EReal) : Prop := ∀ i, ∃ r : ℝ, f i = (r : EReal)

/-- A family of finite entries is the coercion of a family of reals. -/
theorem IsFin.exists_real {f : ι → EReal} (h : IsFin f) :
    ∃ F : ι → ℝ, f = fun i => ((F i : ℝ) : EReal) :=
  ⟨fun i => Classical.choose (h i), funext fun i => Classical.choose_spec (h i)⟩

/-- The coercion of a family of reals has finite entries. -/
theorem isFin_coe (F : ι → ℝ) : IsFin (fun i => ((F i : ℝ) : EReal)) := fun i => ⟨F i, rfl⟩

/-- An extended real that is neither infinity is a real number. -/
theorem exists_real_of_ne {x : EReal} (hb : x ≠ ⊥) (ht : x ≠ ⊤) : ∃ r : ℝ, x = (r : EReal) :=
  ⟨x.toReal, (EReal.coe_toReal ht hb).symm⟩

/-- A finite sum of finite entries is finite. -/
theorem exists_real_sum (s : Finset ι) {f : ι → EReal} (hf : ∀ i ∈ s, ∃ r : ℝ, f i = (r : EReal)) :
    ∃ r : ℝ, ∑ i ∈ s, f i = (r : EReal) := by
  classical
  refine ⟨∑ i ∈ s, if h : i ∈ s then Classical.choose (hf i h) else 0, ?_⟩
  rw [coe_sum]
  refine Finset.sum_congr rfl fun i hi => ?_
  rw [dif_pos hi]
  exact Classical.choose_spec (hf i hi)

/-- A product of two finite entries is finite. -/
theorem exists_real_mul {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, mul_coe a b⟩

/-- A finite sum of products of finite entries is finite. -/
theorem exists_real_sum_mul (s : Finset ι) {f g : ι → EReal} (hf : IsFin f) (hg : IsFin g) :
    ∃ r : ℝ, ∑ i ∈ s, f i * g i = (r : EReal) :=
  exists_real_sum s fun i _ => exists_real_mul (hf i) (hg i)

end Cert.Lib.ERealCoe
-- ==== Proof.Algebra.lean ====
/-
  The algebra the certificate needs that mentions no program: sums over blocks of rows, a 192-term sum
  cut in three, the identity  E[x²] − E[x]² = E[(x − E[x])²]  on the reals and on the extended reals,
  the closure of the finite extended reals under the operations used, and three f32 constants.
-/
import proofs.«158963_j17583596109847_2_alg».proof.Proof.LibERealCoe
import proofs.«158963_j17583596109847_2_alg».proof.Proof.Spec
import Mathlib.Algebra.BigOperators.Fin
import Mathlib.Logic.Equiv.Fin.Basic
import Mathlib.Tactic.Ring
import Mathlib.Tactic.FieldSimp
import Mathlib.Tactic.Positivity
import Mathlib.Tactic.NormNum
import Mathlib.Tactic.Linarith

namespace Cert.Algebra

open Idealize.ShloMosaic
open Cert.Lib.ERealCoe
open scoped BigOperators

/-! ### Sums over blocks of rows -/

/-- A sum over `B·T` rows is the sum over `B` blocks of the sums over the `T` rows of each block,
    row `r` of block `b` being row `T·b + r`. -/
theorem sum_blocks {M : Type*} [AddCommMonoid M] {B T N : ℕ} (hN : B * T = N) (f : Fin N → M)
    (row : Fin B → Fin T → Fin N) (hrow : ∀ b r, (row b r).val = T * b.val + r.val) :
    ∑ b : Fin B, ∑ r : Fin T, f (row b r) = ∑ n : Fin N, f n := by
  subst hN
  have hr : ∀ b r, row b r = finProdFinEquiv (b, r) := fun b r =>
    Fin.ext (by rw [hrow, finProdFinEquiv_apply_val]; exact Nat.add_comm _ _)
  simp only [hr]
  rw [← Fintype.sum_prod_type (fun p : Fin B × Fin T => f (finProdFinEquiv p))]
  exact Fintype.sum_equiv finProdFinEquiv _ _ (fun _ => rfl)

/-- The 50000 node rows, summed ten blocks of 5000 at a time. -/
theorem sum_nodeRows {M : Type*} [AddCommMonoid M] (f : Fin 50000 → M) :
    ∑ b : Fin 10, ∑ r : Fin 5000, f (Cert.Spec.nodeRow b r) = ∑ n : Fin 50000, f n :=
  sum_blocks (by norm_num) f Cert.Spec.nodeRow (fun _ _ => rfl)

/-- The 800000 edge rows, summed two hundred blocks of 4000 at a time. -/
theorem sum_edgeRows {M : Type*} [AddCommMonoid M] (f : Fin 800000 → M) :
    ∑ b : Fin 200, ∑ r : Fin 4000, f (Cert.Spec.edgeRow b r) = ∑ e : Fin 800000, f e :=
  sum_blocks (by norm_num) f Cert.Spec.edgeRow (fun _ _ => rfl)

/-! ### A 192-term sum as three 64-term sums -/

theorem sum_192 {M : Type*} [AddCommMonoid M] (g : Fin 192 → M) :
    ∑ k : Fin 192, g k
      = ((∑ k : Fin 64, g ⟨k.val, by omega⟩) + ∑ k : Fin 64, g ⟨64 + k.val, by omega⟩)
          + ∑ k : Fin 64, g ⟨128 + k.val, by omega⟩ := by
  have h := Fin.sum_univ_add (M := M) (a := 64 + 64) (b := 64) (f := g)
  rw [Fin.sum_univ_add (a := 64) (b := 64)] at h
  refine h.trans ?_
  refine congrArg₂ (· + ·) (congrArg₂ (· + ·) ?_ ?_) ?_
  · exact Finset.sum_congr rfl fun k _ => congrArg g (Fin.ext rfl)
  · exact Finset.sum_congr rfl fun k _ => congrArg g (Fin.ext rfl)
  · exact Finset.sum_congr rfl fun k _ => congrArg g (Fin.ext rfl)

/-! ### The variance identity on the reals -/

/-- The mean of the squared deviations from the mean is the mean of the squares less the square of the
    mean. -/
theorem var_real_eq {ι : Type*} [Fintype ι] (x : ι → ℝ) (N : ℝ) (hN : N = (Fintype.card ι : ℝ))
    (h0 : N ≠ 0) :
    (∑ i, (x i - (∑ i, x i) / N) * (x i - (∑ i, x i) / N)) / N
      = (∑ i, x i * x i) / N - (∑ i, x i) / N * ((∑ i, x i) / N) := by
  generalize hS : ∑ i, x i = S
  have h1 : ∑ i, (x i - S / N) * (x i - S / N)
      = ∑ i, (x i * x i - 2 * (S / N) * x i + S / N * (S / N)) :=
    Finset.sum_congr rfl fun i _ => by ring
  rw [h1, Finset.sum_add_distrib, Finset.sum_sub_distrib, ← Finset.mul_sum, Finset.sum_const,
    Finset.card_univ, nsmul_eq_mul, ← hN, hS]
  field_simp
  ring

/-- The mean of the squared deviations is not negative. -/
theorem var_real_nonneg {ι : Type*} [Fintype ι] (x : ι → ℝ) (N : ℝ) (hN : N = (Fintype.card ι : ℝ)) :
    0 ≤ (∑ i, (x i - (∑ i, x i) / N) * (x i - (∑ i, x i) / N)) / N :=
  div_nonneg (Finset.sum_nonneg fun _ _ => mul_self_nonneg _) (hN ▸ Nat.cast_nonneg _)

/-- The variance, spelt as mean of squares less squared mean and clamped at zero, is the mean of the
    squared deviations: the clamp never acts. -/
theorem var_real {ι : Type*} [Fintype ι] (x : ι → ℝ) (N : ℝ) (hN : N = (Fintype.card ι : ℝ))
    (h0 : N ≠ 0) :
    max ((∑ i, x i * x i) / N - (∑ i, x i) / N * ((∑ i, x i) / N)) 0
      = (∑ i, (x i - (∑ i, x i) / N) * (x i - (∑ i, x i) / N)) / N := by
  rw [← var_real_eq x N hN h0]
  exact max_eq_left (var_real_nonneg x N hN)

/-! ### The finite extended reals are closed under the operations used -/

/-- A sum of two finite entries is finite. -/
theorem exists_real_add {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, add_coe a b⟩

/-- A difference of two finite entries is finite. -/
theorem exists_real_sub {x y : EReal} (hx : ∃ r : ℝ, x = (r : EReal)) (hy : ∃ r : ℝ, y = (r : EReal)) :
    ∃ r : ℝ, x - y = (r : EReal) := by
  obtain ⟨a, rfl⟩ := hx
  obtain ⟨b, rfl⟩ := hy
  exact ⟨a - b, sub_coe a b⟩

/-- A finite entry clamped below at zero is finite. -/
theorem exists_real_max_zero {x : EReal} (hx : ∃ r : ℝ, x = (r : EReal)) :
    ∃ r : ℝ, max x 0 = (r : EReal) := by
  obtain ⟨a, rfl⟩ := hx
  exact ⟨max a 0, by rw [← EReal.coe_zero, max_coe]⟩

/-- A finite entry divided by a nonzero real is finite. -/
theorem exists_real_div {x : EReal} (hx : ∃ r : ℝ, x = (r : EReal)) {N : ℝ} (hN : N ≠ 0) :
    ∃ r : ℝ, Ideal.div x (N : EReal) = (r : EReal) := by
  obtain ⟨a, rfl⟩ := hx
  exact ⟨a / N, div_coe a hN⟩

/-- At a positive real the reciprocal square root of the ideal instance is the real one. -/
theorem rsqrt_coe_pos {r : ℝ} (hr : 0 < r) :
    Ideal.rsqrt ((r : ℝ) : EReal) = (((Real.sqrt r)⁻¹ : ℝ) : EReal) := by
  rw [Ideal.rsqrt_coe, if_neg (not_lt.mpr hr.le), if_neg hr.ne']

/-- The reciprocal square root of a non-negative real plus a positive real is finite. -/
theorem exists_real_rsqrt {v e : ℝ} (hv : 0 ≤ v) (he : 0 < e) :
    ∃ r : ℝ, Ideal.rsqrt (((v : ℝ) : EReal) + ((e : ℝ) : EReal)) = (r : EReal) :=
  ⟨(Real.sqrt (v + e))⁻¹, by rw [add_coe, rsqrt_coe_pos (add_pos_of_nonneg_of_pos hv he)]⟩

/-! ### Three f32 constants -/

/-- The f32 pattern of `50000.0` denotes the real `50000`. -/
theorem ofBits_50000 : Ideal.ofBits .f32 0x47435000#32 = ((50000 : ℝ) : EReal) := by
  simp [Ideal.ofBits, Ideal.ieee, -EReal.coe_mul]; norm_num

/-- The f32 pattern of `800000.0` denotes the real `800000`. -/
theorem ofBits_800000 : Ideal.ofBits .f32 0x49435000#32 = ((800000 : ℝ) : EReal) := by
  simp [Ideal.ofBits, Ideal.ieee, -EReal.coe_mul]; norm_num

/-- The normalisation's ε denotes a positive real (`10995116 · 2⁻⁴⁰`, about `10⁻⁵`). -/
theorem eps_pos : ∃ e : ℝ, 0 < e ∧ Cert.Spec.eps = (e : EReal) := by
  refine ⟨10995116 * (2 : ℝ) ^ (-40 : Int), by positivity, ?_⟩
  unfold Cert.Spec.eps
  simp [Ideal.ofBits, Ideal.ieee, -EReal.coe_mul] <;> norm_num

/-! ### The variance identity on the extended reals -/

/-- The mean of a finite family of reals, on the extended reals. -/
theorem mean_coe {ι : Type*} [Fintype ι] (x : ι → ℝ) {N : ℝ} (h0 : N ≠ 0) :
    Ideal.div (∑ i, ((x i : ℝ) : EReal)) (N : EReal) = (((∑ i, x i) / N : ℝ) : EReal) := by
  rw [← coe_sum, div_coe _ h0]

/-- The mean of the squares of a finite family of reals, on the extended reals. -/
theorem meansq_coe {ι : Type*} [Fintype ι] (x : ι → ℝ) {N : ℝ} (h0 : N ≠ 0) :
    Ideal.div (∑ i, ((x i : ℝ) : EReal) * ((x i : ℝ) : EReal)) (N : EReal)
      = (((∑ i, x i * x i) / N : ℝ) : EReal) := by
  rw [sum_mul_coe, div_coe _ h0]

/-- The mean of the squared deviations from the mean, on the extended reals. -/
theorem meandev_coe {ι : Type*} [Fintype ι] (x : ι → ℝ) {N : ℝ} (h0 : N ≠ 0) :
    Ideal.div (∑ i, (((x i : ℝ) : EReal) - Ideal.div (∑ i, ((x i : ℝ) : EReal)) (N : EReal))
                      * (((x i : ℝ) : EReal) - Ideal.div (∑ i, ((x i : ℝ) : EReal)) (N : EReal))) (N : EReal)
      = (((∑ i, (x i - (∑ i, x i) / N) * (x i - (∑ i, x i) / N)) / N : ℝ) : EReal) := by
  rw [mean_coe x h0]
  have h : ∀ i, (((x i : ℝ) : EReal) - (((∑ i, x i) / N : ℝ) : EReal))
        * (((x i : ℝ) : EReal) - (((∑ i, x i) / N : ℝ) : EReal))
      = (((x i - (∑ i, x i) / N : ℝ)) : EReal) * (((x i - (∑ i, x i) / N : ℝ)) : EReal) :=
    fun i => by rw [sub_coe]
  rw [Finset.sum_congr rfl fun i _ => h i,
    sum_mul_coe Finset.univ (fun i => x i - (∑ i, x i) / N) (fun i => x i - (∑ i, x i) / N),
    div_coe _ h0]

/-- The clamped variance, mean of squares less squared mean, is the mean of the squared deviations,
    for a finite family of reals carried on the extended reals. -/
theorem var_ereal {ι : Type*} [Fintype ι] (x : ι → ℝ) (N : ℝ) (hN : N = (Fintype.card ι : ℝ))
    (h0 : N ≠ 0) :
    max (Ideal.div (∑ i, ((x i : ℝ) : EReal) * ((x i : ℝ) : EReal)) (N : EReal)
          - Ideal.div (∑ i, ((x i : ℝ) : EReal)) (N : EReal)
            * Ideal.div (∑ i, ((x i : ℝ) : EReal)) (N : EReal)) 0
      = Ideal.div (∑ i, (((x i : ℝ) : EReal) - Ideal.div (∑ i, ((x i : ℝ) : EReal)) (N : EReal))
                        * (((x i : ℝ) : EReal) - Ideal.div (∑ i, ((x i : ℝ) : EReal)) (N : EReal)))
          (N : EReal) := by
  rw [meandev_coe x h0, meansq_coe x h0, mean_coe x h0, mul_coe, sub_coe, ← EReal.coe_zero, max_coe,
    var_real x N hN h0]

/-- Both sides of the identity are one non-negative real. -/
theorem var_ereal_real {ι : Type*} [Fintype ι] (x : ι → ℝ) (N : ℝ) (hN : N = (Fintype.card ι : ℝ))
    (h0 : N ≠ 0) :
    ∃ v : ℝ, 0 ≤ v ∧
      Ideal.div (∑ i, (((x i : ℝ) : EReal) - Ideal.div (∑ i, ((x i : ℝ) : EReal)) (N : EReal))
                        * (((x i : ℝ) : EReal) - Ideal.div (∑ i, ((x i : ℝ) : EReal)) (N : EReal)))
          (N : EReal) = (v : EReal) :=
  ⟨_, var_real_nonneg x N hN, meandev_coe x h0⟩

/-- The same for the clamped spelling. -/
theorem var_ereal_real' {ι : Type*} [Fintype ι] (x : ι → ℝ) (N : ℝ) (hN : N = (Fintype.card ι : ℝ))
    (h0 : N ≠ 0) :
    ∃ v : ℝ, 0 ≤ v ∧
      max (Ideal.div (∑ i, ((x i : ℝ) : EReal) * ((x i : ℝ) : EReal)) (N : EReal)
            - Ideal.div (∑ i, ((x i : ℝ) : EReal)) (N : EReal)
              * Ideal.div (∑ i, ((x i : ℝ) : EReal)) (N : EReal)) 0 = (v : EReal) := by
  rw [var_ereal x N hN h0]
  exact var_ereal_real x N hN h0

/-! ### The two family sizes as reals -/

theorem card_nodes : (50000 : ℝ) = (Fintype.card (Fin 50000) : ℝ) := by
  rw [Fintype.card_fin]; norm_num

theorem card_edges : (800000 : ℝ) = (Fintype.card (Fin 800000) : ℝ) := by
  rw [Fintype.card_fin]; norm_num

end Cert.Algebra
-- ==== Proof.RefEdge.lean ====
/-
  The reference's edge MLP, entry by entry, as the specification's formula.

  The reference lays the source node's row, the target node's row and the edge's features side by side into one row of
  192 entries and multiplies it by the whole 192×64 weight; the specification adds three 64-wide products, each against
  64 consecutive rows of that weight. The two agree because entry k of the 192-wide row is entry k of the first piece
  for k < 64, entry k − 64 of the second for 64 ≤ k < 128, and entry k − 128 of the third otherwise, so the 192-term
  sum is the three 64-term sums added in that order. The remaining layers (bias, clamp at zero, two more 64-wide
  products with their biases) are read one operation at a time.
-/
import proofs.«158963_j17583596109847_2_alg».proof.Proof.RefStages
import proofs.«158963_j17583596109847_2_alg».proof.Proof.Algebra
import Idealize.ShloMosaic.Lib.Pipeline.Value

noncomputable section

namespace Cert.ReferenceIdeal.StagesE

open Cert.ReferenceIdeal Cert.ReferenceIdeal.Gen Cert.ReferenceIdeal.Read Idealize.ShloMosaic Idealize.ShloMosaic.ValueIdx Cert.Spec
open Cert.ReferenceIdeal.Stages
open scoped BigOperators

/-- Entry (q, k) of the 64 rows of the 192×64 weight that start at row off. -/
def rowsAt (off : Nat) (h : off + 64 ≤ 192) (w : Arr2 192 64) (q k : Fin 64) : EReal := w (ix2 ⟨off + q.val, by omega⟩ k)

/-- The 64 rows of the 192×64 weight that start at row off, as a 64×64 matrix. -/
def rows (off : Nat) (h : off + 64 ≤ 192) (w : Arr2 192 64) : Arr2 64 64 := fun i => rowsAt off h w (i 0) (i 1)

/-! ## Three 800000×64 pieces side by side, read at an entry -/

section Cat
variable (y0 y1 y2 : S800000x64.Idx → EReal)

/-- Columns 0 … 63 of the 192-wide row are the first piece's; -/
theorem cat_at0 (e : Fin 800000) (k : Fin 64) :
    concatenate S800000x192 1 [⟨S800000x64, y0⟩, ⟨S800000x64, y1⟩, ⟨S800000x64, y2⟩] concatenates_S800000x64_S800000x64_S800000x64_S800000x192_d1
        (ix2 e (⟨k.val, by omega⟩ : Fin 192)) = y0 (ix2 e k) := by
  refine concatenate_apply_piece (1 : Fin S800000x192.rank) ([⟨S800000x64, y0⟩, ⟨S800000x64, y1⟩, ⟨S800000x64, y2⟩] : List ((s : Shape) × (s.Idx → EReal))) concatenates_S800000x64_S800000x64_S800000x64_S800000x192_d1 _ 0 (by show (0 : Nat) < 3; omega) S800000x64 y0 rfl rfl 0 rfl (ix2 e k)
    (fun b hb => ?_) ?_
  · match b with
    | ⟨0, _⟩ => rfl
    | ⟨1, _⟩ => exact absurd rfl hb
  · show 0 + k.val = k.val
    omega

/-- columns 64 … 127 the second piece's; -/
theorem cat_at1 (e : Fin 800000) (k : Fin 64) :
    concatenate S800000x192 1 [⟨S800000x64, y0⟩, ⟨S800000x64, y1⟩, ⟨S800000x64, y2⟩] concatenates_S800000x64_S800000x64_S800000x64_S800000x192_d1
        (ix2 e (⟨64 + k.val, by omega⟩ : Fin 192)) = y1 (ix2 e k) := by
  refine concatenate_apply_piece (1 : Fin S800000x192.rank) ([⟨S800000x64, y0⟩, ⟨S800000x64, y1⟩, ⟨S800000x64, y2⟩] : List ((s : Shape) × (s.Idx → EReal))) concatenates_S800000x64_S800000x64_S800000x64_S800000x192_d1 _ 1 (by show (1 : Nat) < 3; omega) S800000x64 y1 rfl rfl 64 rfl (ix2 e k)
    (fun b hb => ?_) ?_
  · match b with
    | ⟨0, _⟩ => rfl
    | ⟨1, _⟩ => exact absurd rfl hb
  · rfl

/-- columns 128 … 191 the third piece's. -/
theorem cat_at2 (e : Fin 800000) (k : Fin 64) :
    concatenate S800000x192 1 [⟨S800000x64, y0⟩, ⟨S800000x64, y1⟩, ⟨S800000x64, y2⟩] concatenates_S800000x64_S800000x64_S800000x64_S800000x192_d1
        (ix2 e (⟨128 + k.val, by omega⟩ : Fin 192)) = y2 (ix2 e k) := by
  refine concatenate_apply_piece (1 : Fin S800000x192.rank) ([⟨S800000x64, y0⟩, ⟨S800000x64, y1⟩, ⟨S800000x64, y2⟩] : List ((s : Shape) × (s.Idx → EReal))) concatenates_S800000x64_S800000x64_S800000x64_S800000x192_d1 _ 2 (by show (2 : Nat) < 3; omega) S800000x64 y2 rfl rfl 128 rfl (ix2 e k)
    (fun b hb => ?_) ?_
  · match b with
    | ⟨0, _⟩ => rfl
    | ⟨1, _⟩ => exact absurd rfl hb
  · rfl

end Cat

/-! ## The 192-wide product as three 64-wide products -/

/-- Row e of the three pieces side by side against column q of the 192×64 weight: the three pieces' rows against the
    weight's rows 0 … 63, 64 … 127, 128 … 191, added in that order. -/
theorem dot192 (y0 y1 y2 : S800000x64.Idx → EReal) (w : Arr2 192 64) (e : Fin 800000) (q : Fin 64) :
    ∑ k : Fin 192, concatenate S800000x192 1 [⟨S800000x64, y0⟩, ⟨S800000x64, y1⟩, ⟨S800000x64, y2⟩] concatenates_S800000x64_S800000x64_S800000x64_S800000x192_d1 (ix2 e k) * w (ix2 k q)
      = (rowDot y0 (rows 0 (by omega) w) e q + rowDot y1 (rows 64 (by omega) w) e q) + rowDot y2 (rows 128 (by omega) w) e q := by
  rw [Cert.Algebra.sum_192]
  unfold rowDot rows rowsAt
  refine congrArg₂ (· + ·) (congrArg₂ (· + ·) ?_ ?_) ?_
  · refine Finset.sum_congr rfl fun k _ => ?_
    rw [cat_at0]
    exact congrArg (fun r : Fin 192 => y0 (ix2 e k) * w (ix2 r q)) (Fin.ext (Nat.zero_add k.val).symm)
  · refine Finset.sum_congr rfl fun k _ => ?_
    rw [cat_at1]
  · refine Finset.sum_congr rfl fun k _ => ?_
    rw [cat_at2]

/-! ## The stage -/

/-- The edge MLP before normalisation: the 192-wide first layer as three 64-wide products over the source row, the
    target row and the edge features, bias, clamp at zero; a second 64-wide layer with bias and clamp; a third with
    bias. -/
theorem ref_epre (x0 : (⟨S50000x64, .f32⟩ : BufTy).Contents (Elt Ideal)) (x1 : (⟨S2x800000, .i32⟩ : BufTy).Contents (Elt Ideal)) (x2 : (⟨S800000x64, .f32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64, .f32⟩ : BufTy).Contents (Elt Ideal)) (x10 : (⟨S64, .f32⟩ : BufTy).Contents (Elt Ideal)) (x11 : (⟨S192x64, .f32⟩ : BufTy).Contents (Elt Ideal)) (x12 : (⟨S64, .f32⟩ : BufTy).Contents (Elt Ideal)) (x13 : (⟨S64x64, .f32⟩ : BufTy).Contents (Elt Ideal)) (x14 : (⟨S64, .f32⟩ : BufTy).Contents (Elt Ideal)) (x15 : (⟨S64x64, .f32⟩ : BufTy).Contents (Elt Ideal)) (x16 : (⟨S64, .f32⟩ : BufTy).Contents (Elt Ideal)) :
    val_main_v84 (F := Ideal) x0 x1 x2 x3 x4 x5 x6 x7 x8 x9 x10 x11 x12 x13 x14 x15 x16
      = epreArr (val_main_v62 (F := Ideal) x0 x1 x2 x3 x4 x5 x6 x7 x8 x9 x10) (val_main_v69 (F := Ideal) x0 x1 x2 x3 x4 x5 x6 x7 x8 x9 x10) x2
          (rows 0 (by omega) x11) (rows 64 (by omega) x11) (rows 128 (by omega) x11)
          (val_main_v72 (F := Ideal) x12) x13 (val_main_v77 (F := Ideal) x14) x15 (val_main_v82 (F := Ideal) x16) := by
  funext i
  obtain ⟨e, j, rfl⟩ : ∃ (e : Fin 800000) (j : Fin 64), i = ix2 e j := ⟨i 0, i 1, eq_ix2 i⟩
  rw [val_main_v84_apply, val_main_v81_apply, val_main_v83_apply]
  have h1 : ∀ k : Fin 64, lidx_main_v81 (ix2 e j) k = ix2 e k := fun k => by idx2
  have h2 : ∀ k : Fin 64, ridx_main_v81 (ix2 e j) k = ix2 k j := fun k => by idx2
  have h3 : idx_main_v83 (ix2 e j) = ix2 (0 : Fin 1) j := by idx2
  have h4 : ∀ k q : Fin 64, lidx_main_v76 (ix2 e k) q = ix2 e q := fun k q => by idx2
  have h5 : ∀ k q : Fin 64, ridx_main_v76 (ix2 e k) q = ix2 q k := fun k q => by idx2
  have h6 : ∀ k : Fin 64, idx_main_v78 (ix2 e k) = ix2 (0 : Fin 1) k := fun k => by idx2
  have h7 : ∀ (q : Fin 64) (r : Fin 192), lidx_main_v71 (ix2 e q) r = ix2 e r := fun q r => by idx2
  have h8 : ∀ (q : Fin 64) (r : Fin 192), ridx_main_v71 (ix2 e q) r = ix2 r q := fun q r => by idx2
  have h9 : ∀ q : Fin 64, idx_main_v73 (ix2 e q) = ix2 (0 : Fin 1) q := fun q => by idx2
  have hd : ∀ q : Fin 64, ∑ r : Fin 192, (val_main_v70 (F := Ideal) x0 x1 x2 x3 x4 x5 x6 x7 x8 x9 x10) (ix2 e r) * x11 (ix2 r q)
      = (rowDot (val_main_v62 (F := Ideal) x0 x1 x2 x3 x4 x5 x6 x7 x8 x9 x10) (rows 0 (by omega) x11) e q + rowDot (val_main_v69 (F := Ideal) x0 x1 x2 x3 x4 x5 x6 x7 x8 x9 x10) (rows 64 (by omega) x11) e q)
          + rowDot x2 (rows 128 (by omega) x11) e q := fun q =>
    dot192 (val_main_v62 (F := Ideal) x0 x1 x2 x3 x4 x5 x6 x7 x8 x9 x10) (val_main_v69 (F := Ideal) x0 x1 x2 x3 x4 x5 x6 x7 x8 x9 x10) x2 x11 e q
  simp only [h1, h2, h3, val_main_v80_apply, val_main_v79_apply, val_main_v76_apply, val_main_v78_apply,
    val_main_call4_v0_apply, val_main_call4_cst_apply, h4, h5, h6, val_main_v75_apply, val_main_v74_apply,
    val_main_v71_apply, val_main_v73_apply, val_main_call3_v0_apply, val_main_call3_cst_apply, h7, h8, h9, hd,
    epreArr, epreAt, e2At, e1At, Ideal.maximumf_def, Ideal.addf_def, Ideal.ofBits_def, Ideal.ofBits_zero_f32]

end Cert.ReferenceIdeal.StagesE

end
-- ==== Proof.Stats.lean ====
/-
  The two ways of taking a column's mean and variance agree on finite entries. One way cuts the rows into blocks,
  takes each block's column sum and column sum of squares, adds the blocks, and forms
  mean = Σx / N and variance = max (Σx² / N − mean², 0); the other takes mean = Σx / N over all rows and
  variance = Σ (x − mean)² / N. The sums agree because a sum over all rows is the sum of the blocks' sums; the
  variances agree because Σ (x − μ)² = Σx² − N μ² for real x, and a mean squared deviation is never negative.
-/
import proofs.«158963_j17583596109847_2_alg».proof.Proof.Spec
import proofs.«158963_j17583596109847_2_alg».proof.Proof.Algebra
import proofs.«158963_j17583596109847_2_alg».proof.Proof.RefStages
import proofs.«158963_j17583596109847_2_alg».proof.Proof.LibERealCoe

noncomputable section

namespace Cert.Stats

open Cert.Spec Cert.Algebra Cert.Lib.ERealCoe Cert.ReferenceIdeal.Stages Idealize.ShloMosaic Idealize.ShloMosaic.ValueIdx
open scoped BigOperators

/-! ### The nodes: ten blocks of 5000 rows -/

section Nodes
variable (em ag : Arr2 50000 64) (w1 : Arr2 64 64) (b1 : Arr2 1 64) (w2 : Arr2 64 64) (b2 : Arr2 1 64)

/-- Row 0 of a block's statistics is the block's column sum. -/
theorem node_stat0 (b : Fin 10) (j : Fin 64) :
    nodeStatArr em ag w1 b1 w2 b2 (ix3 b (0 : Fin 2) j) = ∑ r : Fin 5000, preAt em ag w1 b1 w2 b2 (nodeRow b r) j := by
  unfold nodeStatArr
  exact if_pos rfl

/-- Row 1 of a block's statistics is the block's column sum of squares. -/
theorem node_stat1 (b : Fin 10) (j : Fin 64) :
    nodeStatArr em ag w1 b1 w2 b2 (ix3 b (1 : Fin 2) j)
      = ∑ r : Fin 5000, preAt em ag w1 b1 w2 b2 (nodeRow b r) j * preAt em ag w1 b1 w2 b2 (nodeRow b r) j := by
  unfold nodeStatArr
  exact if_neg Nat.one_ne_zero

/-- The blocks' column sums add up to the column sum over all rows. -/
theorem node_sum0 (j : Fin 64) :
    ∑ b : Fin 10, nodeStatArr em ag w1 b1 w2 b2 (ix3 b (0 : Fin 2) j) = ∑ n : Fin 50000, preAt em ag w1 b1 w2 b2 n j :=
  (Finset.sum_congr rfl fun b _ => node_stat0 em ag w1 b1 w2 b2 b j).trans (sum_nodeRows (fun n => preAt em ag w1 b1 w2 b2 n j))

theorem node_sum1 (j : Fin 64) :
    ∑ b : Fin 10, nodeStatArr em ag w1 b1 w2 b2 (ix3 b (1 : Fin 2) j)
      = ∑ n : Fin 50000, preAt em ag w1 b1 w2 b2 n j * preAt em ag w1 b1 w2 b2 n j :=
  (Finset.sum_congr rfl fun b _ => node_stat1 em ag w1 b1 w2 b2 b j).trans
    (sum_nodeRows (fun n => preAt em ag w1 b1 w2 b2 n j * preAt em ag w1 b1 w2 b2 n j))

/-- The mean from the block sums is the mean over all rows. -/
theorem node_mean (N : EReal) (j : Fin 64) :
    meanAt (nodeStatArr em ag w1 b1 w2 b2) N j = refMean (preArr em ag w1 b1 w2 b2) N j := by
  unfold meanAt colSum refMean
  rw [node_sum0]
  rfl

/-- Mean of squares minus squared mean, clipped at zero, is the mean squared deviation, on finite entries. -/
theorem node_var (hfin : ∀ n j, ∃ r : ℝ, preAt em ag w1 b1 w2 b2 n j = (r : EReal)) (j : Fin 64) :
    varAt (nodeStatArr em ag w1 b1 w2 b2) (Ideal.ofBits .f32 0x47435000#32) j
      = refVar (preArr em ag w1 b1 w2 b2) (Ideal.ofBits .f32 0x47435000#32) j := by
  obtain ⟨p, hp⟩ : ∃ p : Fin 50000 → ℝ, ∀ n, preAt em ag w1 b1 w2 b2 n j = ((p n : ℝ) : EReal) :=
    ⟨fun n => Classical.choose (hfin n j), fun n => Classical.choose_spec (hfin n j)⟩
  have hP : ∀ n : Fin 50000, preArr em ag w1 b1 w2 b2 (ix2 n j) = ((p n : ℝ) : EReal) := fun n => hp n
  unfold varAt meanAt colSum refVar refMean
  rw [node_sum0, node_sum1]
  simp only [hp, hP, ofBits_50000]
  exact var_ereal p 50000 card_nodes (by norm_num)

/-- With those statistics the normalised matrix is the same. -/
theorem node_bridge (g be : Fin 64 → EReal) (hfin : ∀ n j, ∃ r : ℝ, preAt em ag w1 b1 w2 b2 n j = (r : EReal)) :
    bnFull (preArr em ag w1 b1 w2 b2) (meanAt (nodeStatArr em ag w1 b1 w2 b2) (Ideal.ofBits .f32 0x47435000#32))
        (varAt (nodeStatArr em ag w1 b1 w2 b2) (Ideal.ofBits .f32 0x47435000#32)) g be
      = bnFull (preArr em ag w1 b1 w2 b2) (refMean (preArr em ag w1 b1 w2 b2) (Ideal.ofBits .f32 0x47435000#32))
        (refVar (preArr em ag w1 b1 w2 b2) (Ideal.ofBits .f32 0x47435000#32)) g be := by
  rw [show meanAt (nodeStatArr em ag w1 b1 w2 b2) (Ideal.ofBits .f32 0x47435000#32) = refMean (preArr em ag w1 b1 w2 b2) (Ideal.ofBits .f32 0x47435000#32)
        from funext (node_mean em ag w1 b1 w2 b2 _),
      show varAt (nodeStatArr em ag w1 b1 w2 b2) (Ideal.ofBits .f32 0x47435000#32) = refVar (preArr em ag w1 b1 w2 b2) (Ideal.ofBits .f32 0x47435000#32)
        from funext (node_var em ag w1 b1 w2 b2 hfin)]

end Nodes

/-! ### The edges: two hundred blocks of 4000 rows -/

section Edges
variable (xs xd ef : Arr2 800000 64) (wa wb wc : Arr2 64 64) (b1 : Arr2 1 64) (w2 : Arr2 64 64) (b2 : Arr2 1 64) (w3 : Arr2 64 64) (b3 : Arr2 1 64)

/-- Row 0 of a block's statistics is the block's column sum. -/
theorem edge_stat0 (b : Fin 200) (j : Fin 64) :
    edgeStatArr xs xd ef wa wb wc b1 w2 b2 w3 b3 (ix3 b (0 : Fin 2) j) = ∑ r : Fin 4000, epreAt xs xd ef wa wb wc b1 w2 b2 w3 b3 (edgeRow b r) j := by
  unfold edgeStatArr
  exact if_pos rfl

/-- Row 1 of a block's statistics is the block's column sum of squares. -/
theorem edge_stat1 (b : Fin 200) (j : Fin 64) :
    edgeStatArr xs xd ef wa wb wc b1 w2 b2 w3 b3 (ix3 b (1 : Fin 2) j)
      = ∑ r : Fin 4000, epreAt xs xd ef wa wb wc b1 w2 b2 w3 b3 (edgeRow b r) j * epreAt xs xd ef wa wb wc b1 w2 b2 w3 b3 (edgeRow b r) j := by
  unfold edgeStatArr
  exact if_neg Nat.one_ne_zero

/-- The blocks' column sums add up to the column sum over all rows. -/
theorem edge_sum0 (j : Fin 64) :
    ∑ b : Fin 200, edgeStatArr xs xd ef wa wb wc b1 w2 b2 w3 b3 (ix3 b (0 : Fin 2) j) = ∑ n : Fin 800000, epreAt xs xd ef wa wb wc b1 w2 b2 w3 b3 n j :=
  (Finset.sum_congr rfl fun b _ => edge_stat0 xs xd ef wa wb wc b1 w2 b2 w3 b3 b j).trans (sum_edgeRows (fun n => epreAt xs xd ef wa wb wc b1 w2 b2 w3 b3 n j))

theorem edge_sum1 (j : Fin 64) :
    ∑ b : Fin 200, edgeStatArr xs xd ef wa wb wc b1 w2 b2 w3 b3 (ix3 b (1 : Fin 2) j)
      = ∑ n : Fin 800000, epreAt xs xd ef wa wb wc b1 w2 b2 w3 b3 n j * epreAt xs xd ef wa wb wc b1 w2 b2 w3 b3 n j :=
  (Finset.sum_congr rfl fun b _ => edge_stat1 xs xd ef wa wb wc b1 w2 b2 w3 b3 b j).trans
    (sum_edgeRows (fun n => epreAt xs xd ef wa wb wc b1 w2 b2 w3 b3 n j * epreAt xs xd ef wa wb wc b1 w2 b2 w3 b3 n j))

/-- The mean from the block sums is the mean over all rows. -/
theorem edge_mean (N : EReal) (j : Fin 64) :
    meanAt (edgeStatArr xs xd ef wa wb wc b1 w2 b2 w3 b3) N j = refMean (epreArr xs xd ef wa wb wc b1 w2 b2 w3 b3) N j := by
  unfold meanAt colSum refMean
  rw [edge_sum0]
  rfl

/-- Mean of squares minus squared mean, clipped at zero, is the mean squared deviation, on finite entries. -/
theorem edge_var (hfin : ∀ n j, ∃ r : ℝ, epreAt xs xd ef wa wb wc b1 w2 b2 w3 b3 n j = (r : EReal)) (j : Fin 64) :
    varAt (edgeStatArr xs xd ef wa wb wc b1 w2 b2 w3 b3) (Ideal.ofBits .f32 0x49435000#32) j
      = refVar (epreArr xs xd ef wa wb wc b1 w2 b2 w3 b3) (Ideal.ofBits .f32 0x49435000#32) j := by
  obtain ⟨p, hp⟩ : ∃ p : Fin 800000 → ℝ, ∀ n, epreAt xs xd ef wa wb wc b1 w2 b2 w3 b3 n j = ((p n : ℝ) : EReal) :=
    ⟨fun n => Classical.choose (hfin n j), fun n => Classical.choose_spec (hfin n j)⟩
  have hP : ∀ n : Fin 800000, epreArr xs xd ef wa wb wc b1 w2 b2 w3 b3 (ix2 n j) = ((p n : ℝ) : EReal) := fun n => hp n
  unfold varAt meanAt colSum refVar refMean
  rw [edge_sum0, edge_sum1]
  simp only [hp, hP, ofBits_800000]
  exact var_ereal p 800000 card_edges (by norm_num)

/-- With those statistics the normalised matrix is the same. -/
theorem edge_bridge (g be : Fin 64 → EReal) (hfin : ∀ n j, ∃ r : ℝ, epreAt xs xd ef wa wb wc b1 w2 b2 w3 b3 n j = (r : EReal)) :
    bnFull (epreArr xs xd ef wa wb wc b1 w2 b2 w3 b3) (meanAt (edgeStatArr xs xd ef wa wb wc b1 w2 b2 w3 b3) (Ideal.ofBits .f32 0x49435000#32))
        (varAt (edgeStatArr xs xd ef wa wb wc b1 w2 b2 w3 b3) (Ideal.ofBits .f32 0x49435000#32)) g be
      = bnFull (epreArr xs xd ef wa wb wc b1 w2 b2 w3 b3) (refMean (epreArr xs xd ef wa wb wc b1 w2 b2 w3 b3) (Ideal.ofBits .f32 0x49435000#32))
        (refVar (epreArr xs xd ef wa wb wc b1 w2 b2 w3 b3) (Ideal.ofBits .f32 0x49435000#32)) g be := by
  rw [show meanAt (edgeStatArr xs xd ef wa wb wc b1 w2 b2 w3 b3) (Ideal.ofBits .f32 0x49435000#32) = refMean (epreArr xs xd ef wa wb wc b1 w2 b2 w3 b3) (Ideal.ofBits .f32 0x49435000#32)
        from funext (edge_mean xs xd ef wa wb wc b1 w2 b2 w3 b3 _),
      show varAt (edgeStatArr xs xd ef wa wb wc b1 w2 b2 w3 b3) (Ideal.ofBits .f32 0x49435000#32) = refVar (epreArr xs xd ef wa wb wc b1 w2 b2 w3 b3) (Ideal.ofBits .f32 0x49435000#32)
        from funext (edge_var xs xd ef wa wb wc b1 w2 b2 w3 b3 hfin)]

end Edges

end Cert.Stats

end
-- ==== Proof.Stretch24.lean ====
/-
  The two stretches of host operations that turn a region's per-block column sums into the operands of
  the normalisation: the mean and the clipped variance of every column, the scale and the shift, each
  doubled to 128 lanes, and the matrix itself viewed 128 lanes wide. Normalising in that layout is the
  lane-dense view of normalising the 64-column matrix column by column.
-/
import proofs.«158963_j17583596109847_2_alg».proof.Proof.Gen.KernelIdeal.Launch
import proofs.«158963_j17583596109847_2_alg».proof.Proof.Spec
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.Stretch24

open Idealize.ShloMosaic Idealize.ShloMosaic.TcCoe Idealize.ShloMosaic.ValueIdx Idealize.ShloMosaic.StableHlo
open Cert.KernelIdeal Cert.KernelIdeal.Gen Cert.Spec
open scoped BigOperators

/-! ### Readers shared by the two stretches -/

/-- The 128-lane doubling of a 64-vector, as a one-row matrix. -/
def dup (x : FVec Ideal S64 .f32) : FVec Ideal S1x128 .f32 :=
  shapeCast S1x128 (concatenate S128 0 [⟨S64, x⟩, ⟨S64, x⟩] concatenates_S64_S64_S128_d0)
    shapeCasts_S128_S1x128

/-- The doubling read at lane `l`: the vector at `l % 64`. -/
theorem dup_apply (x : FVec Ideal S64 .f32) (l : Fin 128) :
    dup x (ix2 (0 : Fin 1) l) = x (ix1 (⟨l.val % 64, Nat.mod_lt _ (by decide)⟩ : Fin 64)) := by
  unfold dup
  refine (shapeCast_apply _ shapeCasts_S128_S1x128 (ix2 (0 : Fin 1) l) (ix1 l) ?_).trans ?_
  · rw [Shape.rowMajor_val_two, Shape.rowMajor_val_one]
    show l.val = 0 * 128 + l.val
    omega
  · by_cases hl : l.val < 64
    · refine (concatenate_pair_apply_left 0 x x concatenates_S64_S64_S128_d0 (ix1 l) rfl
        (ix1 (⟨l.val, hl⟩ : Fin 64)) ?_).trans ?_
      · intro b
        match b with
        | ⟨0, _⟩ => rfl
      · exact congrArg x (funext fun a => match a with
          | ⟨0, _⟩ => Fin.ext (Nat.mod_eq_of_lt hl).symm)
    · have hl' : 64 ≤ l.val := Nat.le_of_not_lt hl
      have hl2 : l.val < 128 := l.isLt
      refine (concatenate_pair_apply_right 0 x x concatenates_S64_S64_S128_d0 (ix1 l) rfl rfl
        (ix1 (⟨l.val - 64, by omega⟩ : Fin 64)) ?_ ?_).trans ?_
      · intro b hb
        match b with
        | ⟨0, _⟩ => exact absurd rfl hb
      · show (l.val - 64) + 64 = l.val
        omega
      · exact congrArg x (funext fun a => match a with
          | ⟨0, _⟩ => Fin.ext (by show l.val - 64 = l.val % 64; omega))

/-- The host's division at an index is the ideal instance's quotient of the entries. -/
theorem hostDivf_apply {s : Shape} (a b : FVec Ideal s .f32) (i : s.Idx) :
    Host.divf a b i = Ideal.div (a i) (b i) := rfl

/-- A scalar constant broadcast to 64 lanes reads the extended real its pattern denotes. -/
theorem bcast_const_apply (bits : BitVec 32) (i : S64.Idx) :
    broadcastInDim S64 ![] bcast_S_S64 (constant (F := Ideal) S_ .f32 bits) i = Ideal.ofBits .f32 bits :=
  (broadcastInDim_apply _ bcast_S_S64 (constant (F := Ideal) S_ .f32 bits) i (fun a => a.elim0)
    (fun a => a.elim0)).trans rfl

/-- One entry normalised in the 128-lane layout. -/
theorem bnArr_apply {R : Nat} (h : Arr2 R 128) (mu v g be : Arr2 1 128) (r : Fin R) (l : Fin 128) :
    bnArr h mu v g be (ix2 r l)
      = bnS (h (ix2 r l)) (mu (ix2 0 l)) (v (ix2 0 l)) (g (ix2 0 l)) (be (ix2 0 l)) := rfl

/-- One entry normalised in the 64-column layout. -/
theorem bnFull_apply {R : Nat} (P : Arr2 R 64) (mu v g be : Fin 64 → EReal) (n : Fin R) (j : Fin 64) :
    bnFull P mu v g be (ix2 n j) = bnS (P (ix2 n j)) (mu j) (v j) (g j) (be j) := rfl

/-! ### The stretch after the node region: ten blocks of 5000 rows -/

/-- The lane-dense view of the 50000-row matrix at (r, l) is the matrix at row `2r + l / 64`, column `l % 64`. -/
theorem dense2_apply {α : Type} (P : S50000x64.Idx → α) (r : Fin 25000) (l : Fin 128) :
    shapeCast S25000x128 P shapeCasts_S50000x64_S25000x128 (ix2 r l)
      = P (ix2 (⟨2 * r.val + l.val / 64, by have := r.isLt; have := l.isLt; omega⟩ : Fin 50000)
              (⟨l.val % 64, Nat.mod_lt _ (by decide)⟩ : Fin 64)) := by
  refine shapeCast_apply P shapeCasts_S50000x64_S25000x128 (ix2 r l) _ ?_
  rw [Shape.rowMajor_val_two, Shape.rowMajor_val_two]
  show (2 * r.val + l.val / 64) * 64 + l.val % 64 = r.val * 128 + l.val
  omega

/-- Row `row` of the ten blocks' sums: sliced out, viewed [10, 64], added over the blocks from zero. -/
def rowSum2 (st : FVec Ideal S10x2x64 .f32) (row : Fin 2) (hsl : S10x2x64.Slices ![0, row.val, 0] S10x1x64) :
    FVec Ideal S64 .f32 :=
  Host.reduceAdd
    (shapeCast S10x64 (extractStridedSlice S10x1x64 ![0, row.val, 0] st hsl) shapeCasts_S10x1x64_S10x64)
    (constant S_ .f32 0x00000000#32) reducesTo_S10x64_S64_d0 h_S_

theorem rowSum2_apply (st : FVec Ideal S10x2x64 .f32) (row : Fin 2)
    (hsl : S10x2x64.Slices ![0, row.val, 0] S10x1x64) (j : Fin 64) :
    rowSum2 st row hsl (ix1 j) = colSum (B := 10) st row j := by
  unfold rowSum2
  simp only [Host.reduceAdd, Ideal.hostReduceAdd_def]
  rw [Ideal.hostReduceAdd_single reducesTo_S10x64_S64_d0 (by decide)]
  rw [constant_apply, Ideal.ofBits_zero_f32, zero_add]
  unfold colSum
  refine Finset.sum_congr rfl fun k _ => ?_
  refine (shapeCast_apply _ shapeCasts_S10x1x64_S10x64 _ (ix3 (k : Fin 10) (0 : Fin 1) j) ?_).trans ?_
  · rw [Shape.rowMajor_val_three, Shape.rowMajor_val_two]
    show (k.val * 1 + 0) * 64 + j.val = k.val * 64 + j.val
    omega
  · refine extractStridedSlice_apply _ st hsl _ (ix3 (k : Fin 10) row j) ?_
    intro a
    match a with
    | ⟨0, _⟩ => show k.val = 0 + k.val; omega
    | ⟨1, _⟩ => show row.val = row.val + 0; omega
    | ⟨2, _⟩ => show j.val = 0 + j.val; omega

/-- The column means, as the stretch spells them. -/
def meanVec2 (st : FVec Ideal S10x2x64 .f32) (bits : BitVec 32) : FVec Ideal S64 .f32 :=
  Host.divf (rowSum2 st 0 slices_S10x2x64_S10x1x64_0_0_0)
    (broadcastInDim S64 ![] bcast_S_S64 (constant S_ .f32 bits))

theorem meanVec2_apply (st : FVec Ideal S10x2x64 .f32) (bits : BitVec 32) (j : Fin 64) :
    meanVec2 st bits (ix1 j) = meanAt (B := 10) st (Ideal.ofBits .f32 bits) j := by
  unfold meanVec2 meanAt
  rw [hostDivf_apply, rowSum2_apply, bcast_const_apply]

/-- The clipped column variances, as the stretch spells them. -/
def varVec2 (st : FVec Ideal S10x2x64 .f32) (bits : BitVec 32) : FVec Ideal S64 .f32 :=
  maximumf
    (subf
      (Host.divf (rowSum2 st 1 slices_S10x2x64_S10x1x64_0_1_0)
        (broadcastInDim S64 ![] bcast_S_S64 (constant S_ .f32 bits)))
      (mulf (meanVec2 st bits) (meanVec2 st bits)))
    (broadcastInDim S64 ![] bcast_S_S64 (constant S_ .f32 0x00000000#32))

theorem varVec2_apply (st : FVec Ideal S10x2x64 .f32) (bits : BitVec 32) (j : Fin 64) :
    varVec2 st bits (ix1 j) = varAt (B := 10) st (Ideal.ofBits .f32 bits) j := by
  unfold varVec2 varAt
  rw [maximumf_apply, subf_apply, mulf_apply, hostDivf_apply, rowSum2_apply, bcast_const_apply,
    bcast_const_apply, meanVec2_apply, Ideal.ofBits_zero_f32]

section
variable (W : Valuation τ sig (Elt Ideal))

theorem v33_eq : after (hostOps2 (F := Ideal)) W (Proc.devRef .tc main_v33)
    = shapeCast S25000x128 (W (Proc.devRef .tc main_v18_0)) shapeCasts_S50000x64_S25000x128 := by
  after_results
  rfl

theorem v35_eq : after (hostOps2 (F := Ideal)) W (Proc.devRef .tc main_v35)
    = dup (meanVec2 (W (Proc.devRef .tc main_v18_1)) 0x47435000#32) := by
  after_results
  rfl

set_option maxHeartbeats 4000000 in
theorem v37_eq : after (hostOps2 (F := Ideal)) W (Proc.devRef .tc main_v37)
    = dup (varVec2 (W (Proc.devRef .tc main_v18_1)) 0x47435000#32) := by
  after_results
  rfl

theorem v39_eq : after (hostOps2 (F := Ideal)) W (Proc.devRef .tc main_v39)
    = dup (W (Proc.devRef .tc main_arg9)) := by
  after_results
  rfl

theorem v41_eq : after (hostOps2 (F := Ideal)) W (Proc.devRef .tc main_v41)
    = dup (W (Proc.devRef .tc main_arg10)) := by
  after_results
  rfl

/-- After the stretch that follows the node region, normalising the lane-dense matrix against the
    doubled statistics is the lane-dense view of the 64-column matrix normalised column by column
    against the means and clipped variances of its columns. -/
theorem stretch2 :
    bnArr (after (hostOps2 (F := Ideal)) W (Proc.devRef .tc main_v33))
        (after (hostOps2 (F := Ideal)) W (Proc.devRef .tc main_v35))
        (after (hostOps2 (F := Ideal)) W (Proc.devRef .tc main_v37))
        (after (hostOps2 (F := Ideal)) W (Proc.devRef .tc main_v39))
        (after (hostOps2 (F := Ideal)) W (Proc.devRef .tc main_v41))
      = shapeCast S25000x128
          (bnFull (W (Proc.devRef .tc main_v18_0))
            (meanAt (B := 10) (W (Proc.devRef .tc main_v18_1)) (Ideal.ofBits .f32 0x47435000#32))
            (varAt (B := 10) (W (Proc.devRef .tc main_v18_1)) (Ideal.ofBits .f32 0x47435000#32))
            (fun j => W (Proc.devRef .tc main_arg9) (ix1 j)) (fun j => W (Proc.devRef .tc main_arg10) (ix1 j)))
          shapeCasts_S50000x64_S25000x128 := by
  rw [v33_eq W, v35_eq W, v37_eq W, v39_eq W, v41_eq W]
  funext i
  obtain ⟨r, l, rfl⟩ : ∃ (r : Fin 25000) (l : Fin 128), i = ix2 r l := ⟨i 0, i 1, eq_ix2 i⟩
  rw [bnArr_apply, dense2_apply, dense2_apply, bnFull_apply, dup_apply, dup_apply, dup_apply, dup_apply,
    meanVec2_apply, varVec2_apply]

end
/-! ### The stretch after the edge region: two hundred blocks of 4000 rows -/

/-- The lane-dense view of the 800000-row matrix at (r, l) is the matrix at row `2r + l / 64`, column `l % 64`. -/
theorem dense4_apply {α : Type} (P : S800000x64.Idx → α) (r : Fin 400000) (l : Fin 128) :
    shapeCast S400000x128 P shapeCasts_S800000x64_S400000x128 (ix2 r l)
      = P (ix2 (⟨2 * r.val + l.val / 64, by have := r.isLt; have := l.isLt; omega⟩ : Fin 800000)
              (⟨l.val % 64, Nat.mod_lt _ (by decide)⟩ : Fin 64)) := by
  refine shapeCast_apply P shapeCasts_S800000x64_S400000x128 (ix2 r l) _ ?_
  rw [Shape.rowMajor_val_two, Shape.rowMajor_val_two]
  show (2 * r.val + l.val / 64) * 64 + l.val % 64 = r.val * 128 + l.val
  omega

/-- Row `row` of the two hundred blocks' sums: sliced out, viewed [200, 64], added over the blocks from zero. -/
def rowSum4 (st : FVec Ideal S200x2x64 .f32) (row : Fin 2) (hsl : S200x2x64.Slices ![0, row.val, 0] S200x1x64) :
    FVec Ideal S64 .f32 :=
  Host.reduceAdd
    (shapeCast S200x64 (extractStridedSlice S200x1x64 ![0, row.val, 0] st hsl) shapeCasts_S200x1x64_S200x64)
    (constant S_ .f32 0x00000000#32) reducesTo_S200x64_S64_d0 h_S_

theorem rowSum4_apply (st : FVec Ideal S200x2x64 .f32) (row : Fin 2)
    (hsl : S200x2x64.Slices ![0, row.val, 0] S200x1x64) (j : Fin 64) :
    rowSum4 st row hsl (ix1 j) = colSum (B := 200) st row j := by
  unfold rowSum4
  simp only [Host.reduceAdd, Ideal.hostReduceAdd_def]
  rw [Ideal.hostReduceAdd_single reducesTo_S200x64_S64_d0 (by decide)]
  rw [constant_apply, Ideal.ofBits_zero_f32, zero_add]
  unfold colSum
  refine Finset.sum_congr rfl fun k _ => ?_
  refine (shapeCast_apply _ shapeCasts_S200x1x64_S200x64 _ (ix3 (k : Fin 200) (0 : Fin 1) j) ?_).trans ?_
  · rw [Shape.rowMajor_val_three, Shape.rowMajor_val_two]
    show (k.val * 1 + 0) * 64 + j.val = k.val * 64 + j.val
    omega
  · refine extractStridedSlice_apply _ st hsl _ (ix3 (k : Fin 200) row j) ?_
    intro a
    match a with
    | ⟨0, _⟩ => show k.val = 0 + k.val; omega
    | ⟨1, _⟩ => show row.val = row.val + 0; omega
    | ⟨2, _⟩ => show j.val = 0 + j.val; omega

/-- The column means, as the stretch spells them. -/
def meanVec4 (st : FVec Ideal S200x2x64 .f32) (bits : BitVec 32) : FVec Ideal S64 .f32 :=
  Host.divf (rowSum4 st 0 slices_S200x2x64_S200x1x64_0_0_0)
    (broadcastInDim S64 ![] bcast_S_S64 (constant S_ .f32 bits))

theorem meanVec4_apply (st : FVec Ideal S200x2x64 .f32) (bits : BitVec 32) (j : Fin 64) :
    meanVec4 st bits (ix1 j) = meanAt (B := 200) st (Ideal.ofBits .f32 bits) j := by
  unfold meanVec4 meanAt
  rw [hostDivf_apply, rowSum4_apply, bcast_const_apply]

/-- The clipped column variances, as the stretch spells them. -/
def varVec4 (st : FVec Ideal S200x2x64 .f32) (bits : BitVec 32) : FVec Ideal S64 .f32 :=
  maximumf
    (subf
      (Host.divf (rowSum4 st 1 slices_S200x2x64_S200x1x64_0_1_0)
        (broadcastInDim S64 ![] bcast_S_S64 (constant S_ .f32 bits)))
      (mulf (meanVec4 st bits) (meanVec4 st bits)))
    (broadcastInDim S64 ![] bcast_S_S64 (constant S_ .f32 0x00000000#32))

theorem varVec4_apply (st : FVec Ideal S200x2x64 .f32) (bits : BitVec 32) (j : Fin 64) :
    varVec4 st bits (ix1 j) = varAt (B := 200) st (Ideal.ofBits .f32 bits) j := by
  unfold varVec4 varAt
  rw [maximumf_apply, subf_apply, mulf_apply, hostDivf_apply, rowSum4_apply, bcast_const_apply,
    bcast_const_apply, meanVec4_apply, Ideal.ofBits_zero_f32]

section
variable (W : Valuation τ sig (Elt Ideal))

theorem v79_eq : after (hostOps4 (F := Ideal)) W (Proc.devRef .tc main_v79)
    = shapeCast S400000x128 (W (Proc.devRef .tc main_v64_0)) shapeCasts_S800000x64_S400000x128 := by
  after_results
  rfl

theorem v81_eq : after (hostOps4 (F := Ideal)) W (Proc.devRef .tc main_v81)
    = dup (meanVec4 (W (Proc.devRef .tc main_v64_1)) 0x49435000#32) := by
  after_results
  rfl

set_option maxHeartbeats 4000000 in
theorem v83_eq : after (hostOps4 (F := Ideal)) W (Proc.devRef .tc main_v83)
    = dup (varVec4 (W (Proc.devRef .tc main_v64_1)) 0x49435000#32) := by
  after_results
  rfl

theorem v85_eq : after (hostOps4 (F := Ideal)) W (Proc.devRef .tc main_v85)
    = dup (W (Proc.devRef .tc main_arg17)) := by
  after_results
  rfl

theorem v87_eq : after (hostOps4 (F := Ideal)) W (Proc.devRef .tc main_v87)
    = dup (W (Proc.devRef .tc main_arg18)) := by
  after_results
  rfl

/-- After the stretch that follows the edge region, normalising the lane-dense matrix against the
    doubled statistics is the lane-dense view of the 64-column matrix normalised column by column
    against the means and clipped variances of its columns. -/
theorem stretch4 :
    bnArr (after (hostOps4 (F := Ideal)) W (Proc.devRef .tc main_v79))
        (after (hostOps4 (F := Ideal)) W (Proc.devRef .tc main_v81))
        (after (hostOps4 (F := Ideal)) W (Proc.devRef .tc main_v83))
        (after (hostOps4 (F := Ideal)) W (Proc.devRef .tc main_v85))
        (after (hostOps4 (F := Ideal)) W (Proc.devRef .tc main_v87))
      = shapeCast S400000x128
          (bnFull (W (Proc.devRef .tc main_v64_0))
            (meanAt (B := 200) (W (Proc.devRef .tc main_v64_1)) (Ideal.ofBits .f32 0x49435000#32))
            (varAt (B := 200) (W (Proc.devRef .tc main_v64_1)) (Ideal.ofBits .f32 0x49435000#32))
            (fun j => W (Proc.devRef .tc main_arg17) (ix1 j)) (fun j => W (Proc.devRef .tc main_arg18) (ix1 j)))
          shapeCasts_S800000x64_S400000x128 := by
  rw [v79_eq W, v81_eq W, v83_eq W, v85_eq W, v87_eq W]
  funext i
  obtain ⟨r, l, rfl⟩ : ∃ (r : Fin 400000) (l : Fin 128), i = ix2 r l := ⟨i 0, i 1, eq_ix2 i⟩
  rw [bnArr_apply, dense4_apply, dense4_apply, bnFull_apply, dup_apply, dup_apply, dup_apply, dup_apply,
    meanVec4_apply, varVec4_apply]

end

end Cert.KernelIdeal.Stretch24
end
-- ==== Proof.Chain.lean ====
/-
  The idealized kernel's buffers at each boundary of the program, as the reference's own terms of the launch arrays.
  A stretch of host operations is read operation by operation; a region's output array is what the region's value
  theorem says of the arrays it found; an array written earlier and not touched since is walked back to where it was
  written. The reference's terms are taken stage by stage in the specification's form.
-/
import proofs.«158963_j17583596109847_2_alg».proof.Proof.Gen.KernelIdeal.Frame
import proofs.«158963_j17583596109847_2_alg».proof.Proof.Gen.ReferenceIdeal.Read
import proofs.«158963_j17583596109847_2_alg».proof.Proof.Spec
import proofs.«158963_j17583596109847_2_alg».proof.Proof.RefStages
import proofs.«158963_j17583596109847_2_alg».proof.Proof.Keep
import proofs.«158963_j17583596109847_2_alg».proof.Proof.Region0
import proofs.«158963_j17583596109847_2_alg».proof.Proof.Region1
import proofs.«158963_j17583596109847_2_alg».proof.Proof.Region24
import proofs.«158963_j17583596109847_2_alg».proof.Proof.Region3
import proofs.«158963_j17583596109847_2_alg».proof.Proof.RefEdge
import proofs.«158963_j17583596109847_2_alg».proof.Proof.Stats
import proofs.«158963_j17583596109847_2_alg».proof.Proof.Stretch24
import Idealize.ShloMosaic.Lib.Pipeline.Value
import Idealize.ShloMosaic.Lib.StableHlo.Run

set_option maxRecDepth 16384

noncomputable section

namespace Cert.KernelIdeal.Chain

open Idealize.ShloMosaic Idealize.ShloMosaic.TcCoe Idealize.ShloMosaic.StableHlo Idealize.ShloMosaic.ValueIdx Idealize.SL.Sem
open Cert.KernelIdeal Cert.KernelIdeal.Gen Cert.Spec Cert.ReferenceIdeal.Stages Cert.ReferenceIdeal.StagesE
open Cert.ReferenceIdeal.Read (val_main_v1 val_main_v3 val_main_v10 val_main_v13 val_main_v13_apply val_main_v16 val_main_v17 val_main_v18 val_main_v19 val_main_v22
  val_main_v27 val_main_v29 val_main_v55 val_main_v62 val_main_v69 val_main_v72 val_main_v77 val_main_v82 val_main_v84 val_main_v110)

/-- A 64-vector laid out as one row: the reshape and the broadcast along a new leading axis are one array. -/
theorem row64 (x : (⟨1, ![64]⟩ : Shape).Idx → EReal) (h : (⟨1, ![64]⟩ : Shape).ShapeCasts ⟨2, ![1, 64]⟩)
    (hb : (⟨1, ![64]⟩ : Shape).BroadcastsInDim ⟨2, ![1, 64]⟩ ![1]) :
    shapeCast (⟨2, ![1, 64]⟩ : Shape) x h = broadcastInDim (⟨2, ![1, 64]⟩ : Shape) ![1] hb x := by
  funext i
  obtain ⟨p, q, rfl⟩ : ∃ (p : Fin 1) (q : Fin 64), i = ix2 p q := ⟨i 0, i 1, eq_ix2 i⟩
  rw [shapeCast_apply x h (ix2 p q) (ix1 q) (by
        rw [Shape.rowMajor_val_one, Shape.rowMajor_val_two]
        show q.val = p.val * 64 + q.val
        have := p.isLt
        omega),
      broadcastInDim_apply _ hb x (ix2 p q) (ix1 q) (fun a => by
        match a with
        | ⟨0, _⟩ => show q.val = if (64 : Nat) = 1 then 0 else q.val; rw [if_neg (by decide)])]

variable (m : (ℓ : Loc nD τ sig) → Buf (Elt Ideal) ℓ) (ρ : Dev nD → PrngReg) (c : Dev nD)

/-! ### The first stretch: the index vectors, the gathered source rows, the first bias as a row -/

theorem W1_v10 : W1 m ρ c (Proc.devRef .tc main_v10) = val_main_v10 (F := Ideal) (m ((c : Thread nD τ).loc main_arg0)) (m ((c : Thread nD τ).loc main_arg1)) := by
  show StableHlo.after hostOps0 (W0 m ρ c) (Proc.devRef .tc main_v10) = _
  after_results
  rfl

theorem W1_v1 : W1 m ρ c (Proc.devRef .tc main_v1) = val_main_v1 (F := Ideal) (m ((c : Thread nD τ).loc main_arg1)) := by
  show StableHlo.after hostOps0 (W0 m ρ c) (Proc.devRef .tc main_v1) = _
  after_results
  rfl

theorem W1_v3 : W1 m ρ c (Proc.devRef .tc main_v3) = val_main_v3 (F := Ideal) (m ((c : Thread nD τ).loc main_arg1)) := by
  show StableHlo.after hostOps0 (W0 m ρ c) (Proc.devRef .tc main_v3) = _
  after_results
  rfl

theorem W1_v11 : W1 m ρ c (Proc.devRef .tc main_v11) = val_main_v13 (F := Ideal) (m ((c : Thread nD τ).loc main_arg4)) := by
  show StableHlo.after hostOps0 (W0 m ρ c) (Proc.devRef .tc main_v11) = _
  after_results
  exact row64 _ _ _

/-! ### Region 0, the scatter-add, region 1 -/

theorem W2_v12 : W2 m ρ c (Proc.devRef .tc main_v12) = val_main_v16 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W2_arr m ρ c 4).trans ((Cert.KernelIdeal.Stage0.value0 (V1 m ρ) c).trans ?_)
  show msgArr (W1 m ρ c (Proc.devRef .tc main_v10)) (W1 m ρ c (Proc.devRef .tc main_arg2)) (W1 m ρ c (Proc.devRef .tc main_arg3)) (W1 m ρ c (Proc.devRef .tc main_v11)) = _
  rw [W1_v10, W1_v11, Keep.main_arg2_at1, Keep.main_arg3_at1, ref_msg]

theorem W3_v15 : W3 m ρ c (Proc.devRef .tc main_v15) = val_main_v19 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 (W2 m ρ c) (Proc.devRef .tc main_v15) = _
  after_results
  rw [W2_v12, Keep.main_v3_at2, W1_v3]
  rfl

theorem W3_v16 : W3 m ρ c (Proc.devRef .tc main_v16) = val_main_v22 (F := Ideal) (m ((c : Thread nD τ).loc main_arg6)) := by
  show StableHlo.after hostOps1 (W2 m ρ c) (Proc.devRef .tc main_v16) = _
  after_results
  rw [Keep.main_arg6_at2]
  exact row64 _ _ _

theorem W3_v17 : W3 m ρ c (Proc.devRef .tc main_v17) = val_main_v27 (F := Ideal) (m ((c : Thread nD τ).loc main_arg8)) := by
  show StableHlo.after hostOps1 (W2 m ρ c) (Proc.devRef .tc main_v17) = _
  after_results
  rw [Keep.main_arg8_at2]
  exact row64 _ _ _

theorem W4_v18_0 : W4 m ρ c (Proc.devRef .tc main_v18_0) = val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W4_arr m ρ c 6).trans ((Cert.KernelIdeal.Stage1.value1_pre (V3 m ρ) c).trans ?_)
  show preArr (W3 m ρ c (Proc.devRef .tc main_arg0)) (W3 m ρ c (Proc.devRef .tc main_v15)) (W3 m ρ c (Proc.devRef .tc main_arg5)) (W3 m ρ c (Proc.devRef .tc main_v16))
      (W3 m ρ c (Proc.devRef .tc main_arg7)) (W3 m ρ c (Proc.devRef .tc main_v17)) = _
  rw [W3_v15, W3_v16, W3_v17, Keep.main_arg0_at3, Keep.main_arg5_at3, Keep.main_arg7_at3, ref_pre]

theorem W4_v18_1 : W4 m ρ c (Proc.devRef .tc main_v18_1)
    = nodeStatArr (m ((c : Thread nD τ).loc main_arg0)) (val_main_v19 (F := Ideal) (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)) (val_main_v22 (F := Ideal) (m ((c : Thread nD τ).loc main_arg6))) (m ((c : Thread nD τ).loc main_arg7)) (val_main_v27 (F := Ideal) (m ((c : Thread nD τ).loc main_arg8))) := by
  refine (W4_arr m ρ c 7).trans ((Cert.KernelIdeal.Stage1.value1_stat (V3 m ρ) c).trans ?_)
  show nodeStatArr (W3 m ρ c (Proc.devRef .tc main_arg0)) (W3 m ρ c (Proc.devRef .tc main_v15)) (W3 m ρ c (Proc.devRef .tc main_arg5)) (W3 m ρ c (Proc.devRef .tc main_v16))
      (W3 m ρ c (Proc.devRef .tc main_arg7)) (W3 m ρ c (Proc.devRef .tc main_v17)) = _
  rw [W3_v15, W3_v16, W3_v17, Keep.main_arg0_at3, Keep.main_arg5_at3, Keep.main_arg7_at3]

/-! ### The node normalisation -/

theorem W6_v42 : W6 m ρ c (Proc.devRef .tc main_v42)
    = shapeCast S25000x128
        (bnFull (W4 m ρ c (Proc.devRef .tc main_v18_0)) (meanAt (B := 10) (W4 m ρ c (Proc.devRef .tc main_v18_1)) (Ideal.ofBits .f32 0x47435000#32))
          (varAt (B := 10) (W4 m ρ c (Proc.devRef .tc main_v18_1)) (Ideal.ofBits .f32 0x47435000#32))
          (fun j => W4 m ρ c (Proc.devRef .tc main_arg9) (ix1 j)) (fun j => W4 m ρ c (Proc.devRef .tc main_arg10) (ix1 j)))
        shapeCasts_S50000x64_S25000x128 :=
  (W6_arr m ρ c 5).trans ((Cert.KernelIdeal.Stage24.value2 (V5 m ρ) c).trans (Cert.KernelIdeal.Stretch24.stretch2 (W4 m ρ c)))

section NodeOut
variable (hfinN : ∀ (n : Fin 50000) (j : Fin 64), ∃ r : ℝ, preAt (m ((c : Thread nD τ).loc main_arg0)) (val_main_v19 (F := Ideal) (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)) (val_main_v22 (F := Ideal) (m ((c : Thread nD τ).loc main_arg6))) (m ((c : Thread nD τ).loc main_arg7)) (val_main_v27 (F := Ideal) (m ((c : Thread nD τ).loc main_arg8))) n j = (r : EReal))
include hfinN

/-- The normalised node matrix, in its own layout, is the reference's. -/
theorem node_out :
    bnFull (W4 m ρ c (Proc.devRef .tc main_v18_0)) (meanAt (B := 10) (W4 m ρ c (Proc.devRef .tc main_v18_1)) (Ideal.ofBits .f32 0x47435000#32))
        (varAt (B := 10) (W4 m ρ c (Proc.devRef .tc main_v18_1)) (Ideal.ofBits .f32 0x47435000#32))
        (fun j => W4 m ρ c (Proc.devRef .tc main_arg9) (ix1 j)) (fun j => W4 m ρ c (Proc.devRef .tc main_arg10) (ix1 j))
      = val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [W4_v18_0, W4_v18_1, Keep.main_arg9_at4, Keep.main_arg10_at4, ref_norm, ref_pre]
  exact Cert.Stats.node_bridge _ _ _ _ _ _ _ _ hfinN

theorem W7_v43 : W7 m ρ c (Proc.devRef .tc main_v43) = val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  show StableHlo.after hostOps3 (W6 m ρ c) (Proc.devRef .tc main_v43) = _
  after_results
  rw [W6_v42]
  show shapeCast S50000x64 (shapeCast S25000x128 _ shapeCasts_S50000x64_S25000x128) shapeCasts_S25000x128_S50000x64 = _
  rw [shapeCast_shapeCast]
  exact node_out m ρ c hfinN

end NodeOut

/-! ### The edge half: the two gathers of the normalised nodes, the weight's three row blocks, the biases as rows -/

/-- Sixty-four rows of the 192-row weight from row `off`, as the slice the program takes. -/
theorem slice_rows (off : Nat) (h : off + 64 ≤ 192) (x : Arr2 192 64)
    (hs : (⟨2, ![192, 64]⟩ : Shape).Slices ![off, 0] ⟨2, ![64, 64]⟩) :
    extractStridedSlice (⟨2, ![64, 64]⟩ : Shape) ![off, 0] x hs = rows off h x := by
  funext i
  obtain ⟨p, q, rfl⟩ : ∃ (p : Fin 64) (q : Fin 64), i = ix2 p q := ⟨i 0, i 1, eq_ix2 i⟩
  exact extractStridedSlice_apply ![off, 0] x hs (ix2 p q) (ix2 ⟨off + p.val, by omega⟩ q) (fun a => by
    match a with
    | ⟨0, _⟩ => rfl
    | ⟨1, _⟩ => show q.val = 0 + q.val; omega)

section EdgeHalf
variable (hfinN : ∀ (n : Fin 50000) (j : Fin 64), ∃ r : ℝ, preAt (m ((c : Thread nD τ).loc main_arg0)) (val_main_v19 (F := Ideal) (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)) (val_main_v22 (F := Ideal) (m ((c : Thread nD τ).loc main_arg6))) (m ((c : Thread nD τ).loc main_arg7)) (val_main_v27 (F := Ideal) (m ((c : Thread nD τ).loc main_arg8))) n j = (r : EReal))
include hfinN

set_option maxHeartbeats 4000000 in
theorem W7_v50 : W7 m ρ c (Proc.devRef .tc main_v50) = val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  show StableHlo.after hostOps3 (W6 m ρ c) (Proc.devRef .tc main_v50) = _
  after_results
  rw [W6_v42, Keep.main_v1_at6, W1_v1]
  show Host.gather _ (shapeCast S50000x64 (shapeCast S25000x128 _ shapeCasts_S50000x64_S25000x128) shapeCasts_S25000x128_S50000x64) _ = _
  rw [shapeCast_shapeCast, node_out m ρ c hfinN]
  rfl

set_option maxHeartbeats 4000000 in
theorem W7_v57 : W7 m ρ c (Proc.devRef .tc main_v57) = val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  show StableHlo.after hostOps3 (W6 m ρ c) (Proc.devRef .tc main_v57) = _
  after_results
  rw [W6_v42, Keep.main_v3_at6, W1_v3]
  show Host.gather _ (shapeCast S50000x64 (shapeCast S25000x128 _ shapeCasts_S50000x64_S25000x128) shapeCasts_S25000x128_S50000x64) _ = _
  rw [shapeCast_shapeCast, node_out m ρ c hfinN]
  rfl

omit hfinN

theorem W7_v58 : W7 m ρ c (Proc.devRef .tc main_v58) = rows 0 (by omega) (m ((c : Thread nD τ).loc main_arg11)) := by
  show StableHlo.after hostOps3 (W6 m ρ c) (Proc.devRef .tc main_v58) = _
  after_results
  rw [Keep.main_arg11_at6]
  exact slice_rows 0 (by omega) _ _

theorem W7_v59 : W7 m ρ c (Proc.devRef .tc main_v59) = rows 64 (by omega) (m ((c : Thread nD τ).loc main_arg11)) := by
  show StableHlo.after hostOps3 (W6 m ρ c) (Proc.devRef .tc main_v59) = _
  after_results
  rw [Keep.main_arg11_at6]
  exact slice_rows 64 (by omega) _ _

theorem W7_v60 : W7 m ρ c (Proc.devRef .tc main_v60) = rows 128 (by omega) (m ((c : Thread nD τ).loc main_arg11)) := by
  show StableHlo.after hostOps3 (W6 m ρ c) (Proc.devRef .tc main_v60) = _
  after_results
  rw [Keep.main_arg11_at6]
  exact slice_rows 128 (by omega) _ _

theorem W7_v61 : W7 m ρ c (Proc.devRef .tc main_v61) = val_main_v72 (F := Ideal) (m ((c : Thread nD τ).loc main_arg12)) := by
  show StableHlo.after hostOps3 (W6 m ρ c) (Proc.devRef .tc main_v61) = _
  after_results
  rw [Keep.main_arg12_at6]
  exact row64 _ _ _

theorem W7_v62 : W7 m ρ c (Proc.devRef .tc main_v62) = val_main_v77 (F := Ideal) (m ((c : Thread nD τ).loc main_arg14)) := by
  show StableHlo.after hostOps3 (W6 m ρ c) (Proc.devRef .tc main_v62) = _
  after_results
  rw [Keep.main_arg14_at6]
  exact row64 _ _ _

theorem W7_v63 : W7 m ρ c (Proc.devRef .tc main_v63) = val_main_v82 (F := Ideal) (m ((c : Thread nD τ).loc main_arg16)) := by
  show StableHlo.after hostOps3 (W6 m ρ c) (Proc.devRef .tc main_v63) = _
  after_results
  rw [Keep.main_arg16_at6]
  exact row64 _ _ _

include hfinN

theorem W8_v64_0 : W8 m ρ c (Proc.devRef .tc main_v64_0) = val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine (W8_arr m ρ c 11).trans ((Cert.KernelIdeal.Stage3.value3_pre (V7 m ρ) c).trans ?_)
  show epreArr (W7 m ρ c (Proc.devRef .tc main_v50)) (W7 m ρ c (Proc.devRef .tc main_v57)) (W7 m ρ c (Proc.devRef .tc main_arg2)) (W7 m ρ c (Proc.devRef .tc main_v58)) (W7 m ρ c (Proc.devRef .tc main_v59)) (W7 m ρ c (Proc.devRef .tc main_v60)) (W7 m ρ c (Proc.devRef .tc main_v61)) (W7 m ρ c (Proc.devRef .tc main_arg13)) (W7 m ρ c (Proc.devRef .tc main_v62)) (W7 m ρ c (Proc.devRef .tc main_arg15)) (W7 m ρ c (Proc.devRef .tc main_v63)) = _
  rw [W7_v50 m ρ c hfinN, W7_v57 m ρ c hfinN, W7_v58, W7_v59, W7_v60, W7_v61, W7_v62, W7_v63,
    Keep.main_arg2_at7, Keep.main_arg13_at7, Keep.main_arg15_at7, ref_epre]

theorem W8_v64_1 : W8 m ρ c (Proc.devRef .tc main_v64_1) = edgeStatArr (val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (m ((c : Thread nD τ).loc main_arg2)) (rows 0 (by omega) (m ((c : Thread nD τ).loc main_arg11))) (rows 64 (by omega) (m ((c : Thread nD τ).loc main_arg11))) (rows 128 (by omega) (m ((c : Thread nD τ).loc main_arg11))) (val_main_v72 (F := Ideal) (m ((c : Thread nD τ).loc main_arg12))) (m ((c : Thread nD τ).loc main_arg13)) (val_main_v77 (F := Ideal) (m ((c : Thread nD τ).loc main_arg14))) (m ((c : Thread nD τ).loc main_arg15)) (val_main_v82 (F := Ideal) (m ((c : Thread nD τ).loc main_arg16))) := by
  refine (W8_arr m ρ c 12).trans ((Cert.KernelIdeal.Stage3.value3_stat (V7 m ρ) c).trans ?_)
  show edgeStatArr (W7 m ρ c (Proc.devRef .tc main_v50)) (W7 m ρ c (Proc.devRef .tc main_v57)) (W7 m ρ c (Proc.devRef .tc main_arg2)) (W7 m ρ c (Proc.devRef .tc main_v58)) (W7 m ρ c (Proc.devRef .tc main_v59)) (W7 m ρ c (Proc.devRef .tc main_v60)) (W7 m ρ c (Proc.devRef .tc main_v61)) (W7 m ρ c (Proc.devRef .tc main_arg13)) (W7 m ρ c (Proc.devRef .tc main_v62)) (W7 m ρ c (Proc.devRef .tc main_arg15)) (W7 m ρ c (Proc.devRef .tc main_v63)) = _
  rw [W7_v50 m ρ c hfinN, W7_v57 m ρ c hfinN, W7_v58, W7_v59, W7_v60, W7_v61, W7_v62, W7_v63,
    Keep.main_arg2_at7, Keep.main_arg13_at7, Keep.main_arg15_at7]

omit hfinN in
theorem W10_v88 : W10 m ρ c (Proc.devRef .tc main_v88)
    = shapeCast S400000x128
        (bnFull (W8 m ρ c (Proc.devRef .tc main_v64_0)) (meanAt (B := 200) (W8 m ρ c (Proc.devRef .tc main_v64_1)) (Ideal.ofBits .f32 0x49435000#32))
          (varAt (B := 200) (W8 m ρ c (Proc.devRef .tc main_v64_1)) (Ideal.ofBits .f32 0x49435000#32))
          (fun j => W8 m ρ c (Proc.devRef .tc main_arg17) (ix1 j)) (fun j => W8 m ρ c (Proc.devRef .tc main_arg18) (ix1 j)))
        shapeCasts_S800000x64_S400000x128 :=
  (W10_arr m ρ c 5).trans ((Cert.KernelIdeal.Stage24.value4 (V9 m ρ) c).trans (Cert.KernelIdeal.Stretch24.stretch4 (W8 m ρ c)))

variable (hfinE : ∀ (e : Fin 800000) (j : Fin 64), ∃ r : ℝ, epreAt (val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (m ((c : Thread nD τ).loc main_arg2)) (rows 0 (by omega) (m ((c : Thread nD τ).loc main_arg11))) (rows 64 (by omega) (m ((c : Thread nD τ).loc main_arg11))) (rows 128 (by omega) (m ((c : Thread nD τ).loc main_arg11))) (val_main_v72 (F := Ideal) (m ((c : Thread nD τ).loc main_arg12))) (m ((c : Thread nD τ).loc main_arg13)) (val_main_v77 (F := Ideal) (m ((c : Thread nD τ).loc main_arg14))) (m ((c : Thread nD τ).loc main_arg15)) (val_main_v82 (F := Ideal) (m ((c : Thread nD τ).loc main_arg16))) e j = (r : EReal))
include hfinE

theorem edge_out :
    bnFull (W8 m ρ c (Proc.devRef .tc main_v64_0)) (meanAt (B := 200) (W8 m ρ c (Proc.devRef .tc main_v64_1)) (Ideal.ofBits .f32 0x49435000#32))
        (varAt (B := 200) (W8 m ρ c (Proc.devRef .tc main_v64_1)) (Ideal.ofBits .f32 0x49435000#32))
        (fun j => W8 m ρ c (Proc.devRef .tc main_arg17) (ix1 j)) (fun j => W8 m ρ c (Proc.devRef .tc main_arg18) (ix1 j))
      = val_main_v110 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  rw [W8_v64_0 m ρ c hfinN, W8_v64_1 m ρ c hfinN, Keep.main_arg17_at8, Keep.main_arg18_at8, ref_enorm, ref_epre]
  exact Cert.Stats.edge_bridge _ _ _ _ _ _ _ _ _ _ _ _ _ hfinE

/-- The second result: the normalised edge matrix. -/
theorem W11_v89 : W11 m ρ c (Proc.devRef .tc main_v89) = val_main_v110 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  show StableHlo.after hostOps5 (W10 m ρ c) (Proc.devRef .tc main_v89) = _
  after_results
  rw [W10_v88]
  show shapeCast S800000x64 (shapeCast S400000x128 _ shapeCasts_S800000x64_S400000x128) shapeCasts_S400000x128_S800000x64 = _
  rw [shapeCast_shapeCast]
  exact edge_out m ρ c hfinN hfinE

omit hfinE in
/-- The first result: the normalised node matrix, untouched since it was written. -/
theorem W11_v43 : W11 m ρ c (Proc.devRef .tc main_v43) = val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (Keep.main_v43_at11 m ρ c).trans (W7_v43 m ρ c hfinN)

end EdgeHalf

end Cert.KernelIdeal.Chain

end
-- ==== Proof.FiniteInputs.lean ====
/-
  The precondition, decoded: the printed predicate takes, for each of the eighteen real-valued
  arguments, the absolute value of every entry, compares it (ordered less-than) with plus infinity,
  and conjoins all the comparisons. When the predicate answers 1, every entry of every one of those
  arrays is therefore a real number: an extended real whose absolute value max x (-x) lies below the
  top element is neither infinity.
-/
import proofs.«158963_j17583596109847_2_alg».proof.Pre_finite_inputs
import proofs.«158963_j17583596109847_2_alg».proof.Proof.Gen.Pre_finite_inputs
import proofs.«158963_j17583596109847_2_alg».proof.Proof.LibERealCoe
import Idealize.ShloMosaic.Lib.ReduceAll
import Idealize.ShloMosaic.Lib.ValueIdx
import Idealize.ShloMosaic.PureOps.Ideal.Laws

namespace Cert.FiniteInputs

open Idealize.ShloMosaic
open Cert.Pre_finite_inputs
open Cert.Lib.ERealCoe

/-- The rank-0 shape has one index. -/
instance : Subsingleton S_.Idx := ⟨fun a b => funext fun d => d.elim0⟩

/-- An extended real whose absolute value lies below plus infinity is a real number. -/
theorem exists_real_of_abs_lt_top (x : EReal) (h : max x (-x) < ⊤) : ∃ r : ℝ, x = (r : EReal) := by
  refine exists_real_of_ne ?_ ?_
  · rintro rfl
    simp at h
  · rintro rfl
    simp at h

/-- One entry: when the comparison |x| < +inf answers 1, x is a real number. -/
theorem exists_real_of_cmp (x : Ideal .f32)
    (h : FloatOps.cmpf .olt (FloatOps.hostAbsf x) (FloatOps.ofBits (F := Ideal) .f32 0x7F800000#32) = 1#1) :
    ∃ r : ℝ, (x : EReal) = (r : EReal) := by
  have h' : Ideal.cmp .olt (max (x : EReal) (-(x : EReal))) (Ideal.ofBits .f32 0x7F800000#32) = 1#1 := h
  rw [ofBits_pos_inf_f32] at h'
  unfold Ideal.cmp at h'
  refine exists_real_of_abs_lt_top x ?_
  by_contra hn
  simp [hn] at h'

/-- One array: when the and-reduction over all axes of the comparisons |x i| < +inf, started from 1,
    answers 1, every entry of x is a real number. -/
theorem isFin_of_all {s : Shape} {axes : List (Fin s.rank)} (x : FVec Ideal s .f32)
    (dims : Fin S_.rank → Fin s.rank) (hb : S_.BroadcastsInDim s dims) (hr : s.ReducesTo axes S_)
    (hu : 0 < S_.numel)
    (e : Host.reduce IntOp.andi
          (cmpf .olt (Host.absf x) (broadcastInDim s dims hb (constant (F := Ideal) S_ .f32 0x7F800000#32)))
          (constantI S_ 1 1#1) hr hu ValueIdx.ix0 = 1#1) : IsFin x := by
  intro i
  exact exists_real_of_cmp (x i) (Host.reduce_andi_all _ _ hr hu _ e i)

variable [Cert.Pre_finite_inputs.Facts]

theorem finite_of_pre
    {x0 : FVec Ideal S50000x64 .f32} {x1 : IVec S2x800000 32} {x2 : FVec Ideal S800000x64 .f32}
    {x3 : FVec Ideal S64x64 .f32} {x4 : FVec Ideal S64 .f32} {x5 : FVec Ideal S64x64 .f32}
    {x6 : FVec Ideal S64 .f32} {x7 : FVec Ideal S64x64 .f32} {x8 : FVec Ideal S64 .f32}
    {x9 : FVec Ideal S64 .f32} {x10 : FVec Ideal S64 .f32} {x11 : FVec Ideal S192x64 .f32}
    {x12 : FVec Ideal S64 .f32} {x13 : FVec Ideal S64x64 .f32} {x14 : FVec Ideal S64 .f32}
    {x15 : FVec Ideal S64x64 .f32} {x16 : FVec Ideal S64 .f32} {x17 : FVec Ideal S64 .f32}
    {x18 : FVec Ideal S64 .f32}
    (h : Cert.Pre_finite_inputs.fn (F := Ideal) x0 x1 x2 x3 x4 x5 x6 x7 x8 x9 x10 x11 x12 x13 x14 x15 x16 x17 x18
          = fun _ => 1#1) :
    IsFin x0 ∧ IsFin x2 ∧ IsFin x3 ∧ IsFin x4 ∧ IsFin x5 ∧ IsFin x6 ∧ IsFin x7 ∧ IsFin x8 ∧ IsFin x9 ∧ IsFin x10 ∧ IsFin x11 ∧ IsFin x12 ∧ IsFin x13 ∧ IsFin x14 ∧ IsFin x15 ∧ IsFin x16 ∧ IsFin x17 ∧ IsFin x18 := by
  have h0 := congrFun h ValueIdx.ix0
  dsimp only [fn, fn_part1, fn_part2, fn_part3, fn_part4, fn_part5, andi] at h0
  simp only [IntOp.andi_eq_one] at h0
  obtain ⟨⟨⟨⟨⟨⟨⟨⟨⟨⟨⟨⟨⟨⟨⟨⟨⟨e0, e2⟩, e3⟩, e4⟩, e5⟩, e6⟩, e7⟩, e8⟩, e9⟩, e10⟩, e11⟩, e12⟩, e13⟩, e14⟩, e15⟩, e16⟩, e17⟩, e18⟩ := h0
  exact ⟨isFin_of_all _ _ _ _ _ e0, isFin_of_all _ _ _ _ _ e2, isFin_of_all _ _ _ _ _ e3,
    isFin_of_all _ _ _ _ _ e4, isFin_of_all _ _ _ _ _ e5, isFin_of_all _ _ _ _ _ e6,
    isFin_of_all _ _ _ _ _ e7, isFin_of_all _ _ _ _ _ e8, isFin_of_all _ _ _ _ _ e9,
    isFin_of_all _ _ _ _ _ e10, isFin_of_all _ _ _ _ _ e11, isFin_of_all _ _ _ _ _ e12,
    isFin_of_all _ _ _ _ _ e13, isFin_of_all _ _ _ _ _ e14, isFin_of_all _ _ _ _ _ e15,
    isFin_of_all _ _ _ _ _ e16, isFin_of_all _ _ _ _ _ e17, isFin_of_all _ _ _ _ _ e18⟩

end Cert.FiniteInputs
-- ==== Proof.Finite.lean ====
/-
  Finiteness carried through the stages of the specification: when every entry of every operand is a
  real number, so is every entry of the message, of the two multi-layer products, of a gathered or
  scatter-added array, of the column statistics and of the normalised matrix. The finite extended
  reals are closed under sums, products, differences, clipping at zero, division by a nonzero real and
  the reciprocal square root of a positive real; each stage is a composition of these.
-/
import proofs.«158963_j17583596109847_2_alg».proof.Proof.Spec
import proofs.«158963_j17583596109847_2_alg».proof.Proof.LibERealCoe
import proofs.«158963_j17583596109847_2_alg».proof.Proof.Algebra
import proofs.«158963_j17583596109847_2_alg».proof.Proof.RefStages
import Idealize.ShloMosaic.PureOps.Ideal.Laws

namespace Cert.Finite

open Cert.Spec Cert.Lib.ERealCoe Cert.Algebra Idealize.ShloMosaic Idealize.ShloMosaic.ValueIdx
open Cert.ReferenceIdeal.Stages
open scoped BigOperators

/-! ### The message -/

/-- A row of finite entries against a column of finite entries is finite. -/
theorem exists_real_rowDot {R K : Nat} {x : Arr2 R K} {w : Arr2 K 64} (hx : IsFin x) (hw : IsFin w)
    (e : Fin R) (j : Fin 64) : ∃ r : ℝ, rowDot x w e j = (r : EReal) :=
  exists_real_sum _ fun k _ => exists_real_mul (hx (ix2 e k)) (hw (ix2 k j))

/-- Every entry of the message is finite. -/
theorem exists_real_msgAt {xs ef : Arr2 800000 64} {w : Arr2 64 64} {b : Arr2 1 64}
    (hxs : IsFin xs) (hef : IsFin ef) (hw : IsFin w) (hb : IsFin b) (e : Fin 800000) (j : Fin 64) :
    ∃ r : ℝ, msgAt xs ef w b e j = (r : EReal) :=
  exists_real_max_zero
    (exists_real_add (exists_real_add (hxs (ix2 e j)) (exists_real_rowDot hef hw e j)) (hb (ix2 0 j)))

theorem isFin_msgArr {xs ef : Arr2 800000 64} {w : Arr2 64 64} {b : Arr2 1 64}
    (hxs : IsFin xs) (hef : IsFin ef) (hw : IsFin w) (hb : IsFin b) : IsFin (msgArr xs ef w b) :=
  fun i => exists_real_msgAt hxs hef hw hb (i 0) (i 1)

/-! ### The node product -/

/-- Every entry of the hidden layer is finite. -/
theorem exists_real_hidAt {em ag : Arr2 50000 64} {w1 : Arr2 64 64} {b1 : Arr2 1 64}
    (hem : IsFin em) (hag : IsFin ag) (hw1 : IsFin w1) (hb1 : IsFin b1) (n : Fin 50000) (k : Fin 64) :
    ∃ r : ℝ, hidAt em ag w1 b1 n k = (r : EReal) :=
  exists_real_max_zero
    (exists_real_add
      (exists_real_sum _ fun q _ =>
        exists_real_mul (exists_real_add (hem (ix2 n q)) (hag (ix2 n q))) (hw1 (ix2 q k)))
      (hb1 (ix2 0 k)))

/-- Every entry of the node product, in coordinates, is finite. -/
theorem exists_real_preAt {em ag : Arr2 50000 64} {w1 : Arr2 64 64} {b1 : Arr2 1 64} {w2 : Arr2 64 64}
    {b2 : Arr2 1 64} (hem : IsFin em) (hag : IsFin ag) (hw1 : IsFin w1) (hb1 : IsFin b1) (hw2 : IsFin w2)
    (hb2 : IsFin b2) (n : Fin 50000) (j : Fin 64) :
    ∃ r : ℝ, preAt em ag w1 b1 w2 b2 n j = (r : EReal) :=
  exists_real_add
    (exists_real_sum _ fun k _ => exists_real_mul (exists_real_hidAt hem hag hw1 hb1 n k) (hw2 (ix2 k j)))
    (hb2 (ix2 0 j))

theorem isFin_preArr {em ag : Arr2 50000 64} {w1 : Arr2 64 64} {b1 : Arr2 1 64} {w2 : Arr2 64 64}
    {b2 : Arr2 1 64} (hem : IsFin em) (hag : IsFin ag) (hw1 : IsFin w1) (hb1 : IsFin b1) (hw2 : IsFin w2)
    (hb2 : IsFin b2) : IsFin (preArr em ag w1 b1 w2 b2) :=
  fun i => exists_real_preAt hem hag hw1 hb1 hw2 hb2 (i 0) (i 1)

/-! ### The edge product -/

/-- Every entry of the edge product's first layer is finite. -/
theorem exists_real_e1At {xs xd ef : Arr2 800000 64} {wa wb wc : Arr2 64 64} {b1 : Arr2 1 64}
    (hxs : IsFin xs) (hxd : IsFin xd) (hef : IsFin ef) (hwa : IsFin wa) (hwb : IsFin wb) (hwc : IsFin wc)
    (hb1 : IsFin b1) (e : Fin 800000) (k : Fin 64) :
    ∃ r : ℝ, e1At xs xd ef wa wb wc b1 e k = (r : EReal) :=
  exists_real_max_zero
    (exists_real_add
      (exists_real_add
        (exists_real_add (exists_real_rowDot hxs hwa e k) (exists_real_rowDot hxd hwb e k))
        (exists_real_rowDot hef hwc e k))
      (hb1 (ix2 0 k)))

/-- Every entry of the edge product's second layer is finite. -/
theorem exists_real_e2At {xs xd ef : Arr2 800000 64} {wa wb wc : Arr2 64 64} {b1 : Arr2 1 64}
    {w2 : Arr2 64 64} {b2 : Arr2 1 64}
    (hxs : IsFin xs) (hxd : IsFin xd) (hef : IsFin ef) (hwa : IsFin wa) (hwb : IsFin wb) (hwc : IsFin wc)
    (hb1 : IsFin b1) (hw2 : IsFin w2) (hb2 : IsFin b2) (e : Fin 800000) (k : Fin 64) :
    ∃ r : ℝ, e2At xs xd ef wa wb wc b1 w2 b2 e k = (r : EReal) :=
  exists_real_max_zero
    (exists_real_add
      (exists_real_sum _ fun q _ =>
        exists_real_mul (exists_real_e1At hxs hxd hef hwa hwb hwc hb1 e q) (hw2 (ix2 q k)))
      (hb2 (ix2 0 k)))

/-- Every entry of the edge product, in coordinates, is finite. -/
theorem exists_real_epreAt {xs xd ef : Arr2 800000 64} {wa wb wc : Arr2 64 64} {b1 : Arr2 1 64}
    {w2 : Arr2 64 64} {b2 : Arr2 1 64} {w3 : Arr2 64 64} {b3 : Arr2 1 64}
    (hxs : IsFin xs) (hxd : IsFin xd) (hef : IsFin ef) (hwa : IsFin wa) (hwb : IsFin wb) (hwc : IsFin wc)
    (hb1 : IsFin b1) (hw2 : IsFin w2) (hb2 : IsFin b2) (hw3 : IsFin w3) (hb3 : IsFin b3)
    (e : Fin 800000) (j : Fin 64) :
    ∃ r : ℝ, epreAt xs xd ef wa wb wc b1 w2 b2 w3 b3 e j = (r : EReal) :=
  exists_real_add
    (exists_real_sum _ fun k _ =>
      exists_real_mul (exists_real_e2At hxs hxd hef hwa hwb hwc hb1 hw2 hb2 e k) (hw3 (ix2 k j)))
    (hb3 (ix2 0 j))

theorem isFin_epreArr {xs xd ef : Arr2 800000 64} {wa wb wc : Arr2 64 64} {b1 : Arr2 1 64}
    {w2 : Arr2 64 64} {b2 : Arr2 1 64} {w3 : Arr2 64 64} {b3 : Arr2 1 64}
    (hxs : IsFin xs) (hxd : IsFin xd) (hef : IsFin ef) (hwa : IsFin wa) (hwb : IsFin wb) (hwc : IsFin wc)
    (hb1 : IsFin b1) (hw2 : IsFin w2) (hb2 : IsFin b2) (hw3 : IsFin w3) (hb3 : IsFin b3) :
    IsFin (epreArr xs xd ef wa wb wc b1 w2 b2 w3 b3) :=
  fun i => exists_real_epreAt hxs hxd hef hwa hwb hwc hb1 hw2 hb2 hw3 hb3 (i 0) (i 1)

/-! ### Re-indexings and the accumulating scatter -/

/-- A gather reads entries of its operand, so it keeps finiteness. -/
theorem isFin_gather {s si t : Shape} {w : Nat} (d : GatherDims s si t) {x : s.Idx → EReal}
    (idx : IVec si w) (hx : IsFin x) : IsFin (Host.gather d x idx) :=
  fun j => hx (d.operandIdx j idx)

/-- A broadcast reads entries of its operand, so it keeps finiteness. -/
theorem isFin_broadcastInDim {s t : Shape} (dims : Fin s.rank → Fin t.rank) (h : s.BroadcastsInDim t dims)
    {x : s.Idx → EReal} (hx : IsFin x) : IsFin (broadcastInDim t dims h x) := by
  intro j
  unfold broadcastInDim
  exact hx _

/-- The constant array of the f32 pattern of zero, broadcast to any shape, is finite. -/
theorem isFin_broadcast_zero {s t : Shape} (dims : Fin s.rank → Fin t.rank) (h : s.BroadcastsInDim t dims) :
    IsFin (broadcastInDim t dims h (constant (F := Ideal) s .f32 0x00000000#32)) :=
  isFin_broadcastInDim dims h fun _ => ⟨0, ofBits_zero_f32⟩

/-- The accumulating scatter adds to each entry of its operand a finite sum of update entries, so it
    keeps finiteness. -/
theorem isFin_scatterAdd {s si u : Shape} {w : Nat} {φ : FTy} (d : ScatterDims s si u) {x : FVec Ideal s φ}
    (idx : IVec si w) {upd : FVec Ideal u φ} (hx : IsFin x) (hu : IsFin upd) :
    IsFin (Host.scatterAdd (F := Ideal) d x idx upd) := by
  intro i
  show ∃ r : ℝ, x i + ∑ j ∈ Finset.univ.filter (fun j => d.resultIdx? j idx = some i), upd j = (r : EReal)
  exact exists_real_add (hx i) (exists_real_sum _ fun j _ => hu j)

/-! ### The statistics -/

/-- The mean of a column of finite entries over a nonzero real count is finite. -/
theorem exists_real_refMean {R : Nat} {P : Arr2 R 64} (hP : IsFin P) {N : ℝ} (h0 : N ≠ 0) (j : Fin 64) :
    ∃ r : ℝ, refMean P (N : EReal) j = (r : EReal) :=
  exists_real_div (exists_real_sum _ fun n _ => hP (ix2 n j)) h0

/-- The variance of a column of finite entries, the count being the number of rows, is a non-negative
    real: the mean of the squared deviations of real numbers. -/
theorem exists_real_refVar {R : Nat} {P : Arr2 R 64} (hP : IsFin P) {N : ℝ} (hN : N = (R : ℝ)) (h0 : N ≠ 0)
    (j : Fin 64) : ∃ v : ℝ, 0 ≤ v ∧ refVar P (N : EReal) j = (v : EReal) := by
  obtain ⟨F, rfl⟩ := hP.exists_real
  exact var_ereal_real (fun n : Fin R => F (ix2 n j)) N (by rw [Fintype.card_fin]; exact hN) h0

/-- The node statistics: the count spelt as the f32 pattern of 50000. -/
theorem exists_real_refMean_nodes {P : Arr2 50000 64} (hP : IsFin P) (j : Fin 64) :
    ∃ r : ℝ, refMean P (Ideal.ofBits .f32 0x47435000#32) j = (r : EReal) := by
  rw [ofBits_50000]
  exact exists_real_refMean hP (by norm_num) j

theorem exists_real_refVar_nodes {P : Arr2 50000 64} (hP : IsFin P) (j : Fin 64) :
    ∃ v : ℝ, 0 ≤ v ∧ refVar P (Ideal.ofBits .f32 0x47435000#32) j = (v : EReal) := by
  rw [ofBits_50000]
  exact exists_real_refVar hP (by norm_num) (by norm_num) j

/-- The edge statistics: the count spelt as the f32 pattern of 800000. -/
theorem exists_real_refMean_edges {P : Arr2 800000 64} (hP : IsFin P) (j : Fin 64) :
    ∃ r : ℝ, refMean P (Ideal.ofBits .f32 0x49435000#32) j = (r : EReal) := by
  rw [ofBits_800000]
  exact exists_real_refMean hP (by norm_num) j

theorem exists_real_refVar_edges {P : Arr2 800000 64} (hP : IsFin P) (j : Fin 64) :
    ∃ v : ℝ, 0 ≤ v ∧ refVar P (Ideal.ofBits .f32 0x49435000#32) j = (v : EReal) := by
  rw [ofBits_800000]
  exact exists_real_refVar hP (by norm_num) (by norm_num) j

/-! ### The normalisation -/

/-- One normalised entry is finite when the entry, the mean, the scale and the shift are finite and
    the variance is a non-negative real: the variance plus ε is then a positive real. -/
theorem exists_real_bnS {h mu v g be : EReal} (hh : ∃ r : ℝ, h = (r : EReal)) (hmu : ∃ r : ℝ, mu = (r : EReal))
    (hv : ∃ r : ℝ, 0 ≤ r ∧ v = (r : EReal)) (hg : ∃ r : ℝ, g = (r : EReal)) (hbe : ∃ r : ℝ, be = (r : EReal)) :
    ∃ r : ℝ, bnS h mu v g be = (r : EReal) := by
  obtain ⟨e, he, hee⟩ := eps_pos
  obtain ⟨v', hv0, rfl⟩ := hv
  unfold bnS
  rw [hee]
  exact exists_real_max_zero
    (exists_real_add
      (exists_real_mul (exists_real_mul (exists_real_sub hh hmu) (exists_real_rsqrt hv0 he)) hg) hbe)

theorem isFin_bnFull {R : Nat} {P : Arr2 R 64} {mu var g be : Fin 64 → EReal} (hP : IsFin P)
    (hmu : ∀ j, ∃ r : ℝ, mu j = (r : EReal)) (hvar : ∀ j, ∃ v : ℝ, 0 ≤ v ∧ var j = (v : EReal))
    (hg : ∀ j, ∃ r : ℝ, g j = (r : EReal)) (hbe : ∀ j, ∃ r : ℝ, be j = (r : EReal)) :
    IsFin (bnFull P mu var g be) :=
  fun i => exists_real_bnS (hP i) (hmu (i 1)) (hvar (i 1)) (hg (i 1)) (hbe (i 1))

end Cert.Finite
-- ==== Proof.FinStages.lean ====
/-
  Finiteness of the reference's stage terms: when every entry of every real-valued argument is a real
  number, so is every entry of the message, of its scatter-added aggregate, of the node product and
  its normalisation, of the rows gathered from it, and of the edge product and its normalisation. Each
  stage is the specification's formula (the stage equations) over operands that are arguments, gathers,
  broadcasts or earlier stages, and the specification's formulas keep finiteness.
-/
import proofs.«158963_j17583596109847_2_alg».proof.Proof.Finite
import proofs.«158963_j17583596109847_2_alg».proof.Proof.RefStages
import proofs.«158963_j17583596109847_2_alg».proof.Proof.RefEdge
import proofs.«158963_j17583596109847_2_alg».proof.Proof.Gen.ReferenceIdeal.Read

namespace Cert.FinStages

open Cert.ReferenceIdeal Cert.ReferenceIdeal.Gen Cert.ReferenceIdeal.Read Cert.ReferenceIdeal.Stages
  Cert.ReferenceIdeal.StagesE Cert.Spec Cert.Lib.ERealCoe Cert.Finite Idealize.ShloMosaic
  Idealize.ShloMosaic.ValueIdx

/-! ### The operands that are re-indexings -/

/-- A row of 64 finite entries, seen as a 1×64 matrix, is finite. -/
theorem fin_bias {x : (⟨S64, .f32⟩ : BufTy).Contents (Elt Ideal)} (hx : IsFin x) :
    IsFin (broadcastInDim S1x64 ![1] bcast_S64_S1x64_1 x) :=
  isFin_broadcastInDim _ _ hx

/-- Sixty-four consecutive rows of a finite 192×64 matrix are finite. -/
theorem fin_rows (off : Nat) (h : off + 64 ≤ 192) {w : Arr2 192 64} (hw : IsFin w) : IsFin (rows off h w) := by
  intro i
  unfold rows rowsAt
  exact hw _

/-- The source rows gathered from the node features are finite. -/
theorem fin_v10 {x0 : (⟨S50000x64, .f32⟩ : BufTy).Contents (Elt Ideal)} (x1 : (⟨S2x800000, .i32⟩ : BufTy).Contents (Elt Ideal)) (h0 : IsFin x0) :
    IsFin (val_main_v10 (F := Ideal) x0 x1) := by
  unfold val_main_v10
  exact isFin_gather _ _ h0

/-- The zero array the aggregate starts from is finite. -/
theorem fin_v17 : IsFin (val_main_v17 (F := Ideal)) := by
  unfold val_main_v17 val_main_cst
  exact isFin_broadcast_zero _ _

/-! ### The message and its aggregate -/

theorem fin_v16 {x0 : (⟨S50000x64, .f32⟩ : BufTy).Contents (Elt Ideal)} {x2 : (⟨S800000x64, .f32⟩ : BufTy).Contents (Elt Ideal)} {x3 : (⟨S64x64, .f32⟩ : BufTy).Contents (Elt Ideal)} {x4 : (⟨S64, .f32⟩ : BufTy).Contents (Elt Ideal)} (x1 : (⟨S2x800000, .i32⟩ : BufTy).Contents (Elt Ideal)) (h0 : IsFin x0) (h2 : IsFin x2) (h3 : IsFin x3) (h4 : IsFin x4) :
    IsFin (val_main_v16 (F := Ideal) x0 x1 x2 x3 x4) := by
  rw [ref_msg]
  exact isFin_msgArr (fin_v10 x1 h0) h2 h3 (fin_bias h4)

theorem fin_v19 {x0 : (⟨S50000x64, .f32⟩ : BufTy).Contents (Elt Ideal)} {x2 : (⟨S800000x64, .f32⟩ : BufTy).Contents (Elt Ideal)} {x3 : (⟨S64x64, .f32⟩ : BufTy).Contents (Elt Ideal)} {x4 : (⟨S64, .f32⟩ : BufTy).Contents (Elt Ideal)} (x1 : (⟨S2x800000, .i32⟩ : BufTy).Contents (Elt Ideal)) (h0 : IsFin x0) (h2 : IsFin x2) (h3 : IsFin x3) (h4 : IsFin x4) :
    IsFin (val_main_v19 (F := Ideal) x0 x1 x2 x3 x4) := by
  unfold val_main_v19
  exact isFin_scatterAdd _ _ fin_v17 (fin_v16 x1 h0 h2 h3 h4)

/-! ### The node product and its normalisation -/

theorem fin_pre {x0 : (⟨S50000x64, .f32⟩ : BufTy).Contents (Elt Ideal)} {x2 : (⟨S800000x64, .f32⟩ : BufTy).Contents (Elt Ideal)} {x3 : (⟨S64x64, .f32⟩ : BufTy).Contents (Elt Ideal)} {x4 : (⟨S64, .f32⟩ : BufTy).Contents (Elt Ideal)} {x5 : (⟨S64x64, .f32⟩ : BufTy).Contents (Elt Ideal)} {x6 : (⟨S64, .f32⟩ : BufTy).Contents (Elt Ideal)} {x7 : (⟨S64x64, .f32⟩ : BufTy).Contents (Elt Ideal)} {x8 : (⟨S64, .f32⟩ : BufTy).Contents (Elt Ideal)} (x1 : (⟨S2x800000, .i32⟩ : BufTy).Contents (Elt Ideal)) (h0 : IsFin x0) (h2 : IsFin x2) (h3 : IsFin x3) (h4 : IsFin x4) (h5 : IsFin x5) (h6 : IsFin x6) (h7 : IsFin x7) (h8 : IsFin x8) :
    ∀ (n : Fin 50000) (j : Fin 64), ∃ r : ℝ, preAt x0 (val_main_v19 (F := Ideal) x0 x1 x2 x3 x4) x5 (val_main_v22 (F := Ideal) x6) x7 (val_main_v27 (F := Ideal) x8) n j = (r : EReal) :=
  fun n j => exists_real_preAt h0 (fin_v19 x1 h0 h2 h3 h4) h5 (fin_bias h6) h7 (fin_bias h8) n j

theorem fin_v29 {x0 : (⟨S50000x64, .f32⟩ : BufTy).Contents (Elt Ideal)} {x2 : (⟨S800000x64, .f32⟩ : BufTy).Contents (Elt Ideal)} {x3 : (⟨S64x64, .f32⟩ : BufTy).Contents (Elt Ideal)} {x4 : (⟨S64, .f32⟩ : BufTy).Contents (Elt Ideal)} {x5 : (⟨S64x64, .f32⟩ : BufTy).Contents (Elt Ideal)} {x6 : (⟨S64, .f32⟩ : BufTy).Contents (Elt Ideal)} {x7 : (⟨S64x64, .f32⟩ : BufTy).Contents (Elt Ideal)} {x8 : (⟨S64, .f32⟩ : BufTy).Contents (Elt Ideal)} (x1 : (⟨S2x800000, .i32⟩ : BufTy).Contents (Elt Ideal)) (h0 : IsFin x0) (h2 : IsFin x2) (h3 : IsFin x3) (h4 : IsFin x4) (h5 : IsFin x5) (h6 : IsFin x6) (h7 : IsFin x7) (h8 : IsFin x8) :
    IsFin (val_main_v29 (F := Ideal) x0 x1 x2 x3 x4 x5 x6 x7 x8) := by
  rw [ref_pre]
  exact isFin_preArr h0 (fin_v19 x1 h0 h2 h3 h4) h5 (fin_bias h6) h7 (fin_bias h8)

theorem fin_v55 {x0 : (⟨S50000x64, .f32⟩ : BufTy).Contents (Elt Ideal)} {x2 : (⟨S800000x64, .f32⟩ : BufTy).Contents (Elt Ideal)} {x3 : (⟨S64x64, .f32⟩ : BufTy).Contents (Elt Ideal)} {x4 : (⟨S64, .f32⟩ : BufTy).Contents (Elt Ideal)} {x5 : (⟨S64x64, .f32⟩ : BufTy).Contents (Elt Ideal)} {x6 : (⟨S64, .f32⟩ : BufTy).Contents (Elt Ideal)} {x7 : (⟨S64x64, .f32⟩ : BufTy).Contents (Elt Ideal)} {x8 : (⟨S64, .f32⟩ : BufTy).Contents (Elt Ideal)} {x9 : (⟨S64, .f32⟩ : BufTy).Contents (Elt Ideal)} {x10 : (⟨S64, .f32⟩ : BufTy).Contents (Elt Ideal)} (x1 : (⟨S2x800000, .i32⟩ : BufTy).Contents (Elt Ideal)) (h0 : IsFin x0) (h2 : IsFin x2) (h3 : IsFin x3) (h4 : IsFin x4) (h5 : IsFin x5) (h6 : IsFin x6) (h7 : IsFin x7) (h8 : IsFin x8) (h9 : IsFin x9) (h10 : IsFin x10) :
    IsFin (val_main_v55 (F := Ideal) x0 x1 x2 x3 x4 x5 x6 x7 x8 x9 x10) := by
  rw [ref_norm]
  have hP := fin_v29 x1 h0 h2 h3 h4 h5 h6 h7 h8
  exact isFin_bnFull hP (exists_real_refMean_nodes hP) (exists_real_refVar_nodes hP)
    (fun j => h9 (ix1 j)) (fun j => h10 (ix1 j))

/-! ### The edge product and its normalisation -/

/-- The normalised node rows gathered at the edges' sources are finite. -/
theorem fin_v62 {x0 : (⟨S50000x64, .f32⟩ : BufTy).Contents (Elt Ideal)} {x2 : (⟨S800000x64, .f32⟩ : BufTy).Contents (Elt Ideal)} {x3 : (⟨S64x64, .f32⟩ : BufTy).Contents (Elt Ideal)} {x4 : (⟨S64, .f32⟩ : BufTy).Contents (Elt Ideal)} {x5 : (⟨S64x64, .f32⟩ : BufTy).Contents (Elt Ideal)} {x6 : (⟨S64, .f32⟩ : BufTy).Contents (Elt Ideal)} {x7 : (⟨S64x64, .f32⟩ : BufTy).Contents (Elt Ideal)} {x8 : (⟨S64, .f32⟩ : BufTy).Contents (Elt Ideal)} {x9 : (⟨S64, .f32⟩ : BufTy).Contents (Elt Ideal)} {x10 : (⟨S64, .f32⟩ : BufTy).Contents (Elt Ideal)} (x1 : (⟨S2x800000, .i32⟩ : BufTy).Contents (Elt Ideal)) (h0 : IsFin x0) (h2 : IsFin x2) (h3 : IsFin x3) (h4 : IsFin x4) (h5 : IsFin x5) (h6 : IsFin x6) (h7 : IsFin x7) (h8 : IsFin x8) (h9 : IsFin x9) (h10 : IsFin x10) :
    IsFin (val_main_v62 (F := Ideal) x0 x1 x2 x3 x4 x5 x6 x7 x8 x9 x10) := by
  unfold val_main_v62
  exact isFin_gather _ _ (fin_v55 x1 h0 h2 h3 h4 h5 h6 h7 h8 h9 h10)

/-- The normalised node rows gathered at the edges' targets are finite. -/
theorem fin_v69 {x0 : (⟨S50000x64, .f32⟩ : BufTy).Contents (Elt Ideal)} {x2 : (⟨S800000x64, .f32⟩ : BufTy).Contents (Elt Ideal)} {x3 : (⟨S64x64, .f32⟩ : BufTy).Contents (Elt Ideal)} {x4 : (⟨S64, .f32⟩ : BufTy).Contents (Elt Ideal)} {x5 : (⟨S64x64, .f32⟩ : BufTy).Contents (Elt Ideal)} {x6 : (⟨S64, .f32⟩ : BufTy).Contents (Elt Ideal)} {x7 : (⟨S64x64, .f32⟩ : BufTy).Contents (Elt Ideal)} {x8 : (⟨S64, .f32⟩ : BufTy).Contents (Elt Ideal)} {x9 : (⟨S64, .f32⟩ : BufTy).Contents (Elt Ideal)} {x10 : (⟨S64, .f32⟩ : BufTy).Contents (Elt Ideal)} (x1 : (⟨S2x800000, .i32⟩ : BufTy).Contents (Elt Ideal)) (h0 : IsFin x0) (h2 : IsFin x2) (h3 : IsFin x3) (h4 : IsFin x4) (h5 : IsFin x5) (h6 : IsFin x6) (h7 : IsFin x7) (h8 : IsFin x8) (h9 : IsFin x9) (h10 : IsFin x10) :
    IsFin (val_main_v69 (F := Ideal) x0 x1 x2 x3 x4 x5 x6 x7 x8 x9 x10) := by
  unfold val_main_v69
  exact isFin_gather _ _ (fin_v55 x1 h0 h2 h3 h4 h5 h6 h7 h8 h9 h10)

theorem fin_epre {x0 : (⟨S50000x64, .f32⟩ : BufTy).Contents (Elt Ideal)} {x2 : (⟨S800000x64, .f32⟩ : BufTy).Contents (Elt Ideal)} {x3 : (⟨S64x64, .f32⟩ : BufTy).Contents (Elt Ideal)} {x4 : (⟨S64, .f32⟩ : BufTy).Contents (Elt Ideal)} {x5 : (⟨S64x64, .f32⟩ : BufTy).Contents (Elt Ideal)} {x6 : (⟨S64, .f32⟩ : BufTy).Contents (Elt Ideal)} {x7 : (⟨S64x64, .f32⟩ : BufTy).Contents (Elt Ideal)} {x8 : (⟨S64, .f32⟩ : BufTy).Contents (Elt Ideal)} {x9 : (⟨S64, .f32⟩ : BufTy).Contents (Elt Ideal)} {x10 : (⟨S64, .f32⟩ : BufTy).Contents (Elt Ideal)} {x11 : (⟨S192x64, .f32⟩ : BufTy).Contents (Elt Ideal)} {x12 : (⟨S64, .f32⟩ : BufTy).Contents (Elt Ideal)} {x13 : (⟨S64x64, .f32⟩ : BufTy).Contents (Elt Ideal)} {x14 : (⟨S64, .f32⟩ : BufTy).Contents (Elt Ideal)} {x15 : (⟨S64x64, .f32⟩ : BufTy).Contents (Elt Ideal)} {x16 : (⟨S64, .f32⟩ : BufTy).Contents (Elt Ideal)} (x1 : (⟨S2x800000, .i32⟩ : BufTy).Contents (Elt Ideal)) (h0 : IsFin x0) (h2 : IsFin x2) (h3 : IsFin x3) (h4 : IsFin x4) (h5 : IsFin x5) (h6 : IsFin x6) (h7 : IsFin x7) (h8 : IsFin x8) (h9 : IsFin x9) (h10 : IsFin x10) (h11 : IsFin x11) (h12 : IsFin x12) (h13 : IsFin x13) (h14 : IsFin x14) (h15 : IsFin x15) (h16 : IsFin x16) :
    ∀ (e : Fin 800000) (j : Fin 64), ∃ r : ℝ, epreAt (val_main_v62 (F := Ideal) x0 x1 x2 x3 x4 x5 x6 x7 x8 x9 x10) (val_main_v69 (F := Ideal) x0 x1 x2 x3 x4 x5 x6 x7 x8 x9 x10) x2 (rows 0 (by omega) x11) (rows 64 (by omega) x11) (rows 128 (by omega) x11) (val_main_v72 (F := Ideal) x12) x13 (val_main_v77 (F := Ideal) x14) x15 (val_main_v82 (F := Ideal) x16) e j = (r : EReal) :=
  fun e j => exists_real_epreAt (fin_v62 x1 h0 h2 h3 h4 h5 h6 h7 h8 h9 h10) (fin_v69 x1 h0 h2 h3 h4 h5 h6 h7 h8 h9 h10) h2
    (fin_rows 0 (by omega) h11) (fin_rows 64 (by omega) h11) (fin_rows 128 (by omega) h11)
    (fin_bias h12) h13 (fin_bias h14) h15 (fin_bias h16) e j

theorem fin_v84 {x0 : (⟨S50000x64, .f32⟩ : BufTy).Contents (Elt Ideal)} {x2 : (⟨S800000x64, .f32⟩ : BufTy).Contents (Elt Ideal)} {x3 : (⟨S64x64, .f32⟩ : BufTy).Contents (Elt Ideal)} {x4 : (⟨S64, .f32⟩ : BufTy).Contents (Elt Ideal)} {x5 : (⟨S64x64, .f32⟩ : BufTy).Contents (Elt Ideal)} {x6 : (⟨S64, .f32⟩ : BufTy).Contents (Elt Ideal)} {x7 : (⟨S64x64, .f32⟩ : BufTy).Contents (Elt Ideal)} {x8 : (⟨S64, .f32⟩ : BufTy).Contents (Elt Ideal)} {x9 : (⟨S64, .f32⟩ : BufTy).Contents (Elt Ideal)} {x10 : (⟨S64, .f32⟩ : BufTy).Contents (Elt Ideal)} {x11 : (⟨S192x64, .f32⟩ : BufTy).Contents (Elt Ideal)} {x12 : (⟨S64, .f32⟩ : BufTy).Contents (Elt Ideal)} {x13 : (⟨S64x64, .f32⟩ : BufTy).Contents (Elt Ideal)} {x14 : (⟨S64, .f32⟩ : BufTy).Contents (Elt Ideal)} {x15 : (⟨S64x64, .f32⟩ : BufTy).Contents (Elt Ideal)} {x16 : (⟨S64, .f32⟩ : BufTy).Contents (Elt Ideal)} (x1 : (⟨S2x800000, .i32⟩ : BufTy).Contents (Elt Ideal)) (h0 : IsFin x0) (h2 : IsFin x2) (h3 : IsFin x3) (h4 : IsFin x4) (h5 : IsFin x5) (h6 : IsFin x6) (h7 : IsFin x7) (h8 : IsFin x8) (h9 : IsFin x9) (h10 : IsFin x10) (h11 : IsFin x11) (h12 : IsFin x12) (h13 : IsFin x13) (h14 : IsFin x14) (h15 : IsFin x15) (h16 : IsFin x16) :
    IsFin (val_main_v84 (F := Ideal) x0 x1 x2 x3 x4 x5 x6 x7 x8 x9 x10 x11 x12 x13 x14 x15 x16) := by
  rw [ref_epre]
  exact isFin_epreArr (fin_v62 x1 h0 h2 h3 h4 h5 h6 h7 h8 h9 h10) (fin_v69 x1 h0 h2 h3 h4 h5 h6 h7 h8 h9 h10) h2
    (fin_rows 0 (by omega) h11) (fin_rows 64 (by omega) h11) (fin_rows 128 (by omega) h11)
    (fin_bias h12) h13 (fin_bias h14) h15 (fin_bias h16)

theorem fin_v110 {x0 : (⟨S50000x64, .f32⟩ : BufTy).Contents (Elt Ideal)} {x2 : (⟨S800000x64, .f32⟩ : BufTy).Contents (Elt Ideal)} {x3 : (⟨S64x64, .f32⟩ : BufTy).Contents (Elt Ideal)} {x4 : (⟨S64, .f32⟩ : BufTy).Contents (Elt Ideal)} {x5 : (⟨S64x64, .f32⟩ : BufTy).Contents (Elt Ideal)} {x6 : (⟨S64, .f32⟩ : BufTy).Contents (Elt Ideal)} {x7 : (⟨S64x64, .f32⟩ : BufTy).Contents (Elt Ideal)} {x8 : (⟨S64, .f32⟩ : BufTy).Contents (Elt Ideal)} {x9 : (⟨S64, .f32⟩ : BufTy).Contents (Elt Ideal)} {x10 : (⟨S64, .f32⟩ : BufTy).Contents (Elt Ideal)} {x11 : (⟨S192x64, .f32⟩ : BufTy).Contents (Elt Ideal)} {x12 : (⟨S64, .f32⟩ : BufTy).Contents (Elt Ideal)} {x13 : (⟨S64x64, .f32⟩ : BufTy).Contents (Elt Ideal)} {x14 : (⟨S64, .f32⟩ : BufTy).Contents (Elt Ideal)} {x15 : (⟨S64x64, .f32⟩ : BufTy).Contents (Elt Ideal)} {x16 : (⟨S64, .f32⟩ : BufTy).Contents (Elt Ideal)} {x17 : (⟨S64, .f32⟩ : BufTy).Contents (Elt Ideal)} {x18 : (⟨S64, .f32⟩ : BufTy).Contents (Elt Ideal)} (x1 : (⟨S2x800000, .i32⟩ : BufTy).Contents (Elt Ideal)) (h0 : IsFin x0) (h2 : IsFin x2) (h3 : IsFin x3) (h4 : IsFin x4) (h5 : IsFin x5) (h6 : IsFin x6) (h7 : IsFin x7) (h8 : IsFin x8) (h9 : IsFin x9) (h10 : IsFin x10) (h11 : IsFin x11) (h12 : IsFin x12) (h13 : IsFin x13) (h14 : IsFin x14) (h15 : IsFin x15) (h16 : IsFin x16) (h17 : IsFin x17) (h18 : IsFin x18) :
    IsFin (val_main_v110 (F := Ideal) x0 x1 x2 x3 x4 x5 x6 x7 x8 x9 x10 x11 x12 x13 x14 x15 x16 x17 x18) := by
  rw [ref_enorm]
  have hP := fin_v84 x1 h0 h2 h3 h4 h5 h6 h7 h8 h9 h10 h11 h12 h13 h14 h15 h16
  exact isFin_bnFull hP (exists_real_refMean_edges hP) (exists_real_refVar_edges hP)
    (fun j => h17 (ix1 j)) (fun j => h18 (ix1 j))

end Cert.FinStages
-- ==== Proof.lean ====
/-
  A graph layer: messages relu (x_src + ef·W + b) along 800000 edges, summed at their target among 50000 nodes; a
  two-layer perceptron on each node's own row plus its sum; batch normalisation and relu; then, per edge, a three-layer
  perceptron on (normalised source row, normalised target row, edge features), batch normalisation and relu. The two
  results are the normalised node matrix and the normalised edge matrix.

  The kernel computes this in five tiled regions with the gathers and the scatter-add between them; the reference
  computes it as one line of array operations. On the extended reals the two agree, entry by entry, for finite inputs:
    * every tiled matrix product is the plain sum over the contracted axis, whatever the tiling, and a 192-wide product
      against the stacked weight is the sum of the three 64-wide products against its row blocks;
    * a column's sum over all rows is the sum of its sums over the row blocks;
    * mean of squares minus squared mean, clipped at zero, is the mean squared deviation — an identity of REAL
      numbers, which is where finiteness of the inputs is used: every gathered, summed and multiplied entry stays real;
    * a reshape there and back is the identity, and a row of statistics written twice side by side reads, at lane l,
      its entry l mod 64.
  Both programs' index arithmetic, gathers and scatter-add are the same operations of the same operands.
-/
import proofs.«158963_j17583596109847_2_alg».proof.Defs
import proofs.«158963_j17583596109847_2_alg».proof.Proof.Gen.Kernel
import proofs.«158963_j17583596109847_2_alg».proof.Proof.Gen.Kernel.Skeleton
import proofs.«158963_j17583596109847_2_alg».proof.Proof.Gen.Kernel.Launch
import proofs.«158963_j17583596109847_2_alg».proof.Proof.Gen.Kernel.Points
import proofs.«158963_j17583596109847_2_alg».proof.Proof.Gen.Kernel.Frame
import proofs.«158963_j17583596109847_2_alg».proof.Proof.Gen.KernelIdeal
import proofs.«158963_j17583596109847_2_alg».proof.Proof.Gen.KernelIdeal.Skeleton
import proofs.«158963_j17583596109847_2_alg».proof.Proof.Gen.KernelIdeal.Launch
import proofs.«158963_j17583596109847_2_alg».proof.Proof.Gen.KernelIdeal.Points
import proofs.«158963_j17583596109847_2_alg».proof.Proof.Gen.KernelIdeal.Frame
import proofs.«158963_j17583596109847_2_alg».proof.Proof.Gen.ReferenceIdeal
import proofs.«158963_j17583596109847_2_alg».proof.Proof.Gen.Pre_finite_inputs
import proofs.«158963_j17583596109847_2_alg».proof.Proof.Gen.ReferenceIdeal.Run
import proofs.«158963_j17583596109847_2_alg».proof.Proof.Gen.ReferenceIdeal.Read
import proofs.«158963_j17583596109847_2_alg».proof.Proof.KernelRun
import proofs.«158963_j17583596109847_2_alg».proof.Proof.Chain
import proofs.«158963_j17583596109847_2_alg».proof.Proof.FiniteInputs
import proofs.«158963_j17583596109847_2_alg».proof.Proof.FinStages
import Idealize.ShloMosaic.Adequacy
import Idealize.ShloMosaic.Init

noncomputable section

namespace Cert.Proof

open Idealize.ShloMosaic Idealize.SL.Sem

/-- Each program runs to the end without a fault and leaves its arguments as they were. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

set_option maxHeartbeats 1600000 in
/-- Run from memories that agree on the arguments, both idealized programs end with the reference's two terms of
    those arguments in their result buffers: the kernel by the walk through its five regions, under the finiteness
    the precondition gives; the reference by its own run. -/
theorem algebraic : Cert.algebraic_KernelIdeal_ReferenceIdeal := by
  intro m ρ m' ρ' hpre hagree
  refine ⟨fun c => Cert.ReferenceIdeal.Read.val_main_v55 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.ReferenceIdeal.Read.val_main_v110 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)), ?_, ?_⟩
  · refine (θ_run Cert.KernelIdeal.defs _ _).mono (fun r h c => ?_) (Cert.KernelIdeal.ValueRun.run m ρ)
    obtain ⟨h0, h2, h3, h4, h5, h6, h7, h8, h9, h10, h11, h12, h13, h14, h15, h16, h17, h18⟩ :=
      Cert.FiniteInputs.finite_of_pre (hpre c)
    have hN := Cert.FinStages.fin_pre (m ((c.tc : Thread Cert.KernelIdeal.nD Cert.KernelIdeal.τ).loc Cert.KernelIdeal.main_arg1)) h0 h2 h3 h4 h5 h6 h7 h8
    have hE := Cert.FinStages.fin_epre (m ((c.tc : Thread Cert.KernelIdeal.nD Cert.KernelIdeal.τ).loc Cert.KernelIdeal.main_arg1)) h0 h2 h3 h4 h5 h6 h7 h8 h9 h10 h11 h12 h13 h14 h15 h16
    exact ⟨(h c).1.trans (Cert.KernelIdeal.Chain.W11_v43 m ρ c hN), (h c).2.1.trans (Cert.KernelIdeal.Chain.W11_v89 m ρ c hN hE), (h c).2.2⟩
  · refine (θ_run Cert.ReferenceIdeal.defs _ _).mono (fun r h c => ?_) (Cert.ReferenceIdeal.Value.run (F := Ideal) m' ρ')
    obtain ⟨e0, e1, e2, e3, e4, e5, e6, e7, e8, e9, e10, e11, e12, e13, e14, e15, e16, e17, e18⟩ := hagree c
    refine ⟨(h c).1.trans ?_, (h c).2.1.trans ?_, (h c).2.2⟩
    · rw [Cert.ReferenceIdeal.Read.val_main_v55_eq]
      simp only [e0, e1, e2, e3, e4, e5, e6, e7, e8, e9, e10]
    · rw [Cert.ReferenceIdeal.Read.val_main_v110_eq]
      simp only [e0, e1, e2, e3, e4, e5, e6, e7, e8, e9, e10, e11, e12, e13, e14, e15, e16, e17, e18]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
